-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S30 : Shape := ⟨1, ![30]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  bcast_S_S30 : S_.BroadcastsInDim S30 (![] : Fin 0 → Fin S30.rank)
  reducesTo_S30_S_d0 : S30.ReducesTo [0] S_

variable [Facts]

def fn {F : FTy → Type} [FloatOps F] (main_arg0 : FVec F S16777216 .f32) (main_arg1 : FVec F S30 .f32) (main_arg2 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S30 .f32 := Host.absf main_arg1
  let main_cst_0 : FVec F S_ .f32 := constant S_ .f32 0x7F800000#32
  let main_v5 : FVec F S30 .f32 := broadcastInDim S30 ![] bcast_S_S30 main_cst_0
  let main_v6 : IVec S30 1 := cmpf .olt main_v4 main_v5
  let main_c_1 : IVec S_ 1 := constantI S_ 1 1#1
  let main_v7 : IVec S_ 1 := (fun x v => Host.reduce IntOp.andi x v reducesTo_S30_S_d0 h_S_) main_v6 main_c_1
  let main_v8 : IVec S_ 1 := andi main_v3 main_v7
  main_v8
-- ==== Kernel.lean ====
abbrev S16777216 : Shape := ⟨1, ![16777216]⟩
abbrev S30 : Shape := ⟨1, ![30]⟩
abbrev S2x65536x128 : Shape := ⟨3, ![2, 65536, 128]⟩
abbrev S2x1x30 : Shape := ⟨3, ![2, 1, 30]⟩
abbrev S1x8192x128 : Shape := ⟨3, ![1, 8192, 128]⟩
abbrev S1x1x30 : Shape := ⟨3, ![1, 1, 30]⟩
abbrev S8192x128 : Shape := ⟨2, ![8192, 128]⟩
abbrev S1x30 : Shape := ⟨2, ![1, 30]⟩
abbrev S1 : Shape := ⟨1, ![1]⟩
abbrev S1x1x1 : Shape := ⟨3, ![1, 1, 1]⟩
abbrev S1x1 : Shape := ⟨2, ![1, 1]⟩
abbrev S_ : Shape := ⟨0, ![]⟩
abbrev S2x1x1 : Shape := ⟨3, ![2, 1, 1]⟩

abbrev nBuf : Space → Nat
  | .hbm => 48
  | .vmem => 13
  | .smem => 0
  | _ => 0

abbrev bufTy : (tb : Table) → Fin (tcTables nBuf tb) → BufTy
  | .hbm, ⟨0, _⟩ => ⟨S16777216, .f32⟩
  | .hbm, ⟨1, _⟩ => ⟨S30, .f32⟩
  | .hbm, ⟨2, _⟩ => ⟨S16777216, .i32⟩
  | .hbm, ⟨3, _⟩ => ⟨S2x65536x128, .f32⟩
  | .hbm, ⟨4, _⟩ => ⟨S2x65536x128, .i32⟩
  | .hbm, ⟨5, _⟩ => ⟨S2x1x30, .f32⟩
  | .hbm, ⟨6, _⟩ => ⟨S_, .f32⟩
  | .hbm, ⟨7, _⟩ => ⟨S30, .f32⟩
  | .hbm, ⟨8, _⟩ => ⟨S_, .f32⟩
  | .hbm, ⟨9, _⟩ => ⟨S30, .f32⟩
  | .hbm, ⟨10, _⟩ => ⟨S30, .f32⟩
  | .hbm, ⟨11, _⟩ => ⟨S_, .f32⟩
  | .hbm, ⟨12, _⟩ => ⟨S30, .f32⟩
  | .hbm, ⟨13, _⟩ => ⟨S30, .i1⟩
  | .hbm, ⟨14, _⟩ => ⟨S30, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S30, .f32⟩
  | .hbm, ⟨21, _⟩ => ⟨S30, .f32⟩
  | .hbm, ⟨22, _⟩ => ⟨S_, .f32⟩
  | .hbm, ⟨23, _⟩ => ⟨S30, .f32⟩
  | .hbm, ⟨24, _⟩ => ⟨S30, .f32⟩
  | .hbm, ⟨25, _⟩ => ⟨S30, .f32⟩
  | .hbm, ⟨26, _⟩ => ⟨S30, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S30, .f32⟩
  | .hbm, ⟨32, _⟩ => ⟨S30, .f32⟩
  | .hbm, ⟨33, _⟩ => ⟨S30, .f32⟩
  | .hbm, ⟨34, _⟩ => ⟨S30, .f32⟩
  | .hbm, ⟨35, _⟩ => ⟨S_, .f32⟩
  | .hbm, ⟨36, _⟩ => ⟨S_, .f32⟩
  | .hbm, ⟨37, _⟩ => ⟨S30, .f32⟩
  | .hbm, ⟨38, _⟩ => ⟨S30, .f32⟩
  | .hbm, ⟨39, _⟩ => ⟨S30, .f32⟩
  | .hbm, ⟨40, _⟩ => ⟨S30, .f32⟩
  | .hbm, ⟨41, _⟩ => ⟨S1x30, .f32⟩
  | .hbm, ⟨42, _⟩ => ⟨S2x1x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S1x8192x128, .f32⟩
  | .local _ .vmem, ⟨1, _⟩ => ⟨S1x8192x128, .f32⟩
  | .local _ .vmem, ⟨2, _⟩ => ⟨S1x8192x128, .i32⟩
  | .local _ .vmem, ⟨3, _⟩ => ⟨S1x8192x128, .i32⟩
  | .local _ .vmem, ⟨4, _⟩ => ⟨S1x1x30, .f32⟩
  | .local _ .vmem, ⟨5, _⟩ => ⟨S1x1x30, .f32⟩
  | .local _ .vmem, ⟨6, _⟩ => ⟨S1x8192x128, .f32⟩
  | .local _ .vmem, ⟨7, _⟩ => ⟨S1x8192x128, .f32⟩
  | .local _ .vmem, ⟨8, _⟩ => ⟨S1x8192x128, .i32⟩
  | .local _ .vmem, ⟨9, _⟩ => ⟨S1x8192x128, .i32⟩
  | .local _ .vmem, ⟨10, _⟩ => ⟨S1x30, .f32⟩
  | .local _ .vmem, ⟨11, _⟩ => ⟨S1x1x1, .f32⟩
  | .local _ .vmem, ⟨12, _⟩ => ⟨S1x1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_cst_7 : Ref sig .tc := ⟨.hbm, 28, rfl⟩
abbrev main_v17 : Ref sig .tc := ⟨.hbm, 29, rfl⟩
abbrev main_cst_8 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_9 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_10 : Ref sig .tc := ⟨.hbm, 43, rfl⟩
abbrev main_v27 : Ref sig .tc := ⟨.hbm, 44, rfl⟩
abbrev main_v28 : Ref sig .tc := ⟨.hbm, 45, rfl⟩
abbrev main_cst_11 : Ref sig .tc := ⟨.hbm, 46, rfl⟩
abbrev main_v29 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x30 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x30 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S16777216_S2x65536x128 : S16777216.ShapeCasts S2x65536x128
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x1x30_S1x1x30_0_0_0 : ∀ a, (![0, 0, 0] : Fin 3 → Nat) a + S1x1x30.size a ≤ S1x1x30.size a
  h_S1x1x30 : 0 < S1x1x30.numel
  shapeCasts_S1x1x30_S1x30 : S1x1x30.ShapeCasts S1x30
  shapeCasts_S1x30_S1x1x30 : S1x30.ShapeCasts S1x1x30
  natLt_1_32 : 1 < 32
  shapeCasts_S8192x128_S1x8192x128 : S8192x128.ShapeCasts S1x8192x128
  reduces_S1x8192x128_S1 : S1x8192x128.Reduces [1, 2] S1
  shapeCasts_S1_S1x1x1 : S1.ShapeCasts S1x1x1
  inpos_S1x1x1_p0_0_0 : ∀ a, (![0, 0, 0] : Fin 3 → Nat) a < S1x1x1.size a
  concatenates_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x30_d1 : Shape.Concatenates [S1x1, S1x1, S1x1, S1x1, S1x1, S1x1, S1x1, S1x1, S1x1, S1x1, S1x1, S1x1, S1x1, S1x1, S1x1, S1x1, S1x1, S1x1, S1x1, S1x1, S1x1, S1x1, S1x1, S1x1, S1x1, S1x1, S1x1, S1x1, S1x1, S1x1] S1x30 1
  reducesTo_S2x1x30_S30_d0_1 : S2x1x30.ReducesTo [0, 1] S30
  h_S_ : 0 < S_.numel
  bcast_S_S30 : S_.BroadcastsInDim S30 (![] : Fin 0 → Fin S30.rank)
  reducesTo_S30_S_d0 : S30.ReducesTo [0] S_
  shapeCasts_S30_S1x30 : S30.ShapeCasts S1x30
  inb_S1x30_S1x30_0_0 : ∀ a, (![0, 0] : Fin 2 → Nat) a + S1x30.size a ≤ S1x30.size a
  h_S1x30 : 0 < S1x30.numel
  shapeCasts_S1x30_S30 : S1x30.ShapeCasts S30
  slices_S30_o0_S1 : S30.Slices ![0] S1
  inpos_S1_p0 : ∀ a, (![0] : Fin 1 → Nat) a < S1.size a
  slices_S30_o1_S1 : S30.Slices ![1] S1
  slices_S30_o2_S1 : S30.Slices ![2] S1
  slices_S30_o3_S1 : S30.Slices ![3] S1
  slices_S30_o4_S1 : S30.Slices ![4] S1
  slices_S30_o5_S1 : S30.Slices ![5] S1
  slices_S30_o6_S1 : S30.Slices ![6] S1
  slices_S30_o7_S1 : S30.Slices ![7] S1
  slices_S30_o8_S1 : S30.Slices ![8] S1
  slices_S30_o9_S1 : S30.Slices ![9] S1
  slices_S30_o10_S1 : S30.Slices ![10] S1
  slices_S30_o11_S1 : S30.Slices ![11] S1
  slices_S30_o12_S1 : S30.Slices ![12] S1
  slices_S30_o13_S1 : S30.Slices ![13] S1
  slices_S30_o14_S1 : S30.Slices ![14] S1
  slices_S30_o15_S1 : S30.Slices ![15] S1
  slices_S30_o16_S1 : S30.Slices ![16] S1
  slices_S30_o17_S1 : S30.Slices ![17] S1
  slices_S30_o18_S1 : S30.Slices ![18] S1
  slices_S30_o19_S1 : S30.Slices ![19] S1
  slices_S30_o20_S1 : S30.Slices ![20] S1
  slices_S30_o21_S1 : S30.Slices ![21] S1
  slices_S30_o22_S1 : S30.Slices ![22] S1
  slices_S30_o23_S1 : S30.Slices ![23] S1
  slices_S30_o24_S1 : S30.Slices ![24] S1
  slices_S30_o25_S1 : S30.Slices ![25] S1
  slices_S30_o26_S1 : S30.Slices ![26] S1
  slices_S30_o27_S1 : S30.Slices ![27] S1
  slices_S30_o28_S1 : S30.Slices ![28] S1
  slices_S30_o29_S1 : S30.Slices ![29] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S2x65536x128.size a
  hwx0_0 : ∀ i : grid0.Coords, EltTy.bits .f32 = 32 ∨ (Rect.block (s := S2x65536x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x128.size a ≤ S2x65536x128.size a
  hwx0_1 : ∀ i : grid0.Coords, EltTy.bits .i32 = 32 ∨ (Rect.block (s := S2x65536x128) S1x8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x30.size a ≤ S2x1x30.size a
  hwx0_2 : ∀ i : grid0.Coords, EltTy.bits .f32 = 32 ∨ (Rect.block (s := S2x1x30) S1x1x30.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x128.size a ≤ S2x65536x128.size a
  hwx1_0 : ∀ i : grid1.Coords, EltTy.bits .f32 = 32 ∨ (Rect.block (s := S2x65536x128) S1x8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192x128.size a ≤ S2x65536x128.size a
  hwx1_1 : ∀ i : grid1.Coords, EltTy.bits .i32 = 32 ∨ (Rect.block (s := S2x65536x128) S1x8192x128.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x30.size a ≤ S1x30.size a
  hwx1_2 : ∀ i : grid1.Coords, EltTy.bits .f32 = 32 ∨ (Rect.block (s := S1x30) S1x30.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S2x1x1.size a
  hwx1_3 : ∀ i : grid1.Coords, EltTy.bits .f32 = 32 ∨ (Rect.block (s := S2x1x1) S1x1x1.size (cc1_transform_3 i) (hinb1_3 i)).WholeWords (EltTy.packing .f32)

variable [Facts₀]

abbrev win0_0 : Pipeline.Window sig grid0 :=
  Pipeline.Window.ofSpec (Memref.whole main_v0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x30.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x30.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16777216 : Shape := ⟨1, ![16777216]⟩
abbrev S30 : Shape := ⟨1, ![30]⟩
abbrev S_ : Shape := ⟨0, ![]⟩
abbrev S16777216x1 : Shape := ⟨2, ![16777216, 1]⟩
abbrev S16777216x2 : Shape := ⟨2, ![16777216, 2]⟩
abbrev S33554432 : Shape := ⟨1, ![33554432]⟩
abbrev S33554432x1 : Shape := ⟨2, ![33554432, 1]⟩
abbrev S16777216x2x1 : Shape := ⟨3, ![16777216, 2, 1]⟩

abbrev nBuf : Space → Nat
  | .hbm => 113
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S30, .f32⟩
  | .hbm, ⟨2, _⟩ => ⟨S16777216, .i32⟩
  | .hbm, ⟨3, _⟩ => ⟨S16777216, .f32⟩
  | .hbm, ⟨4, _⟩ => ⟨S16777216, .f32⟩
  | .hbm, ⟨5, _⟩ => ⟨S_, .f32⟩
  | .hbm, ⟨6, _⟩ => ⟨S16777216, .f32⟩
  | .hbm, ⟨7, _⟩ => ⟨S16777216, .f32⟩
  | .hbm, ⟨8, _⟩ => ⟨S_, .f32⟩
  | .hbm, ⟨9, _⟩ => ⟨S16777216, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S16777216, .f32⟩
  | .hbm, ⟨14, _⟩ => ⟨S16777216, .f32⟩
  | .hbm, ⟨15, _⟩ => ⟨S16777216x1, .f32⟩
  | .hbm, ⟨16, _⟩ => ⟨S16777216x1, .f32⟩
  | .hbm, ⟨17, _⟩ => ⟨S16777216x2, .f32⟩
  | .hbm, ⟨18, _⟩ => ⟨S_, .f32⟩
  | .hbm, ⟨19, _⟩ => ⟨S16777216, .f32⟩
  | .hbm, ⟨20, _⟩ => ⟨S16777216, .f32⟩
  | .hbm, ⟨21, _⟩ => ⟨S16777216x1, .f32⟩
  | .hbm, ⟨22, _⟩ => ⟨S16777216x1, .f32⟩
  | .hbm, ⟨23, _⟩ => ⟨S16777216x2, .f32⟩
  | .hbm, ⟨24, _⟩ => ⟨S16777216x2, .f32⟩
  | .hbm, ⟨25, _⟩ => ⟨S16777216x2, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16777216x2, .f32⟩
  | .hbm, ⟨31, _⟩ => ⟨S16777216x2, .f32⟩
  | .hbm, ⟨32, _⟩ => ⟨S16777216x2, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S16777216x2, .i32⟩
  | .hbm, ⟨37, _⟩ => ⟨S16777216x2, .i32⟩
  | .hbm, ⟨38, _⟩ => ⟨S_, .i32⟩
  | .hbm, ⟨39, _⟩ => ⟨S16777216x2, .i32⟩
  | .hbm, ⟨40, _⟩ => ⟨S16777216x2, .i32⟩
  | .hbm, ⟨41, _⟩ => ⟨S_, .f32⟩
  | .hbm, ⟨42, _⟩ => ⟨S30, .f32⟩
  | .hbm, ⟨43, _⟩ => ⟨S33554432, .i32⟩
  | .hbm, ⟨44, _⟩ => ⟨S_, .i32⟩
  | .hbm, ⟨45, _⟩ => ⟨S33554432, .i32⟩
  | .hbm, ⟨46, _⟩ => ⟨S33554432, .i1⟩
  | .hbm, ⟨47, _⟩ => ⟨S_, .i32⟩
  | .hbm, ⟨48, _⟩ => ⟨S33554432, .i32⟩
  | .hbm, ⟨49, _⟩ => ⟨S33554432, .i32⟩
  | .hbm, ⟨50, _⟩ => ⟨S33554432, .i32⟩
  | .hbm, ⟨51, _⟩ => ⟨S33554432x1, .i32⟩
  | .hbm, ⟨52, _⟩ => ⟨S_, .f32⟩
  | .hbm, ⟨53, _⟩ => ⟨S33554432, .f32⟩
  | .hbm, ⟨54, _⟩ => ⟨S30, .f32⟩
  | .hbm, ⟨55, _⟩ => ⟨S_, .f32⟩
  | .hbm, ⟨56, _⟩ => ⟨S30, .f32⟩
  | .hbm, ⟨57, _⟩ => ⟨S30, .i1⟩
  | .hbm, ⟨58, _⟩ => ⟨S30, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S30, .f32⟩
  | .hbm, ⟨65, _⟩ => ⟨S30, .f32⟩
  | .hbm, ⟨66, _⟩ => ⟨S_, .f32⟩
  | .hbm, ⟨67, _⟩ => ⟨S30, .f32⟩
  | .hbm, ⟨68, _⟩ => ⟨S30, .f32⟩
  | .hbm, ⟨69, _⟩ => ⟨S30, .f32⟩
  | .hbm, ⟨70, _⟩ => ⟨S30, .f32⟩
  | .hbm, ⟨71, _⟩ => ⟨S_, .f32⟩
  | .hbm, ⟨72, _⟩ => ⟨S30, .f32⟩
  | .hbm, ⟨73, _⟩ => ⟨S30, .f32⟩
  | .hbm, ⟨74, _⟩ => ⟨S30, .f32⟩
  | .hbm, ⟨75, _⟩ => ⟨S30, .f32⟩
  | .hbm, ⟨76, _⟩ => ⟨S_, .f32⟩
  | .hbm, ⟨77, _⟩ => ⟨S_, .f32⟩
  | .hbm, ⟨78, _⟩ => ⟨S30, .f32⟩
  | .hbm, ⟨79, _⟩ => ⟨S30, .f32⟩
  | .hbm, ⟨80, _⟩ => ⟨S30, .f32⟩
  | .hbm, ⟨81, _⟩ => ⟨S30, .f32⟩
  | .hbm, ⟨82, _⟩ => ⟨S_, .i32⟩
  | .hbm, ⟨83, _⟩ => ⟨S16777216x2, .i32⟩
  | .hbm, ⟨84, _⟩ => ⟨S16777216x2, .i1⟩
  | .hbm, ⟨85, _⟩ => ⟨S_, .i32⟩
  | .hbm, ⟨86, _⟩ => ⟨S16777216x2, .i32⟩
  | .hbm, ⟨87, _⟩ => ⟨S16777216x2, .i32⟩
  | .hbm, ⟨88, _⟩ => ⟨S16777216x2, .i32⟩
  | .hbm, ⟨89, _⟩ => ⟨S16777216x2x1, .i32⟩
  | .hbm, ⟨90, _⟩ => ⟨S16777216x2, .f32⟩
  | .hbm, ⟨91, _⟩ => ⟨S_, .f32⟩
  | .hbm, ⟨92, _⟩ => ⟨S16777216x2, .f32⟩
  | .hbm, ⟨93, _⟩ => ⟨S16777216x2, .f32⟩
  | .hbm, ⟨94, _⟩ => ⟨S16777216x2, .f32⟩
  | .hbm, ⟨95, _⟩ => ⟨S16777216x2, .f32⟩
  | .hbm, ⟨96, _⟩ => ⟨S16777216x2, .i1⟩
  | .hbm, ⟨97, _⟩ => ⟨S16777216x2, .f32⟩
  | .hbm, ⟨98, _⟩ => ⟨S16777216x2, .f32⟩
  | .hbm, ⟨99, _⟩ => ⟨S16777216x2, .f32⟩
  | .hbm, ⟨100, _⟩ => ⟨S16777216x2, .f32⟩
  | .hbm, ⟨101, _⟩ => ⟨S16777216x2, .f32⟩
  | .hbm, ⟨102, _⟩ => ⟨S16777216x2, .f32⟩
  | .hbm, ⟨103, _⟩ => ⟨S16777216x2, .f32⟩
  | .hbm, ⟨104, _⟩ => ⟨S16777216x2, .f32⟩
  | .hbm, ⟨105, _⟩ => ⟨S16777216x2, .f32⟩
  | .hbm, ⟨106, _⟩ => ⟨S16777216x2, .f32⟩
  | .hbm, ⟨107, _⟩ => ⟨S16777216x2, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_c_6 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_c_8 : Ref sig .tc := ⟨.hbm, 44, rfl⟩
abbrev main_v26 : Ref sig .tc := ⟨.hbm, 45, rfl⟩
abbrev main_v27 : Ref sig .tc := ⟨.hbm, 46, rfl⟩
abbrev main_c_9 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩
abbrev main_cst_11 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_12 : Ref sig .tc := ⟨.hbm, 59, rfl⟩
abbrev main_v37 : Ref sig .tc := ⟨.hbm, 60, rfl⟩
abbrev main_cst_13 : Ref sig .tc := ⟨.hbm, 61, rfl⟩
abbrev main_v38 : Ref sig .tc := ⟨.hbm, 62, rfl⟩
abbrev main_cst_14 : Ref sig .tc := ⟨.hbm, 63, rfl⟩
abbrev main_v39 : Ref sig .tc := ⟨.hbm, 64, rfl⟩
abbrev main_v40 : Ref sig .tc := ⟨.hbm, 65, rfl⟩
abbrev main_cst_15 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_16 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_17 : Ref sig .tc := ⟨.hbm, 76, rfl⟩
abbrev main_call2_v0 : Ref sig .tc := ⟨.hbm, 77, rfl⟩
abbrev main_call2_v1 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_18 : Ref sig .tc := ⟨.hbm, 82, rfl⟩
abbrev main_v52 : Ref sig .tc := ⟨.hbm, 83, rfl⟩
abbrev main_v53 : Ref sig .tc := ⟨.hbm, 84, rfl⟩
abbrev main_c_19 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_20 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_21 : Ref sig .tc := ⟨.hbm, 108, rfl⟩
abbrev main_v75 : Ref sig .tc := ⟨.hbm, 109, rfl⟩
abbrev main_v76 : Ref sig .tc := ⟨.hbm, 110, rfl⟩
abbrev main_cst_22 : Ref sig .tc := ⟨.hbm, 111, rfl⟩
abbrev main_v77 : Ref sig .tc := ⟨.hbm, 112, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  bcast_S_S16777216x2 : S_.BroadcastsInDim S16777216x2 (![] : Fin 0 → Fin S16777216x2.rank)
  bcast_S_S30 : S_.BroadcastsInDim S30 (![] : Fin 0 → Fin S30.rank)
  shapeCasts_S16777216x2_S33554432 : S16777216x2.ShapeCasts S33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  reducesTo_S30_S_d0 : S30.ReducesTo [0] S_
  h_S_ : 0 < S_.numel
  bcast_S16777216x2_S16777216x2x1_0_1 : S16777216x2.BroadcastsInDim S16777216x2x1 (![0, 1] : Fin 2 → Fin S16777216x2x1.rank)
  reducesTo_S16777216x2_S_d0_1 : S16777216x2.ReducesTo [0, 1] S_
  scatter_S30_S33554432x1_S33554432_n_0_0_1_wf : ScatterDims.WF S30 S33554432x1 S33554432 [] [0] [0] 1
  gather_S30_S16777216x2x1_S16777216x2_n_0_n_n_0_2_1_wf : GatherDims.WF S30 S16777216x2x1 S16777216x2 [] [0] [] [0] [] 2 ![1]

variable [Facts₀]

def scatter_S30_S33554432x1_S33554432_n_0_0_1 : ScatterDims S30 S33554432x1 S33554432 where
  updateWindowDims := []
  insertedWindowDims := [0]
  scatterDimsToOperandDims := [0]
  indexVectorDim := 1
  wf := scatter_S30_S33554432x1_S33554432_n_0_0_1_wf
def gather_S30_S16777216x2x1_S16777216x2_n_0_n_n_0_2_1 : GatherDims S30 S16777216x2x1 S16777216x2 where
  offsetDims := []
  collapsedSliceDims := [0]
  operandBatchingDims := []
  startIndicesBatchingDims := []
  startIndexMap := [0]
  indexVectorDim := 2
  sliceSizes := ![1]
  wf := gather_S30_S16777216x2x1_S16777216x2_n_0_n_n_0_2_1_wf

class Facts : Prop extends Facts₀ where

variable [Facts]
-- ==== Proof.Spec.lean ====
/-
  The loss both programs compute, written once as a function of the three argument arrays.

  Per sample n (logit x, integer label b):  p = 1/(1+e^{-x}),  t = b as a real,  g = |p - t|,
  bin = clamp(trunc(30·g), 0, 29).  A bin's count is twice the number of samples in it (the two
  channels (p, 1-p) against (t, 1-t) have the same gap, so each sample is counted in its bin twice).
  From the thirty counts and the running sums `acc` the per-bin weights are a short pointwise chain
  (`weights`).  The loss is the sum over samples of weight(bin)·(bce₀ + bce₁), divided by 2N, where
  bceᵢ is the softplus form log(1+e^{u}) - u·v of the cross-entropy on channel i.
-/
import Idealize.ShloMosaic.PureOps.Ideal
import Idealize.ShloMosaic.Lib.ValueIdx

noncomputable section

namespace Cert.Ghm

open Idealize.ShloMosaic Idealize.ShloMosaic.ValueIdx

/-- The number of samples, 2^24. -/
abbrev NS : Nat := 16777216
/-- A vector of NS entries, a vector of thirty. -/
abbrev SN : Shape := ⟨1, ![16777216]⟩
abbrev SB : Shape := ⟨1, ![30]⟩
abbrev S0 : Shape := ⟨0, ![]⟩

/-- The float literals of the two programs, as the extended reals their patterns denote. -/
abbrev c0 : Ideal .f32 := FloatOps.ofBits (F := Ideal) .f32 0x00000000#32
abbrev c1 : Ideal .f32 := FloatOps.ofBits (F := Ideal) .f32 0x3F800000#32
abbrev c2 : Ideal .f32 := FloatOps.ofBits (F := Ideal) .f32 0x40000000#32
abbrev c30 : Ideal .f32 := FloatOps.ofBits (F := Ideal) .f32 0x41F00000#32
abbrev c075 : Ideal .f32 := FloatOps.ofBits (F := Ideal) .f32 0x3F400000#32
abbrev c025 : Ideal .f32 := FloatOps.ofBits (F := Ideal) .f32 0x3E800000#32
abbrev cTotal : Ideal .f32 := FloatOps.ofBits (F := Ideal) .f32 0x4C000000#32
abbrev cEps : Ideal .f32 := FloatOps.ofBits (F := Ideal) .f32 0x2B8CBCCC#32

/-! ## One sample -/

/-- The probability of a logit. -/
def prob (x : Ideal .f32) : Ideal .f32 := FloatOps.logistic x
/-- An integer label as a real. -/
def tOf (b : BitVec 32) : Ideal .f32 := FloatOps.sitofp .f32 b
/-- The gap |p - t|. -/
def gap (p t : Ideal .f32) : Ideal .f32 := FloatOps.absf (FloatOps.subf p t)
/-- The bin of a gap: 30·g truncated to an integer and clamped to [0, 29]. -/
def binOfGap (g : Ideal .f32) : BitVec 32 :=
  IntOp.minsi 29#32 (IntOp.maxsi 0#32 (FloatOps.fptosi 32 (FloatOps.mulf g c30)))
/-- The bin of a sample. -/
def bin (x : Ideal .f32) (b : BitVec 32) : BitVec 32 := binOfGap (gap (prob x) (tOf b))
/-- 1 when the sample's bin is the word k, else 0. -/
def ind (k : BitVec 32) (x : Ideal .f32) (b : BitVec 32) : Ideal .f32 :=
  FloatOps.sitofp .f32 (BitVec.setWidth 32 (IntOp.cmpi .eq (bin x b) k))
/-- log(1 + e^u) in the max-plus-log1p form both programs spell. -/
def lae (u : Ideal .f32) : Ideal .f32 :=
  Scalar.select (FloatOps.cmpf .one (FloatOps.subf c0 u) (FloatOps.subf c0 u)) (FloatOps.addf c0 u)
    (FloatOps.addf (FloatOps.maximumf c0 u)
      (FloatOps.log1p (FloatOps.exp (FloatOps.subf c0 (FloatOps.absf (FloatOps.subf c0 u))))))
/-- The cross-entropy terms of the two channels. -/
def bce0 (p t : Ideal .f32) : Ideal .f32 := FloatOps.subf (lae p) (FloatOps.mulf p t)
def bce1 (p t : Ideal .f32) : Ideal .f32 :=
  FloatOps.subf (lae (FloatOps.subf c1 p)) (FloatOps.mulf (FloatOps.subf c1 p) (FloatOps.subf c1 t))
/-- Their sum for a sample. -/
def bceSum (x : Ideal .f32) (b : BitVec 32) : Ideal .f32 :=
  FloatOps.addf (bce0 (prob x) (tOf b)) (bce1 (prob x) (tOf b))

/-! ## The arrays -/

/-- The count of bin k: twice the number of samples whose bin is k. -/
def counts (x : SN.Idx → Ideal .f32) (tg : SN.Idx → BitVec 32) : SB.Idx → Ideal .f32 := fun i =>
  c2 * ∑ n : Fin NS, ind (BitVec.ofNat 32 (i 0).val) (x (ix1 n)) (tg (ix1 n))

/-- Whether a bin is populated, as a word. -/
def nonempty (cnt : SB.Idx → Ideal .f32) : SB.Idx → BitVec 1 := fun i => FloatOps.cmpf .ogt (cnt i) c0
/-- The number of populated bins, at least one. -/
def nBins (cnt : SB.Idx → Ideal .f32) : Ideal .f32 :=
  max (c0 + ∑ k : Fin 30, FloatOps.uitofp .f32 (nonempty cnt (ix1 k))) c1
/-- The total 2N, at least one. -/
def total : Ideal .f32 := max cTotal c1
/-- The momentum update of the running sums on the populated bins. -/
def newAcc (cnt acc : SB.Idx → Ideal .f32) : SB.Idx → Ideal .f32 := fun i =>
  Scalar.select (nonempty cnt i) (c075 * acc i + c025 * cnt i) (acc i)
/-- The per-bin weights. -/
def weights (cnt acc : SB.Idx → Ideal .f32) : SB.Idx → Ideal .f32 := fun i =>
  Ideal.div (Scalar.select (nonempty cnt i) (Ideal.div total (max (newAcc cnt acc i) cEps)) c0) (nBins cnt)

/-- A table of thirty read at a word: the entry when the word is below thirty, else zero. -/
def wAt (w : Fin 30 → Ideal .f32) (b : BitVec 32) : Ideal .f32 :=
  if h : b.toNat < 30 then w ⟨b.toNat, h⟩ else c0

/-- The loss. -/
def loss (x : SN.Idx → Ideal .f32) (acc : SB.Idx → Ideal .f32) (tg : SN.Idx → BitVec 32) : Ideal .f32 :=
  Ideal.div (c0 + ∑ n : Fin NS,
      wAt (fun k => weights (counts x tg) acc (ix1 k)) (bin (x (ix1 n)) (tg (ix1 n)))
        * bceSum (x (ix1 n)) (tg (ix1 n))) total * c1

end Cert.Ghm

end
-- ==== Proof.RefSpec.lean ====
/-
  The reference's spelling of the same loss: every sample is laid out as two channels, (p, 1-p) against
  (t, 1-t); gap, bin, weight and cross-entropy are taken per channel, the counts are a scatter of ones over all
  2N channel entries and the loss a sum over all of them.
-/
import proofs.«105683_j74105365725384_2_alg».proof.Proof.Spec

noncomputable section

namespace Cert.Ghm

open Idealize.ShloMosaic Idealize.ShloMosaic.ValueIdx

/-- The probability as the host spells it, 1/(1+e^{-x}) operation by operation. -/
def probR (x : Ideal .f32) : Ideal .f32 :=
  FloatOps.hostDivf c1 (FloatOps.addf c1 (FloatOps.hostUnary .exp (FloatOps.hostNegf x)))
/-- Channel c of the pair (u, 1-u). -/
def chan (u : Ideal .f32) (c : Fin 2) : Ideal .f32 := if c.val = 0 then u else FloatOps.subf c1 u
/-- The gap on a channel. -/
def gapR (x : Ideal .f32) (b : BitVec 32) (c : Fin 2) : Ideal .f32 :=
  FloatOps.hostAbsf (FloatOps.subf (chan (probR x) c) (chan (tOf b) c))
/-- The bin on a channel. -/
def binR (x : Ideal .f32) (b : BitVec 32) (c : Fin 2) : BitVec 32 := binOfGap (gapR x b c)
/-- log(1+e^u) as the host spells it. -/
def laeR (u : Ideal .f32) : Ideal .f32 :=
  Scalar.select (FloatOps.cmpf .une (FloatOps.subf c0 u) (FloatOps.subf c0 u)) (FloatOps.addf c0 u)
    (FloatOps.addf (FloatOps.maximumf c0 u)
      (FloatOps.hostUnary .log1p (FloatOps.hostUnary .exp (FloatOps.hostNegf (FloatOps.hostAbsf (FloatOps.subf c0 u))))))
/-- The cross-entropy term on a channel. -/
def bceR (x : Ideal .f32) (b : BitVec 32) (c : Fin 2) : Ideal .f32 :=
  FloatOps.subf (laeR (chan (probR x) c)) (FloatOps.mulf (chan (probR x) c) (chan (tOf b) c))

/-- Channel entry j of the 2N (entry 2n + c is channel c of sample n): its sample and its channel. -/
theorem half_lt {j : Nat} (h : j < 33554432) : j / 2 < 16777216 := by omega
/-- The counts as a scatter of ones: bin k collects one per channel entry whose bin is k. -/
def countsR (x : SN.Idx → Ideal .f32) (tg : SN.Idx → BitVec 32) : SB.Idx → Ideal .f32 := fun i =>
  c0 + ∑ j : Fin 33554432,
    if (binR (x (ix1 ⟨j.val / 2, half_lt j.isLt⟩)) (tg (ix1 ⟨j.val / 2, half_lt j.isLt⟩))
          ⟨j.val % 2, Nat.mod_lt _ (by decide)⟩).toInt = ((i 0).val : Int) then c1 else 0

/-- The loss as the reference spells it. -/
def lossR (x : SN.Idx → Ideal .f32) (acc : SB.Idx → Ideal .f32) (tg : SN.Idx → BitVec 32) : Ideal .f32 :=
  Ideal.div (c0 + ∑ n : Fin NS, ∑ c : Fin 2,
      wAt (fun k => weights (countsR x tg) acc (ix1 k)) (binR (x (ix1 n)) (tg (ix1 n)) c)
        * bceR (x (ix1 n)) (tg (ix1 n)) c) total * c1

end Cert.Ghm

end
-- ==== Proof.LibJoinCols.lean ====
/-
  Two matrices with the same number of rows laid side by side, read at an entry. If `x` is n × a and `y` is n × b,
  their concatenation along the column axis is n × c (the shape record's side condition makes c = a + b); its entry
  (p, k) is `x (p, k)` when k < a and `y (p, k - a)` otherwise.
-/
import Idealize.ShloMosaic.Lib.ValueIdx
import Idealize.ShloMosaic.Lib.Pipeline.Value

noncomputable section

namespace Cert.Lib.JoinCols

open Idealize.ShloMosaic Idealize.ShloMosaic.ValueIdx

variable {α : Type}

/-- A column position inside the first matrix reads the first matrix there. -/
theorem concat_cols_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (hk : k.val < a) :
    concatenate (⟨2, ![n, c]⟩ : Shape) (1 : Fin 2) [⟨⟨2, ![n, a]⟩, x⟩, ⟨⟨2, ![n, b]⟩, y⟩] h (ix2 p k) = x (ix2 p ⟨k.val, hk⟩) :=
  concatenate_pair_apply_left (1 : Fin 2) x y h (ix2 p k) rfl (ix2 p ⟨k.val, hk⟩) (fun d => by
    match d with
    | ⟨0, _⟩ => rfl
    | ⟨1, _⟩ => rfl)

/-- A column position past the first matrix reads the second matrix, the first one's width less. -/
theorem concat_cols_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (hk : a ≤ k.val) (hb : k.val - a < b) :
    concatenate (⟨2, ![n, c]⟩ : Shape) (1 : Fin 2) [⟨⟨2, ![n, a]⟩, x⟩, ⟨⟨2, ![n, b]⟩, y⟩] h (ix2 p k) = y (ix2 p ⟨k.val - a, hb⟩) :=
  concatenate_pair_apply_right (1 : Fin 2) x y h (ix2 p k) rfl rfl (ix2 p ⟨k.val - a, hb⟩) (fun d hd => by
    match d with
    | ⟨0, _⟩ => rfl
    | ⟨1, _⟩ => exact absurd rfl hd) (by show k.val - a + a = k.val; omega)

end Cert.Lib.JoinCols

end
-- ==== Proof.RefVChan.lean ====
/-
  The reference's two stacked arrays read at (sample, channel): the probabilities (p, 1-p) and the labels (t, 1-t).
-/
import proofs.«105683_j74105365725384_2_alg».proof.Proof.RefRead
import proofs.«105683_j74105365725384_2_alg».proof.Proof.RefSpec
import proofs.«105683_j74105365725384_2_alg».proof.Proof.LibJoinCols

noncomputable section

namespace Cert.Ghm.RefV

open Idealize.ShloMosaic Idealize.ShloMosaic.ValueIdx Cert.ReferenceIdeal Cert.ReferenceIdeal.Gen Cert.ReferenceIdeal.ReadP

/-- A column array [N,1] made from a vector reads, at (n, 0), the vector at n. -/
theorem col9 (n : Fin 16777216) (k : Fin 1) : idx_main_v9 (ix2 n k) = ix1 n := by
  funext a; match a with | ⟨0, _⟩ => rfl
theorem col10 (n : Fin 16777216) (k : Fin 1) : idx_main_v10 (ix2 n k) = ix1 n := by
  funext a; match a with | ⟨0, _⟩ => rfl
theorem col14 (n : Fin 16777216) (k : Fin 1) : idx_main_v14 (ix2 n k) = ix1 n := by
  funext a; match a with | ⟨0, _⟩ => rfl
theorem col15 (n : Fin 16777216) (k : Fin 1) : idx_main_v15 (ix2 n k) = ix1 n := by
  funext a; match a with | ⟨0, _⟩ => rfl

/-- The probability of sample n: 1/(1+e^{-x}), operation by operation. -/
theorem prob_read (x : SN.Idx → Ideal .f32) (n : Fin 16777216) :
    val_main_v5 (F := Ideal) x (ix1 n) = probR (x (ix1 n)) := by
  rw [val_main_v5_apply, val_main_v4_apply, val_main_cst_0_apply, val_main_v3_apply, val_main_v2_apply,
    val_main_cst_apply, val_main_v1_apply, val_main_v0_apply]
  rfl

/-- The label of sample n as a real. -/
theorem label_read (tg : SN.Idx → BitVec 32) (n : Fin 16777216) :
    val_main_v6 (F := Ideal) tg (ix1 n) = tOf (tg (ix1 n)) := rfl

/-- The stacked probabilities at (n, c): channel c of (p, 1-p). -/
theorem chanP_read (x : SN.Idx → Ideal .f32) (n : Fin 16777216) (c : Fin 2) :
    val_main_v11 (F := Ideal) x (ix2 n c) = chan (probR (x (ix1 n))) c := by
  unfold val_main_v11 chan
  rcases Nat.lt_or_ge c.val 1 with h | h
  · refine (Cert.Lib.JoinCols.concat_cols_left (val_main_v9 (F := Ideal) x) (val_main_v10 (F := Ideal) x)
      concatenates_S16777216x1_S16777216x1_S16777216x2_d1 n c h).trans ?_
    rw [if_pos (by omega), val_main_v9_apply, col9, prob_read]
  · have hb : c.val - 1 < 1 := by have := c.isLt; omega
    refine (Cert.Lib.JoinCols.concat_cols_right (val_main_v9 (F := Ideal) x) (val_main_v10 (F := Ideal) x)
      concatenates_S16777216x1_S16777216x1_S16777216x2_d1 n c h hb).trans ?_
    rw [if_neg (by omega), val_main_v10_apply, col10, val_main_v8_apply, val_main_v7_apply, val_main_cst_1_apply,
      prob_read]

/-- The stacked labels at (n, c): channel c of (t, 1-t). -/
theorem chanT_read (tg : SN.Idx → BitVec 32) (n : Fin 16777216) (c : Fin 2) :
    val_main_v16 (F := Ideal) tg (ix2 n c) = chan (tOf (tg (ix1 n))) c := by
  unfold val_main_v16 chan
  rcases Nat.lt_or_ge c.val 1 with h | h
  · refine (Cert.Lib.JoinCols.concat_cols_left (val_main_v14 (F := Ideal) tg) (val_main_v15 (F := Ideal) tg)
      concatenates_S16777216x1_S16777216x1_S16777216x2_d1 n c h).trans ?_
    rw [if_pos (by omega), val_main_v14_apply, col14, label_read]
  · have hb : c.val - 1 < 1 := by have := c.isLt; omega
    refine (Cert.Lib.JoinCols.concat_cols_right (val_main_v14 (F := Ideal) tg) (val_main_v15 (F := Ideal) tg)
      concatenates_S16777216x1_S16777216x1_S16777216x2_d1 n c h hb).trans ?_
    rw [if_neg (by omega), val_main_v15_apply, col15, val_main_v13_apply, val_main_v12_apply, val_main_cst_2_apply,
      label_read]

end Cert.Ghm.RefV

end
-- ==== Proof.RefVBin.lean ====
/-
  The bin of a gap is a word between 0 and 29: it is a clamp, whatever the truncated product is.
-/
import proofs.«105683_j74105365725384_2_alg».proof.Proof.Spec

namespace Cert.Ghm.RefV

open Idealize.ShloMosaic

/-- The clamp min(29, max(0, v)) of any word v, read as a signed integer, lies in [0, 29]. -/
theorem clamp_range (v : BitVec 32) :
    0 ≤ (IntOp.minsi 29#32 (IntOp.maxsi 0#32 v)).toInt ∧
      (IntOp.minsi 29#32 (IntOp.maxsi 0#32 v)).toInt ≤ 29 := by
  have h29 : (29#32 : BitVec 32).toInt = 29 := by decide
  have h0 : (0#32 : BitVec 32).toInt = 0 := by decide
  unfold IntOp.minsi IntOp.maxsi
  by_cases hv : v.slt 0#32 = true
  · rw [if_pos hv]
    by_cases hm : (29#32 : BitVec 32).slt 0#32 = true
    · rw [if_pos hm, h29]; omega
    · rw [if_neg hm, h0]; omega
  · rw [if_neg hv]
    have hv' : ¬ v.toInt < 0 := by
      intro h; apply hv; simp only [BitVec.slt, decide_eq_true_eq, h0]; exact h
    by_cases hm : (29#32 : BitVec 32).slt v = true
    · rw [if_pos hm, h29]; omega
    · rw [if_neg hm]
      have hm' : ¬ (29 : Int) < v.toInt := by
        intro h; apply hm; simp only [BitVec.slt, decide_eq_true_eq, h29]; exact h
      omega

/-- The bin of a gap, read as a signed integer, lies in [0, 29]. -/
theorem binOfGap_range (g : Ideal .f32) :
    0 ≤ (Cert.Ghm.binOfGap g).toInt ∧ (Cert.Ghm.binOfGap g).toInt ≤ 29 :=
  clamp_range _

end Cert.Ghm.RefV
-- ==== Proof.RefVBins.lean ====
/-
  The reference's gaps and bins read at (sample, channel), and the two index normalisations
  "add thirty to a negative index" that the scatter and the gather apply, which leave a bin unchanged.
-/
import proofs.«105683_j74105365725384_2_alg».proof.Proof.RefVChan
import proofs.«105683_j74105365725384_2_alg».proof.Proof.RefVBin

noncomputable section

namespace Cert.Ghm.RefV

open Idealize.ShloMosaic Idealize.ShloMosaic.ValueIdx Cert.ReferenceIdeal Cert.ReferenceIdeal.Gen Cert.ReferenceIdeal.ReadP

/-- The gap |x - y| on channel c of sample n. -/
theorem gap_read (x : SN.Idx → Ideal .f32) (tg : SN.Idx → BitVec 32) (n : Fin 16777216) (c : Fin 2) :
    val_main_v18 (F := Ideal) x tg (ix2 n c) = gapR (x (ix1 n)) (tg (ix1 n)) c := by
  rw [val_main_v18_apply, val_main_v17_apply, chanP_read, chanT_read]
  rfl

/-- The bin on channel c of sample n: the gap times thirty, truncated and clamped to [0, 29]. -/
theorem bin_read (x : SN.Idx → Ideal .f32) (tg : SN.Idx → BitVec 32) (n : Fin 16777216) (c : Fin 2) :
    val_main_v23 (F := Ideal) x tg (ix2 n c) = binR (x (ix1 n)) (tg (ix1 n)) c := by
  rw [val_main_v23_apply, val_main_call0_v4_apply, val_main_call0_v3_apply, val_main_c_6_apply,
    val_main_call0_v2_apply, val_main_call0_v1_apply, val_main_call0_v0_apply, val_main_c_apply,
    val_main_v22_apply, val_main_v21_apply, val_main_v20_apply, val_main_cst_5_apply, gap_read]
  rfl

/-- The bin on a channel, read as a signed integer, lies in [0, 29]. -/
theorem binR_range (x : Ideal .f32) (b : BitVec 32) (c : Fin 2) :
    0 ≤ (binR x b c).toInt ∧ (binR x b c).toInt ≤ 29 := binOfGap_range _

/-- A word that is not negative is not below zero in the signed order. -/
theorem slt_zero_of_nonneg (b : BitVec 32) (h : 0 ≤ b.toInt) : IntOp.cmpi .slt b 0#32 = 0#1 := by
  have h0 : (0#32 : BitVec 32).toInt = 0 := by decide
  have hs : b.slt 0#32 = false := by
    simp only [BitVec.slt, decide_eq_false_iff_not, h0]; omega
  show BitVec.ofBool (b.slt 0#32) = 0#1
  rw [hs]; rfl

/-- "If the index is negative add thirty" leaves a non-negative word as it is. -/
theorem norm_id (b a : BitVec 32) (h : 0 ≤ b.toInt) : Scalar.select (IntOp.cmpi .slt b 0#32) a b = b := by
  rw [slt_zero_of_nonneg b h, select_zero]

/-- The normalised bin the gather reads at (n, c) is the bin. -/
theorem bin56_read (x : SN.Idx → Ideal .f32) (tg : SN.Idx → BitVec 32) (n : Fin 16777216) (c : Fin 2) :
    val_main_v56 (F := Ideal) x tg (ix2 n c) = binR (x (ix1 n)) (tg (ix1 n)) c := by
  rw [val_main_v56_apply, val_main_v53_apply, val_main_v52_apply, val_main_c_18_apply, bin_read]
  exact norm_id _ _ (binR_range _ _ _).1

/-- Flat channel entry j of the 2N is (sample j / 2, channel j % 2). -/
theorem flat_idx (j : Fin 33554432) :
    idx_main_v25 (ix1 j) = ix2 (⟨j.val / 2, half_lt j.isLt⟩ : Fin 16777216) (⟨j.val % 2, Nat.mod_lt _ (by decide)⟩ : Fin 2) := by
  funext a; match a with
  | ⟨0, _⟩ => rfl
  | ⟨1, _⟩ => rfl

/-- The normalised bin the scatter reads at flat entry j is the bin of sample j / 2 on channel j % 2. -/
theorem bin30_read (x : SN.Idx → Ideal .f32) (tg : SN.Idx → BitVec 32) (j : Fin 33554432) :
    val_main_v30 (F := Ideal) x tg (ix1 j)
      = binR (x (ix1 ⟨j.val / 2, half_lt j.isLt⟩)) (tg (ix1 ⟨j.val / 2, half_lt j.isLt⟩))
          ⟨j.val % 2, Nat.mod_lt _ (by decide)⟩ := by
  rw [val_main_v30_apply, val_main_v27_apply, val_main_v26_apply, val_main_c_8_apply, val_main_v25_apply, flat_idx,
    bin_read]
  exact norm_id _ _ (binR_range _ _ _).1

end Cert.Ghm.RefV

end
-- ==== Proof.LibScatterAdd.lean ====
/-
  An accumulating scatter of a vector of updates into a vector, read at an entry.

  The operand is a vector of length K, the updates a vector of length N, and the scatter indices an N × 1 array of
  words: update j carries the one index word idx[j, 0]. The scatter adds update j to the operand's entry whose
  position is that word READ AS A SIGNED INTEGER, and drops the update when the position is outside [0, K).
  Over the extended reals the result's entry i is therefore the operand's entry i plus the sum, over all N updates,
  of the updates whose index word, read signed, is i.
-/
import Idealize.ShloMosaic.PureOps.Ideal
import Idealize.ShloMosaic.PureOps.Contract
import Idealize.ShloMosaic.Lib.ValueIdx

noncomputable section

open scoped BigOperators

namespace Cert.LibScatterAdd

open Idealize.ShloMosaic Idealize.ShloMosaic.ValueIdx

/-- A rank-1 index set is its one coordinate's range. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The dimension numbers of the scatter: no window axes in the updates, the operand's one axis inserted, the one
    component of the index vector naming that axis, and the index vector along the indices' second axis. Their
    conditions `wf` are decided on a program's literal extents. -/
abbrev vecDims (K N : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

/-- WHERE AN UPDATE LANDS: update `j` lands on entry `i` exactly when its index word, read signed, is `i`. -/
theorem resultIdx?_eq_some_iff {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (i : (⟨1, ![K]⟩ : Shape).Idx) :
    (vecDims K N wf).resultIdx? j idx = some i ↔ (idx (ix2 (j 0) (0 : Fin 1))).toInt = ((i 0).val : Int) := by
  have hstart : ∀ a, (vecDims K N wf).start j idx a + ((vecDims K N wf).window j a : Int)
      = (idx (ix2 (j 0) (0 : Fin 1))).toInt := by
    intro a
    obtain rfl : a = 0 := Subsingleton.elim _ _
    have hw : (vecDims K N wf).window j 0 = 0 := by
      unfold ScatterDims.window
      have hk : (0 : Fin (⟨1, ![K]⟩ : Shape).rank) ∉ (vecDims K N wf).sKept :=
        show (0 : Fin 1) ∉ (List.finRange 1).filter (fun a => a ∉ [(0 : Fin 1)]) by decide
      rw [dif_neg hk]
    unfold ScatterDims.start
    rw [dif_pos (show (0 : Fin 1) ∈ (vecDims K N wf).scatterDimsToOperandDims from List.mem_singleton.mpr rfl), hw]
    have hsi : (vecDims K N wf).siIdx j ⟨List.idxOf (0 : Fin 1) (vecDims K N wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    simp
  unfold ScatterDims.resultIdx?
  by_cases h : ∀ a, 0 ≤ (vecDims K N wf).start j idx a + ((vecDims K N wf).window j a : Int) ∧
      (vecDims K N wf).start j idx a + ((vecDims K N wf).window j a : Int) < ((⟨1, ![K]⟩ : Shape).size a : Int)
  · rw [dif_pos h]
    constructor
    · intro he
      have hv := congrArg Fin.val (congrFun (Option.some.inj he) 0)
      have h0 := (h 0).1
      simp only [hstart 0] at hv h0
      omega
    · intro he
      congr 1
      funext a
      obtain rfl : a = 0 := Subsingleton.elim _ _
      refine Fin.ext ?_
      show ((vecDims K N wf).start j idx 0 + ((vecDims K N wf).window j 0 : Int)).toNat = (i 0).val
      rw [hstart 0, he]
      simp
  · rw [dif_neg h]
    constructor
    · intro he; cases he
    · intro he
      exfalso; apply h
      intro a
      obtain rfl : a = 0 := Subsingleton.elim _ _
      rw [hstart 0, he]
      have hlt : (i 0).val < K := (i 0).isLt
      constructor
      · omega
      · show ((i 0).val : Int) < (K : Int)
        exact_mod_cast hlt

/-- THE SCATTER READ AT ENTRY `i`: over the extended reals, the operand's entry `i` plus the sum over all `N` updates
    of those whose index word, read signed, is `i` (every other update adds 0 to this entry). -/
theorem scatterAdd_vec_apply {φ : FTy} {K N w : Nat} (wf : ScatterDims.WF ⟨1, ![K]⟩ ⟨2, ![N, 1]⟩ ⟨1, ![N]⟩ [] [0] [0] 1)
    (x : FVec Ideal ⟨1, ![K]⟩ φ) (idx : IVec ⟨2, ![N, 1]⟩ w) (upd : FVec Ideal ⟨1, ![N]⟩ φ)
    (i : (⟨1, ![K]⟩ : Shape).Idx) :
    Host.scatterAdd (vecDims K N wf) x idx upd i
      = ((x i : EReal) + ∑ j : Fin N,
          if (idx (ix2 j (0 : Fin 1))).toInt = ((i 0).val : Int) then (upd (ix1 j) : EReal) else 0) := by
  show (x i : EReal) + ∑ j ∈ Finset.univ.filter (fun j => (vecDims K N wf).resultIdx? j idx = some i), upd j = _
  congr 1
  rw [Finset.sum_filter, sum_idx1]
  refine Finset.sum_congr rfl fun j _ => ?_
  have hj := resultIdx?_eq_some_iff wf idx (ix1 j) i
  by_cases hc : (idx (ix2 j (0 : Fin 1))).toInt = ((i 0).val : Int)
  · rw [if_pos hc, if_pos (hj.2 hc)]
  · rw [if_neg hc, if_neg (fun h => hc (hj.1 h))]

end Cert.LibScatterAdd

end
-- ==== Proof.RefVCounts.lean ====
/-
  The reference's counts: a scatter of ones over all 2N channel entries. Bin k collects one per entry whose bin is k.
-/
import proofs.«105683_j74105365725384_2_alg».proof.Proof.RefVBins
import proofs.«105683_j74105365725384_2_alg».proof.Proof.LibScatterAdd

noncomputable section

namespace Cert.Ghm.RefV

open Idealize.ShloMosaic Idealize.ShloMosaic.ValueIdx Cert.ReferenceIdeal Cert.ReferenceIdeal.Gen Cert.ReferenceIdeal.ReadP

/-- The index column [2N,1] made from the flat bins reads, at (j, 0), the flat bins at j. -/
theorem col31 (j : Fin 33554432) (k : Fin 1) : idx_main_v31 (ix2 j k) = ix1 j := by
  funext a; match a with | ⟨0, _⟩ => rfl

/-- The counts at bin i: zero plus one for every channel entry whose bin, read signed, is i. -/
theorem counts_read (x : SN.Idx → Ideal .f32) (tg : SN.Idx → BitVec 32) (i : SB.Idx) :
    val_main_v33 (F := Ideal) x tg i = countsR x tg i := by
  unfold val_main_v33 countsR
  refine (Cert.LibScatterAdd.scatterAdd_vec_apply (φ := .f32) (K := 30) (N := 33554432) (w := 32)
    scatter_S30_S33554432x1_S33554432_n_0_0_1_wf
    (val_main_v24 (F := Ideal)) (val_main_v31 (F := Ideal) x tg) (val_main_v32 (F := Ideal)) i).trans ?_
  rw [val_main_v24_apply, val_main_cst_7_apply]
  refine congrArg (fun s : EReal => c0 + s) (Finset.sum_congr rfl fun j _ => ?_)
  rw [val_main_v31_apply, col31, bin30_read, val_main_v32_apply, val_main_cst_10_apply]

end Cert.Ghm.RefV

end
-- ==== Proof.RefVWeights.lean ====
/-
  The reference's per-bin weights, read at a bin from the counts and the running sums.
-/
import proofs.«105683_j74105365725384_2_alg».proof.Proof.RefVCounts

noncomputable section

namespace Cert.Ghm.RefV

open Idealize.ShloMosaic Idealize.ShloMosaic.ValueIdx Cert.ReferenceIdeal Cert.ReferenceIdeal.Gen Cert.ReferenceIdeal.ReadP

/-- Whether bin i is populated. -/
theorem nonempty_read (x : SN.Idx → Ideal .f32) (tg : SN.Idx → BitVec 32) (i : SB.Idx) :
    val_main_v35 (F := Ideal) x tg i = nonempty (countsR x tg) i := by
  rw [val_main_v35_apply, val_main_v34_apply, val_main_cst_11_apply, counts_read]
  rfl

/-- The number of populated bins, at least one. -/
theorem nbins_read (x : SN.Idx → Ideal .f32) (tg : SN.Idx → BitVec 32) (i : S0.Idx) :
    val_main_v38 (F := Ideal) x tg i = nBins (countsR x tg) := by
  rw [val_main_v38_apply, val_main_cst_13_apply, val_main_v37_apply, val_main_cst_12_apply,
    Cert.LibScatterAdd.sum_idx1]
  simp only [val_main_v36_apply, nonempty_read]
  rfl

/-- The total 2N, at least one. -/
theorem total_read (i : S0.Idx) : val_main_v19 (F := Ideal) i = total := by
  rw [val_main_v19_apply, val_main_cst_3_apply, val_main_cst_4_apply]
  rfl

/-- The momentum update of the running sums on the populated bins. -/
theorem newAcc_read (x : SN.Idx → Ideal .f32) (acc : SB.Idx → Ideal .f32) (tg : SN.Idx → BitVec 32) (i : SB.Idx) :
    val_main_v44 (F := Ideal) x acc tg i = newAcc (countsR x tg) acc i := by
  rw [val_main_v44_apply, nonempty_read, val_main_v43_apply, val_main_v40_apply, val_main_v39_apply,
    val_main_cst_14_apply, val_main_v42_apply, val_main_v41_apply, val_main_cst_15_apply, counts_read]
  rfl

/-- The weight of bin i. -/
theorem weights_read (x : SN.Idx → Ideal .f32) (acc : SB.Idx → Ideal .f32) (tg : SN.Idx → BitVec 32) (i : SB.Idx) :
    val_main_v51 (F := Ideal) x acc tg i = weights (countsR x tg) acc i := by
  rw [val_main_v51_apply, val_main_v49_apply, nonempty_read, val_main_v48_apply, val_main_v47_apply, total_read,
    val_main_v46_apply, newAcc_read, val_main_v45_apply, val_main_cst_16_apply, val_main_call2_v1_apply,
    val_main_call2_v0_apply, val_main_cst_17_apply, val_main_v50_apply, nbins_read]
  rfl

end Cert.Ghm.RefV

end
-- ==== Proof.RefVGather.lean ====
/-
  The reference's gather of the per-bin weights: at (sample, channel) it reads the table of thirty at the
  channel's bin. The host reads the index word signed and clamps it into [0, 29]; a bin is already there.
-/
import proofs.«105683_j74105365725384_2_alg».proof.Proof.RefVBins

noncomputable section

namespace Cert.Ghm.RefV

open Idealize.ShloMosaic Idealize.ShloMosaic.ValueIdx Cert.ReferenceIdeal Cert.ReferenceIdeal.Gen Cert.ReferenceIdeal.ReadP

/-- The index array [N,2,1] made from the normalised bins reads, at (n, c, 0), the normalised bins at (n, c). -/
theorem idx57 (n : Fin 16777216) (c : Fin 2) : idx_main_v57 (takeIdx (ix2 n c)) = ix2 n c := by
  funext a; match a with
  | ⟨0, _⟩ => rfl
  | ⟨1, _⟩ => rfl

/-- A table of thirty read at a word in [0, 29], signed and clamped, is the table read at the word. -/
theorem take_eq_wAt (w : SB.Idx → Ideal .f32) (b : BitVec 32) (h0 : 0 ≤ b.toInt) (h29 : b.toInt ≤ 29)
    (hlt : min b.toInt.toNat (30 - 1) < 30) :
    w (ix1 ⟨min b.toInt.toNat (30 - 1), hlt⟩) = wAt (fun k => w (ix1 k)) b := by
  have hnat : b.toInt = (b.toNat : Int) := by
    have := BitVec.toInt_eq_toNat_cond b
    have hb := b.isLt
    by_cases hc : 2 * b.toNat < 2 ^ 32
    · rw [this, if_pos hc]
    · rw [this, if_neg hc] at h0; omega
  have hn : b.toNat < 30 := by omega
  unfold wAt
  rw [dif_pos hn]
  congr 2
  refine Fin.ext ?_
  show min b.toInt.toNat (30 - 1) = b.toNat
  rw [hnat]; simp only [Int.toNat_natCast]; omega

/-- The gathered weight at (n, c): the table of weights read at the bin of channel c of sample n. -/
theorem gather_read (x : SN.Idx → Ideal .f32) (acc : SB.Idx → Ideal .f32) (tg : SN.Idx → BitVec 32)
    (n : Fin 16777216) (c : Fin 2) :
    val_main_v58 (F := Ideal) x acc tg (ix2 n c)
      = wAt (fun k => val_main_v51 (F := Ideal) x acc tg (ix1 k)) (binR (x (ix1 n)) (tg (ix1 n)) c) := by
  unfold val_main_v58
  refine (gather_take_apply (N := 30) (R := 16777216) (C := 2) (w := 32) (by decide)
    gather_S30_S16777216x2x1_S16777216x2_n_0_n_n_0_2_1_wf
    (val_main_v51 (F := Ideal) x acc tg) (val_main_v57 (F := Ideal) x tg) (ix2 n c)).trans ?_
  have hb : val_main_v57 (F := Ideal) x tg (takeIdx (ix2 n c)) = binR (x (ix1 n)) (tg (ix1 n)) c := by
    rw [val_main_v57_apply, idx57, bin56_read]
  have hr := binR_range (x (ix1 n)) (tg (ix1 n)) c
  have key : ∀ (b' : BitVec 32) (hlt : min b'.toInt.toNat (30 - 1) < 30),
      b' = binR (x (ix1 n)) (tg (ix1 n)) c →
      val_main_v51 (F := Ideal) x acc tg (ix1 ⟨min b'.toInt.toNat (30 - 1), hlt⟩)
        = wAt (fun k => val_main_v51 (F := Ideal) x acc tg (ix1 k)) (binR (x (ix1 n)) (tg (ix1 n)) c) := by
    intro b' hlt e
    subst e
    exact take_eq_wAt _ _ hr.1 hr.2 _
  exact key _ _ hb

end Cert.Ghm.RefV

end
-- ==== Proof.RefVBce.lean ====
/-
  The reference's cross-entropy term read at (sample, channel): log(1 + e^u) - u·v with u the channel's
  probability and v the channel's label, log(1 + e^u) in the max-plus-log1p form.
-/
import proofs.«105683_j74105365725384_2_alg».proof.Proof.RefVChan

noncomputable section

namespace Cert.Ghm.RefV

open Idealize.ShloMosaic Idealize.ShloMosaic.ValueIdx Cert.ReferenceIdeal Cert.ReferenceIdeal.Gen Cert.ReferenceIdeal.ReadP

/-- log(1 + e^u) on channel c of sample n. -/
theorem lae_read (x : SN.Idx → Ideal .f32) (n : Fin 16777216) (c : Fin 2) :
    val_main_v71 (F := Ideal) x (ix2 n c) = laeR (chan (probR (x (ix1 n))) c) := by
  rw [val_main_v71_apply, val_main_v63_apply, val_main_v62_apply, val_main_v61_apply, val_main_cst_20_apply,
    val_main_v65_apply, val_main_v64_apply, val_main_cst_20_apply,
    val_main_v70_apply, val_main_v60_apply, val_main_v59_apply, val_main_cst_20_apply,
    val_main_v69_apply, val_main_v68_apply, val_main_v67_apply, val_main_v66_apply, val_main_v62_apply,
    val_main_v61_apply, val_main_cst_20_apply, chanP_read]
  rfl

/-- The cross-entropy term on channel c of sample n. -/
theorem bce_read (x : SN.Idx → Ideal .f32) (tg : SN.Idx → BitVec 32) (n : Fin 16777216) (c : Fin 2) :
    val_main_v73 (F := Ideal) x tg (ix2 n c) = bceR (x (ix1 n)) (tg (ix1 n)) c := by
  rw [val_main_v73_apply, val_main_v72_apply, lae_read, chanP_read, chanT_read]
  rfl

end Cert.Ghm.RefV

end
-- ==== Proof.RefV.lean ====
/-
  The reference's result read as a formula: the sum over all samples and both channels of weight(bin) times the
  cross-entropy term, divided by the total, times one.
-/
import proofs.«105683_j74105365725384_2_alg».proof.Proof.RefVWeights
import proofs.«105683_j74105365725384_2_alg».proof.Proof.RefVGather
import proofs.«105683_j74105365725384_2_alg».proof.Proof.RefVBce

noncomputable section

namespace Cert.Ghm.RefV

open Idealize.ShloMosaic Idealize.ShloMosaic.ValueIdx Cert.ReferenceIdeal Cert.ReferenceIdeal.Gen Cert.ReferenceIdeal.ReadP

/-- The weighted cross-entropy term at (sample n, channel c). -/
theorem term_read (x : SN.Idx → Ideal .f32) (acc : SB.Idx → Ideal .f32) (tg : SN.Idx → BitVec 32)
    (n : Fin 16777216) (c : Fin 2) :
    val_main_v74 (F := Ideal) x acc tg (ix2 n c)
      = wAt (fun k => weights (countsR x tg) acc (ix1 k)) (binR (x (ix1 n)) (tg (ix1 n)) c)
          * bceR (x (ix1 n)) (tg (ix1 n)) c := by
  rw [val_main_v74_apply, gather_read, bce_read]
  have hw : (fun k : Fin 30 => val_main_v51 (F := Ideal) x acc tg (ix1 k))
      = fun k => weights (countsR x tg) acc (ix1 k) := funext fun k => weights_read x acc tg (ix1 k)
  rw [hw]
  rfl

/-- The sum of the weighted terms over the whole [N,2] array is the double sum over samples and channels. -/
theorem sum_read (x : SN.Idx → Ideal .f32) (acc : SB.Idx → Ideal .f32) (tg : SN.Idx → BitVec 32) :
    (∑ j : S16777216x2.Idx, val_main_v74 (F := Ideal) x acc tg j)
      = ∑ n : Fin NS, ∑ c : Fin 2,
          wAt (fun k => weights (countsR x tg) acc (ix1 k)) (binR (x (ix1 n)) (tg (ix1 n)) c)
            * bceR (x (ix1 n)) (tg (ix1 n)) c := by
  rw [sum_idx2]
  exact Finset.sum_congr rfl fun n _ => Finset.sum_congr rfl fun c _ => term_read x acc tg n c

/-- THE REFERENCE'S RESULT: the loss in the reference's own spelling. -/
theorem ref_read (x : SN.Idx → Ideal .f32) (acc : SB.Idx → Ideal .f32) (tg : SN.Idx → BitVec 32) :
    val_main_v77 (F := Ideal) x acc tg = fun _ => lossR x acc tg := by
  funext i
  rw [val_main_v77_apply, val_main_cst_22_apply, val_main_v76_apply, total_read, val_main_v75_apply,
    val_main_cst_21_apply, sum_read]
  rfl

end Cert.Ghm.RefV

end
-- ==== Proof.LibRealPatterns.lean ====
/-
  Float patterns and finite sums as real numbers inside the extended reals.

  An IEEE-style pattern whose exponent field is not all ones denotes a real number, and a positive one when moreover
  its sign bit is clear and its exponent field is not zero (a normal number). The inclusion of the reals into the
  extended reals commutes with finite sums and with the maximum, so an expression built from real entries by sums,
  products and maxima is again the inclusion of a real.
-/
import Idealize.ShloMosaic.PureOps.Ideal
import Mathlib.Algebra.BigOperators.Fin

noncomputable section

namespace Cert.Lib.RealPatterns

open Idealize.ShloMosaic

/-- The inclusion of the reals commutes with finite sums. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The inclusion of the reals commutes with the maximum. -/
theorem coe_max (a b : ℝ) : ((max a b : ℝ) : EReal) = max (a : EReal) (b : EReal) :=
  EReal.coe_strictMono.monotone.map_max

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split_ifs <;> exact ⟨_, rfl⟩

/-- A pattern with sign bit clear and exponent field neither zero nor all ones denotes a positive real. -/
theorem ieee_pos (e m : Nat) {w : Nat} (b : BitVec w) (hs : (b.extractLsb' (e + m) 1 == 1#1) = false)
    (h1 : (b.extractLsb' m e).toNat ≠ 2 ^ e - 1) (h0 : (b.extractLsb' m e).toNat ≠ 0) :
    ∃ r : ℝ, 0 < r ∧ Ideal.ieee e m b = (r : EReal) := by
  unfold Ideal.ieee
  dsimp only
  rw [if_neg h1, if_neg h0, hs]
  refine ⟨_, ?_, rfl⟩
  simp only [Bool.false_eq_true, if_false, one_mul]
  positivity

end Cert.Lib.RealPatterns

end
-- ==== Proof.AlgConsts.lean ====
/-
  The float literals of the loss as real numbers: the patterns denote 0, 1, 2, 30, 3/4, 1/4 and 2^25, and the
  floor under the running sums is a positive real.
-/
import proofs.«105683_j74105365725384_2_alg».proof.Proof.RefSpec
import proofs.«105683_j74105365725384_2_alg».proof.Proof.LibRealPatterns

noncomputable section

namespace Cert.Ghm

open Idealize.ShloMosaic Idealize.ShloMosaic.ValueIdx

theorem c0_eq : c0 = 0 := by
  show Ideal.ofBits .f32 0x00000000#32 = 0
  simp [Ideal.ofBits, Ideal.ieee]

theorem c1_eq : c1 = 1 := by
  show Ideal.ofBits .f32 0x3F800000#32 = 1
  simp [Ideal.ofBits, Ideal.ieee, -EReal.coe_mul]; norm_num

theorem c2_eq : c2 = ((2 : ℝ) : EReal) := by
  show Ideal.ofBits .f32 0x40000000#32 = _
  simp [Ideal.ofBits, Ideal.ieee, -EReal.coe_mul]; norm_num

theorem c30_eq : c30 = ((30 : ℝ) : EReal) := by
  show Ideal.ofBits .f32 0x41F00000#32 = _
  simp [Ideal.ofBits, Ideal.ieee, -EReal.coe_mul]; norm_num

theorem c075_eq : c075 = ((3 / 4 : ℝ) : EReal) := by
  show Ideal.ofBits .f32 0x3F400000#32 = _
  simp [Ideal.ofBits, Ideal.ieee, -EReal.coe_mul]; norm_num

theorem c025_eq : c025 = ((1 / 4 : ℝ) : EReal) := by
  show Ideal.ofBits .f32 0x3E800000#32 = _
  simp [Ideal.ofBits, Ideal.ieee, -EReal.coe_mul]; norm_num

theorem cTotal_eq : cTotal = ((33554432 : ℝ) : EReal) := by
  show Ideal.ofBits .f32 0x4C000000#32 = _
  simp [Ideal.ofBits, Ideal.ieee, -EReal.coe_mul]; norm_num

/-- The floor under the running sums is a positive real (a normal pattern with the sign bit clear). -/
theorem cEps_pos : ∃ r : ℝ, 0 < r ∧ cEps = (r : EReal) := by
  show ∃ r : ℝ, 0 < r ∧ Ideal.ieee 8 23 (0x2B8CBCCC#32) = (r : EReal)
  exact Cert.Lib.RealPatterns.ieee_pos 8 23 _ (by decide) (by decide) (by decide)

theorem c0_coe : c0 = ((0 : ℝ) : EReal) := by rw [c0_eq, EReal.coe_zero]
theorem c1_coe : c1 = ((1 : ℝ) : EReal) := by rw [c1_eq, EReal.coe_one]

end Cert.Ghm

end
-- ==== Proof.AlgScalar.lean ====
/-
  One sample: the reference's two-channel spelling of the probability, the gap, the bin and the two
  cross-entropy terms is the one-channel formula.  The probability 1/(1+e^{-x}) spelt operation by
  operation is the logistic function; log(1+e^u) spelt with the negated absolute value is the same
  function as with 0 - |·|; and on the second channel the gap |(1-p) - (1-t)| is |p - t| when p and t
  are real numbers.
-/
import proofs.«105683_j74105365725384_2_alg».proof.Proof.AlgConsts

noncomputable section

namespace Cert.Ghm

open Idealize.ShloMosaic Idealize.ShloMosaic.ValueIdx

/-- The probability spelt operation by operation is the logistic function. -/
theorem probR_eq (x : Ideal .f32) : probR x = prob x := by
  unfold probR prob
  rw [c1_eq]
  rfl

/-- The probability of a real logit is a real number. -/
theorem prob_coe (r : ℝ) : prob ((r : EReal)) = (((1 + Real.exp (-r))⁻¹ : ℝ) : EReal) := by
  unfold prob
  rw [Ideal.logistic_def, Ideal.logistic_coe]

/-- An integer label is the real number it denotes. -/
theorem tOf_coe (b : BitVec 32) : tOf b = ((b.toInt : ℝ) : EReal) := rfl

/-- The two spellings of log(1+e^u) are one function. -/
theorem laeR_eq (u : Ideal .f32) : laeR u = lae u := by
  unfold laeR lae
  rw [c0_eq]
  simp only [Ideal.hostNegf_def, Ideal.hostAbsf_def, Ideal.hostUnary_log1p_def, Ideal.hostUnary_exp_def,
    Ideal.negf_def, Ideal.subf_def, Ideal.log1p_def, Ideal.exp_def, zero_sub]
  rfl

theorem chan_zero (u : Ideal .f32) : chan u 0 = u := by
  unfold chan; simp

theorem chan_one (u : Ideal .f32) : chan u 1 = FloatOps.subf c1 u := by
  unfold chan; simp

/-- The cross-entropy term of the first channel. -/
theorem bceR_zero (x : Ideal .f32) (b : BitVec 32) : bceR x b 0 = bce0 (prob x) (tOf b) := by
  unfold bceR bce0
  rw [chan_zero, chan_zero, laeR_eq, probR_eq]

/-- The cross-entropy term of the second channel. -/
theorem bceR_one (x : Ideal .f32) (b : BitVec 32) : bceR x b 1 = bce1 (prob x) (tOf b) := by
  unfold bceR bce1
  rw [chan_one, chan_one, laeR_eq, probR_eq]

/-- On the second channel the gap of two reals is the gap of the first: |(1-a) - (1-b)| = |a - b|. -/
theorem abs_chan_one (a b : ℝ) :
    FloatOps.hostAbsf (FloatOps.subf (FloatOps.subf c1 ((a : EReal) : Ideal .f32)) (FloatOps.subf c1 ((b : EReal) : Ideal .f32)))
      = FloatOps.absf (FloatOps.subf ((a : EReal) : Ideal .f32) ((b : EReal) : Ideal .f32)) := by
  rw [c1_coe]
  show max ((((1 : ℝ) : EReal) - (a : EReal)) - (((1 : ℝ) : EReal) - (b : EReal)))
      (-((((1 : ℝ) : EReal) - (a : EReal)) - (((1 : ℝ) : EReal) - (b : EReal))))
    = max ((a : EReal) - (b : EReal)) (-((a : EReal) - (b : EReal)))
  rw [← EReal.coe_sub, ← EReal.coe_sub, ← EReal.coe_sub, ← EReal.coe_sub, ← EReal.coe_neg, ← EReal.coe_neg,
    ← Cert.Lib.RealPatterns.coe_max, ← Cert.Lib.RealPatterns.coe_max,
    show (1 - a - (1 - b) : ℝ) = -(a - b) by ring, neg_neg, max_comm]

/-- The gap on either channel is the gap of the sample, for a real logit. -/
theorem gapR_eq (r : ℝ) (b : BitVec 32) (c : Fin 2) :
    gapR ((r : EReal)) b c = gap (prob ((r : EReal))) (tOf b) := by
  unfold gapR gap
  rw [probR_eq, prob_coe, tOf_coe]
  obtain ⟨c, hc⟩ := c
  have : c = 0 ∨ c = 1 := by omega
  rcases this with rfl | rfl
  · show FloatOps.hostAbsf (FloatOps.subf (chan _ 0) (chan _ 0)) = _
    rw [chan_zero, chan_zero]
    rfl
  · show FloatOps.hostAbsf (FloatOps.subf (chan _ 1) (chan _ 1)) = _
    rw [chan_one, chan_one]
    exact abs_chan_one _ _

/-- The bin on either channel is the bin of the sample, for a real logit. -/
theorem binR_eq (r : ℝ) (b : BitVec 32) (c : Fin 2) : binR ((r : EReal)) b c = bin ((r : EReal)) b := by
  unfold binR bin
  rw [gapR_eq]

/-- log(1+e^u) of a real number is a real number. -/
theorem lae_real (r : ℝ) : ∃ s : ℝ, lae ((r : EReal)) = (s : EReal) := by
  unfold lae
  rw [c0_coe]
  have hc : FloatOps.cmpf (F := Ideal) (φ := .f32) .one (FloatOps.subf (((0 : ℝ) : EReal)) ((r : EReal)))
      (FloatOps.subf (((0 : ℝ) : EReal)) ((r : EReal))) = 0#1 := by
    show Ideal.cmp .one _ _ = 0#1
    simp [Ideal.cmp]
  rw [hc]
  unfold Scalar.select
  rw [if_neg (by decide)]
  show ∃ s : ℝ, max (((0 : ℝ) : EReal)) ((r : EReal))
      + Ideal.log (1 + Ideal.exp ((((0 : ℝ) : EReal)) - max ((((0 : ℝ) : EReal)) - (r : EReal)) (-((((0 : ℝ) : EReal)) - (r : EReal))))) = (s : EReal)
  rw [← EReal.coe_sub, ← EReal.coe_neg, ← Cert.Lib.RealPatterns.coe_max, ← Cert.Lib.RealPatterns.coe_max,
    ← EReal.coe_sub, Ideal.exp_coe, ← EReal.coe_one, ← EReal.coe_add, Ideal.log_coe,
    if_neg (by have := Real.exp_pos (0 - max (0 - r) (-(0 - r))); linarith), ← EReal.coe_add]
  exact ⟨_, rfl⟩

/-- The first channel's cross-entropy term of reals is a real. -/
theorem bce0_real (a b : ℝ) : ∃ s : ℝ, bce0 ((a : EReal)) ((b : EReal)) = (s : EReal) := by
  unfold bce0
  obtain ⟨s, hs⟩ := lae_real a
  rw [hs]
  show ∃ s' : ℝ, (s : EReal) - (a : EReal) * (b : EReal) = (s' : EReal)
  rw [← EReal.coe_mul, ← EReal.coe_sub]
  exact ⟨_, rfl⟩

/-- The second channel's cross-entropy term of reals is a real. -/
theorem bce1_real (a b : ℝ) : ∃ s : ℝ, bce1 ((a : EReal)) ((b : EReal)) = (s : EReal) := by
  unfold bce1
  have h1 : ∀ u : ℝ, FloatOps.subf c1 ((u : EReal) : Ideal .f32) = (((1 - u : ℝ)) : EReal) := by
    intro u
    rw [c1_coe]
    show ((1 : ℝ) : EReal) - (u : EReal) = _
    rw [← EReal.coe_sub]
  rw [h1, h1]
  obtain ⟨s, hs⟩ := lae_real (1 - a)
  rw [hs]
  show ∃ s' : ℝ, (s : EReal) - ((1 - a : ℝ) : EReal) * ((1 - b : ℝ) : EReal) = (s' : EReal)
  rw [← EReal.coe_mul, ← EReal.coe_sub]
  exact ⟨_, rfl⟩

end Cert.Ghm

end
-- ==== Proof.LibSumBlocks.lean ====
/-
  Regrouping a finite sum by blocks.  A sum over `Fin n` with `n = a * b` is the sum over the `a`
  blocks of `b` consecutive positions of each block's sum: position `p * b + q` is the `q`-th of
  block `p`.  Valid in any commutative additive monoid (the extended reals included: no
  cancellation is used), because it is only a re-indexing along the bijection
  `Fin a × Fin b ≃ Fin (a * b)`.
-/
import Mathlib.Algebra.BigOperators.Fin
import Mathlib.Logic.Equiv.Fin.Basic

namespace LibSumBlocks

/-- Position `q` of block `p` lies below `a * b`. -/
theorem mul_add_lt {a b p q : ℕ} (hp : p < a) (hq : q < b) : p * b + q < a * b :=
  calc p * b + q < p * b + b := by omega
    _ = (p + 1) * b := by rw [Nat.add_mul, Nat.one_mul]
    _ ≤ a * b := Nat.mul_le_mul_right b hp

/-- A sum over `Fin n`, `n = a * b`, is the double sum over the block `p : Fin a` and the position
    `q : Fin b` inside it of the term at `p * b + q`. -/
theorem sum_fin_blocks {M : Type*} [AddCommMonoid M] {n : ℕ} (a b : ℕ) (hn : a * b = n) (f : Fin n → M) :
    ∑ i : Fin n, f i
      = ∑ p : Fin a, ∑ q : Fin b, f ⟨p.val * b + q.val, hn ▸ mul_add_lt p.isLt q.isLt⟩ := by
  subst hn
  rw [← Equiv.sum_comp finProdFinEquiv f, Fintype.sum_prod_type]
  refine Finset.sum_congr rfl fun p _ => Finset.sum_congr rfl fun q _ => ?_
  refine congrArg f (Fin.ext ?_)
  show q.val + b * p.val = p.val * b + q.val
  rw [Nat.mul_comm, Nat.add_comm]

/-- The same for a term that depends on the position only through its value. -/
theorem sum_fin_nat_blocks {M : Type*} [AddCommMonoid M] {n : ℕ} (a b : ℕ) (hn : a * b = n) (g : ℕ → M) :
    ∑ i : Fin n, g i.val = ∑ p : Fin a, ∑ q : Fin b, g (p.val * b + q.val) :=
  sum_fin_blocks a b hn fun i => g i.val

/-- Three levels: `n = a * b * c` positions as `a` blocks of `b` rows of `c` entries; entry `l` of row `r` of
    block `t` is position `(t * b + r) * c + l`. -/
theorem sum_fin_nat_blocks3 {M : Type*} [AddCommMonoid M] {n : ℕ} (a b c : ℕ) (hn : a * b * c = n) (g : ℕ → M) :
    ∑ i : Fin n, g i.val
      = ∑ t : Fin a, ∑ r : Fin b, ∑ l : Fin c, g ((t.val * b + r.val) * c + l.val) := by
  rw [sum_fin_nat_blocks (a * b) c hn g]
  exact sum_fin_nat_blocks a b rfl fun R => ∑ l : Fin c, g (R * c + l.val)

/-- A sum over `Finset.range N` of a function that, below `N`, is a function of the `Fin N` position: the two
    spellings of one sum. -/
theorem sum_range_eq_sum_fin {M : Type*} [AddCommMonoid M] (N : ℕ) (g : ℕ → M) (f : Fin N → M)
    (h : ∀ t : Fin N, g t.val = f t) : ∑ s ∈ Finset.range N, g s = ∑ t : Fin N, f t := by
  rw [← Fin.sum_univ_eq_sum_range]
  exact Finset.sum_congr rfl fun t _ => h t

end LibSumBlocks
-- ==== Proof.AlgCounts.lean ====
/-
  The counts.  The reference scatters a one for each of the 2N channel entries into the bin of that
  entry; entry 2n + c is channel c of sample n, and both channels of a sample fall in the sample's own
  bin, so the scatter adds 1 + 1 for each sample of the bin and nothing for the others: twice the number
  of samples in the bin.
-/
import proofs.«105683_j74105365725384_2_alg».proof.Proof.AlgScalar
import proofs.«105683_j74105365725384_2_alg».proof.Proof.LibSumBlocks

noncomputable section

namespace Cert.Ghm

open Idealize.ShloMosaic Idealize.ShloMosaic.ValueIdx

/-- A sum over the 2N channel entries, the term a function of the entry's sample and channel, is the
    double sum over samples and channels. -/
theorem sum_channels {M : Type*} [AddCommMonoid M] (G : Fin NS → Fin 2 → M) :
    ∑ j : Fin 33554432, G ⟨j.val / 2, half_lt j.isLt⟩ ⟨j.val % 2, Nat.mod_lt _ (by decide)⟩
      = ∑ p : Fin NS, ∑ q : Fin 2, G p q := by
  rw [LibSumBlocks.sum_fin_blocks (n := 33554432) NS 2 (by norm_num)
    (fun j : Fin 33554432 => G ⟨j.val / 2, half_lt j.isLt⟩ ⟨j.val % 2, Nat.mod_lt _ (by decide)⟩)]
  refine Finset.sum_congr rfl fun p _ => Finset.sum_congr rfl fun q _ => ?_
  have h1 : (p.val * 2 + q.val) / 2 = p.val := by have := q.isLt; omega
  have h2 : (p.val * 2 + q.val) % 2 = q.val := by have := q.isLt; omega
  have e1 : (⟨(p.val * 2 + q.val) / 2, half_lt (LibSumBlocks.mul_add_lt p.isLt q.isLt)⟩ : Fin NS) = p := Fin.ext h1
  have e2 : (⟨(p.val * 2 + q.val) % 2, Nat.mod_lt _ (by decide)⟩ : Fin 2) = q := Fin.ext h2
  show G ⟨(p.val * 2 + q.val) / 2, _⟩ ⟨(p.val * 2 + q.val) % 2, _⟩ = G p q
  rw [e1, e2]

theorem toInt_ext_ofBool (c : Bool) : (BitVec.setWidth 32 (BitVec.ofBool c)).toInt = if c then 1 else 0 := by
  cases c <;> decide

/-- The indicator of a bin is the real 1 or 0. -/
theorem ind_coe (k : BitVec 32) (x : Ideal .f32) (b : BitVec 32) :
    ind k x b = ((if bin x b = k then (1 : ℝ) else 0 : ℝ) : EReal) := by
  unfold ind
  show (((BitVec.setWidth 32 (IntOp.cmpi .eq (bin x b) k)).toInt : ℝ) : EReal) = _
  unfold IntOp.cmpi
  rw [toInt_ext_ofBool]
  by_cases h : bin x b = k
  · rw [if_pos h, if_pos (by simpa using h)]
    norm_num
  · rw [if_neg h, if_neg (by simpa using h)]
    norm_num

/-- A word is the bin number k (below thirty) exactly when its signed value is k. -/
theorem toInt_eq_iff (a : BitVec 32) (k : ℕ) (hk : k < 30) : a.toInt = (k : Int) ↔ a = BitVec.ofNat 32 k := by
  have hn : (BitVec.ofNat 32 k).toNat = k := by
    rw [BitVec.toNat_ofNat]; exact Nat.mod_eq_of_lt (by omega)
  have hk' : (BitVec.ofNat 32 k).toInt = (k : Int) := by
    rw [BitVec.toInt_eq_toNat_of_lt (by rw [hn]; omega), hn]
  constructor
  · intro h
    apply BitVec.eq_of_toInt_eq
    rw [h, hk']
  · rintro rfl
    exact hk'

/-- One sample's two channel entries add 1 + 1 to its bin and nothing elsewhere. -/
theorem sample_pair (r : ℝ) (b : BitVec 32) (k : ℕ) (hk : k < 30) :
    (∑ q : Fin 2, if (binR ((r : EReal)) b q).toInt = (k : Int) then c1 else (0 : EReal))
      = ((2 * (if bin ((r : EReal)) b = BitVec.ofNat 32 k then (1 : ℝ) else 0) : ℝ) : EReal) := by
  rw [Fin.sum_univ_two, binR_eq, binR_eq, c1_coe]
  by_cases h : bin ((r : EReal)) b = BitVec.ofNat 32 k
  · rw [if_pos ((toInt_eq_iff _ k hk).2 h), if_pos h, ← EReal.coe_add]
    norm_num
  · rw [if_neg (fun h' => h ((toInt_eq_iff _ k hk).1 h')), if_neg h, add_zero, mul_zero, EReal.coe_zero]

/-- The scatter of ones over the channel entries is twice the number of samples of each bin. -/
theorem countsR_eq (x : SN.Idx → Ideal .f32) (tg : SN.Idx → BitVec 32)
    (hx : ∀ i, ∃ r : ℝ, x i = (r : EReal)) : countsR x tg = counts x tg := by
  funext i
  have hk : (i 0).val < 30 := (i 0).isLt
  unfold countsR counts
  refine (congrArg (fun s => c0 + s) (sum_channels (fun (p : Fin NS) (q : Fin 2) =>
    if (binR (x (ix1 p)) (tg (ix1 p)) q).toInt = ((i 0).val : Int) then c1 else (0 : EReal)))).trans ?_
  have hs : ∀ p : Fin NS, (∑ q : Fin 2, if (binR (x (ix1 p)) (tg (ix1 p)) q).toInt = ((i 0).val : Int) then c1 else (0 : EReal))
      = ((2 * (if bin (x (ix1 p)) (tg (ix1 p)) = BitVec.ofNat 32 (i 0).val then (1 : ℝ) else 0) : ℝ) : EReal) := by
    intro p
    obtain ⟨r, hr⟩ := hx (ix1 p)
    rw [hr]
    exact sample_pair r _ _ hk
  rw [Finset.sum_congr rfl fun p _ => hs p,
    Finset.sum_congr rfl fun (n : Fin NS) _ => ind_coe (BitVec.ofNat 32 (i 0).val) (x (ix1 n)) (tg (ix1 n)),
    Cert.Lib.RealPatterns.coe_sum, Cert.Lib.RealPatterns.coe_sum, c0_eq, zero_add, c2_eq, ← EReal.coe_mul,
    Finset.mul_sum]

end Cert.Ghm

end
-- ==== Proof.AlgWeights.lean ====
/-
  The weights are real numbers.  Every count is a real number (twice a finite sum of zeros and ones), the
  running sums are real by hypothesis, the momentum update is a real combination of the two, its maximum
  with the positive floor is a positive real, so the quotient of the total by it is a real; the number of
  populated bins is a real at least one, and dividing by it gives a real again.
-/
import proofs.«105683_j74105365725384_2_alg».proof.Proof.AlgCounts

noncomputable section

namespace Cert.Ghm

open Idealize.ShloMosaic Idealize.ShloMosaic.ValueIdx

/-- The quotient of two reals with a non-zero divisor is the real quotient. -/
theorem div_real (a : ℝ) {d : ℝ} (hd : d ≠ 0) : Ideal.div ((a : EReal)) ((d : EReal)) = ((a * (1 / d) : ℝ) : EReal) := by
  rw [Ideal.div_coe hd, ← EReal.coe_mul]

/-- A choice between two reals is a real. -/
theorem select_real (c : BitVec 1) (a b : EReal) (ha : ∃ r : ℝ, a = (r : EReal)) (hb : ∃ r : ℝ, b = (r : EReal)) :
    ∃ r : ℝ, Scalar.select c a b = (r : EReal) := by
  unfold Scalar.select
  split_ifs
  · exact ha
  · exact hb

/-- Every count is a real number. -/
theorem counts_real (x : SN.Idx → Ideal .f32) (tg : SN.Idx → BitVec 32) (i : SB.Idx) :
    ∃ r : ℝ, counts x tg i = (r : EReal) := by
  unfold counts
  rw [Finset.sum_congr rfl fun (n : Fin NS) _ => ind_coe (BitVec.ofNat 32 (i 0).val) (x (ix1 n)) (tg (ix1 n)),
    Cert.Lib.RealPatterns.coe_sum, c2_eq, ← EReal.coe_mul]
  exact ⟨_, rfl⟩

/-- The total is a positive real. -/
theorem total_real : ∃ r : ℝ, total = (r : EReal) := by
  unfold total
  rw [cTotal_eq, c1_coe, ← Cert.Lib.RealPatterns.coe_max]
  exact ⟨_, rfl⟩

/-- The number of populated bins is a real number, at least one. -/
theorem nBins_real (cnt : SB.Idx → Ideal .f32) : ∃ m : ℝ, 1 ≤ m ∧ nBins cnt = (m : EReal) := by
  unfold nBins
  have hu : ∀ k : Fin 30, FloatOps.uitofp (F := Ideal) .f32 (nonempty cnt (ix1 k))
      = ((((nonempty cnt (ix1 k)).toNat : ℝ)) : EReal) := fun _ => rfl
  rw [Finset.sum_congr rfl fun k _ => hu k, Cert.Lib.RealPatterns.coe_sum, c0_coe, c1_coe, ← EReal.coe_add,
    ← Cert.Lib.RealPatterns.coe_max]
  exact ⟨_, le_max_right _ _, rfl⟩

/-- The momentum update of real running sums by real counts is real. -/
theorem newAcc_real (cnt acc : SB.Idx → Ideal .f32) (hc : ∀ i, ∃ r : ℝ, cnt i = (r : EReal))
    (ha : ∀ i, ∃ r : ℝ, acc i = (r : EReal)) (i : SB.Idx) : ∃ r : ℝ, newAcc cnt acc i = (r : EReal) := by
  unfold newAcc
  refine select_real _ _ _ ?_ (ha i)
  obtain ⟨a, h1⟩ := ha i
  obtain ⟨c, h2⟩ := hc i
  rw [h1, h2, c075_eq, c025_eq, ← EReal.coe_mul, ← EReal.coe_mul, ← EReal.coe_add]
  exact ⟨_, rfl⟩

/-- The weights of real counts and real running sums are real. -/
theorem weights_real (cnt acc : SB.Idx → Ideal .f32) (hc : ∀ i, ∃ r : ℝ, cnt i = (r : EReal))
    (ha : ∀ i, ∃ r : ℝ, acc i = (r : EReal)) (i : SB.Idx) : ∃ r : ℝ, weights cnt acc i = (r : EReal) := by
  unfold weights
  obtain ⟨m, hm1, hm⟩ := nBins_real cnt
  obtain ⟨t, ht⟩ := total_real
  obtain ⟨e, he0, he⟩ := cEps_pos
  obtain ⟨a, hna⟩ := newAcc_real cnt acc hc ha i
  have hd : max a e ≠ 0 := ne_of_gt (lt_of_lt_of_le he0 (le_max_right _ _))
  have hq : ∃ r : ℝ, Ideal.div total (max (newAcc cnt acc i) cEps) = (r : EReal) := by
    rw [hna, he, ht, ← Cert.Lib.RealPatterns.coe_max, div_real t hd]
    exact ⟨_, rfl⟩
  obtain ⟨s, hs⟩ := select_real (nonempty cnt i) _ _ hq ⟨0, c0_coe⟩
  rw [hs, hm, div_real s (ne_of_gt (lt_of_lt_of_le one_pos hm1))]
  exact ⟨_, rfl⟩

/-- A table of thirty reals read at a word is a real. -/
theorem wAt_real (w : Fin 30 → Ideal .f32) (hw : ∀ k, ∃ r : ℝ, w k = (r : EReal)) (b : BitVec 32) :
    ∃ r : ℝ, wAt w b = (r : EReal) := by
  unfold wAt
  split_ifs
  · exact hw _
  · exact ⟨0, c0_coe⟩

end Cert.Ghm

end
-- ==== Proof.AlgLoss.lean ====
/-
  The loss.  For finite inputs the reference's two-channel loss is the one-channel formula: the counts
  agree, so the weights do; both channels of a sample read the weight of the sample's own bin, a real
  number, and a real weight distributes over the sum of the two real cross-entropy terms.
-/
import proofs.«105683_j74105365725384_2_alg».proof.Proof.AlgWeights

noncomputable section

namespace Cert.Ghm

open Idealize.ShloMosaic Idealize.ShloMosaic.ValueIdx

/-- One sample's two channel terms are the weight of its bin times the sum of its cross-entropy terms. -/
theorem sample_terms (w : Fin 30 → Ideal .f32) (hw : ∀ k, ∃ r : ℝ, w k = (r : EReal)) (r : ℝ) (b : BitVec 32) :
    (∑ c : Fin 2, wAt w (binR ((r : EReal)) b c) * bceR ((r : EReal)) b c)
      = wAt w (bin ((r : EReal)) b) * bceSum ((r : EReal)) b := by
  rw [Fin.sum_univ_two, binR_eq, binR_eq, bceR_zero, bceR_one]
  unfold bceSum
  rw [prob_coe, tOf_coe]
  obtain ⟨s0, h0⟩ := bce0_real ((1 + Real.exp (-r))⁻¹) (b.toInt : ℝ)
  obtain ⟨s1, h1⟩ := bce1_real ((1 + Real.exp (-r))⁻¹) (b.toInt : ℝ)
  obtain ⟨v, hv⟩ := wAt_real w hw (bin ((r : EReal)) b)
  rw [h0, h1, hv]
  show (v : EReal) * (s0 : EReal) + (v : EReal) * (s1 : EReal) = (v : EReal) * ((s0 : EReal) + (s1 : EReal))
  rw [← EReal.coe_mul, ← EReal.coe_mul, ← EReal.coe_add, ← EReal.coe_add, ← EReal.coe_mul, mul_add]

/-- The reference's two-channel spelling of the loss is the one-channel formula, for finite inputs. -/
theorem lossR_eq_loss (x : SN.Idx → Ideal .f32) (acc : SB.Idx → Ideal .f32) (tg : SN.Idx → BitVec 32)
    (hx : ∀ i, ∃ r : ℝ, x i = (r : EReal)) (hacc : ∀ i, ∃ r : ℝ, acc i = (r : EReal)) :
    lossR x acc tg = loss x acc tg := by
  unfold lossR loss
  rw [countsR_eq x tg hx]
  have hw : ∀ k : Fin 30, ∃ r : ℝ, weights (counts x tg) acc (ix1 k) = (r : EReal) :=
    fun k => weights_real (counts x tg) acc (counts_real x tg) hacc (ix1 k)
  have key : ∀ n : Fin NS,
      (∑ c : Fin 2, wAt (fun k => weights (counts x tg) acc (ix1 k)) (binR (x (ix1 n)) (tg (ix1 n)) c)
          * bceR (x (ix1 n)) (tg (ix1 n)) c)
        = wAt (fun k => weights (counts x tg) acc (ix1 k)) (bin (x (ix1 n)) (tg (ix1 n)))
          * bceSum (x (ix1 n)) (tg (ix1 n)) := by
    intro n
    obtain ⟨r, hr⟩ := hx (ix1 n)
    generalize x (ix1 n) = y at hr ⊢
    subst hr
    exact sample_terms _ hw r _
  rw [Finset.sum_congr rfl fun n _ => key n]

end Cert.Ghm

end
-- ==== Proof.KRun.lean ====
/-
  The idealized kernel's run with its result named: every weakly fair execution of @main terminates, nothing
  faulting, with the result buffer at the contents the segments' fold leaves there (the host operations after the
  second region applied to that region's output array) and the argument arrays as launched.
-/
import proofs.«105683_j74105365725384_2_alg».proof.Proof.Gen.KernelIdeal.Frame

set_option maxRecDepth 16384

noncomputable section

namespace Cert.Ghm.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the nine segments of @main, read at the result buffer and at the three arguments. -/
theorem run_value : θ_run defs (onTc (τ := τ) (main (F := F))) ⟨m, fun _ => 0, ρ⟩ (fun r => ∀ c : Dev nD,
      r.2.mem ((c.tc : Thread nD τ).loc main_v29) = W9 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v29 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩)

end Cert.Ghm.KRun

end
-- ==== Proof.KHost.lean ====
/-
  The host operations of the idealized kernel's @main around its two regions, read at the buffers the value needs:
  the reshaped arguments the regions stage, the thirty weights the second region reads (a pointwise chain over the
  first region's output summed over its two halves, doubled), the total, and the result (the second region's output
  summed over its two halves, divided by the total).
-/
import proofs.«105683_j74105365725384_2_alg».proof.Proof.Gen.KernelIdeal.Frame
import Idealize.ShloMosaic.PureOps.Ideal
import Idealize.ShloMosaic.Lib.Pipeline.Cells

set_option maxRecDepth 16384

noncomputable section

namespace Cert.Ghm.KHost

open Cert.KernelIdeal Cert.KernelIdeal.Gen
open Idealize.ShloMosaic Idealize.ShloMosaic.TcCoe Idealize.SL.Sem Idealize.ShloMosaic.StableHlo

/-! ## The weight chain as functions of vectors -/

/-- The counts: the first region's output summed over its two halves (and its unit axis), doubled. -/
def cntV (o : FVec Ideal S2x1x30 .f32) : FVec Ideal S30 .f32 :=
  mulf (broadcastInDim S30 ![] bcast_S_S30 (constant (F := Ideal) S_ .f32 0x40000000#32))
    (Host.reduceAdd (F := Ideal) o (constant (F := Ideal) S_ .f32 0x00000000#32) reducesTo_S2x1x30_S30_d0_1 h_S_)

/-- Which bins are populated. -/
def neV (cnt : FVec Ideal S30 .f32) : IVec S30 1 :=
  cmpf (F := Ideal) .ogt cnt (broadcastInDim S30 ![] bcast_S_S30 (constant (F := Ideal) S_ .f32 0x00000000#32))

/-- The thirty weights from the counts and the running sums. -/
def wV (cnt acc : FVec Ideal S30 .f32) : FVec Ideal S30 .f32 :=
  Host.divf (F := Ideal)
    (select (neV cnt)
      (Host.divf (F := Ideal)
        (broadcastInDim S30 ![] bcast_S_S30
          (maximumf (constant (F := Ideal) S_ .f32 0x4C000000#32) (constant (F := Ideal) S_ .f32 0x3F800000#32)))
        (maximumf
          (select (neV cnt)
            (addf (mulf (broadcastInDim S30 ![] bcast_S_S30 (constant (F := Ideal) S_ .f32 0x3F400000#32)) acc)
              (mulf (broadcastInDim S30 ![] bcast_S_S30 (constant (F := Ideal) S_ .f32 0x3E800000#32)) cnt))
            acc)
          (broadcastInDim S30 ![] bcast_S_S30 (constant (F := Ideal) S_ .f32 0x2B8CBCCC#32))))
      (broadcastInDim S30 ![] bcast_S_S30 (id (constant (F := Ideal) S_ .f32 0x00000000#32))))
    (broadcastInDim S30 ![] bcast_S_S30
      (maximumf
        (Host.reduceAdd (F := Ideal) (uitofp (F := Ideal) .f32 (neV cnt)) (constant (F := Ideal) S_ .f32 0x00000000#32)
          reducesTo_S30_S_d0 h_S_)
        (constant (F := Ideal) S_ .f32 0x3F800000#32)))

variable (m : (ℓ : Loc nD τ sig) → Buf (Elt Ideal) ℓ) (ρ : Dev nD → PrngReg) (c : Dev nD)

/-! ## The reads -/

/-- The result buffer after the last stretch: the second region's output summed, over the total, times one. -/
theorem W9_v29 : W9 (F := Ideal) m ρ c (Proc.devRef .tc main_v29)
    = mulf (Host.divf (F := Ideal)
        (Host.reduceAdd (F := Ideal) (W8 (F := Ideal) m ρ c (Proc.devRef .tc main_v26)) (constant (F := Ideal) S_ .f32 0x00000000#32)
          reducesTo_S2x1x1_S_d0_1_2 h_S_)
        (W8 (F := Ideal) m ρ c (Proc.devRef .tc main_v17)))
      (constant (F := Ideal) S_ .f32 0x3F800000#32) := by
  dsimp only [W9, hostOps2]
  after_results

/-- The total as the second region's entry finds it. -/
theorem W7_v17 : W7 (F := Ideal) m ρ c (Proc.devRef .tc main_v17)
    = maximumf (constant (F := Ideal) S_ .f32 0x4C000000#32) (constant (F := Ideal) S_ .f32 0x3F800000#32) := by
  dsimp only [W7, W6, W5, W4, W3, hostOps1_4, hostOps1_3, hostOps1_2, hostOps1_1, hostOps1]
  after_results

set_option maxHeartbeats 2000000 in
/-- The weight table as the second region's entry finds it: the chain over the first region's output array and the
    running sums, laid out as one row. -/
theorem W7_v25 : W7 (F := Ideal) m ρ c (Proc.devRef .tc main_v25)
    = fun i => shapeCast S1x30
        (wV (cntV (W2 (F := Ideal) m ρ c (Proc.devRef .tc main_v2))) (W2 (F := Ideal) m ρ c (Proc.devRef .tc main_arg1)))
        shapeCasts_S30_S1x30 i := by
  dsimp only [W7, W6, W5, W4, W3, hostOps1_4, hostOps1_3, hostOps1_2, hostOps1_1, hostOps1]
  after_results_simp
  rfl

/-- The reshaped logits and labels are not written between the regions. -/
theorem W7_v0 : W7 (F := Ideal) m ρ c (Proc.devRef .tc main_v0) = W2 (F := Ideal) m ρ c (Proc.devRef .tc main_v0) := by
  dsimp only [W7, W6, W5, W4, W3, hostOps1_4, hostOps1_3, hostOps1_2, hostOps1_1, hostOps1]
  after_results
theorem W7_v1 : W7 (F := Ideal) m ρ c (Proc.devRef .tc main_v1) = W2 (F := Ideal) m ρ c (Proc.devRef .tc main_v1) := by
  dsimp only [W7, W6, W5, W4, W3, hostOps1_4, hostOps1_3, hostOps1_2, hostOps1_1, hostOps1]
  after_results

/-- The first region leaves its two input arrays as it found them. -/
theorem W2_v0 : W2 (F := Ideal) m ρ c (Proc.devRef .tc main_v0) = W1 (F := Ideal) m ρ c (Proc.devRef .tc main_v0) :=
  (W2_arr m ρ c 0).trans ((Pipeline.Dat.arrAt_in (dat0 (V1 m ρ) c) 0 rfl cfg0.N).trans (A_eq0 (V1 m ρ) c 0))
theorem W2_v1 : W2 (F := Ideal) m ρ c (Proc.devRef .tc main_v1) = W1 (F := Ideal) m ρ c (Proc.devRef .tc main_v1) :=
  (W2_arr m ρ c 1).trans ((Pipeline.Dat.arrAt_in (dat0 (V1 m ρ) c) 1 rfl cfg0.N).trans (A_eq0 (V1 m ρ) c 1))

/-- The reshapes before the first region. -/
theorem W1_v0 : W1 (F := Ideal) m ρ c (Proc.devRef .tc main_v0)
    = fun i => shapeCast S2x65536x128 (m ((c : Thread nD τ).loc main_arg0)) shapeCasts_S16777216_S2x65536x128 i := by
  dsimp only [W1, hostOps0]
  after_results
  rfl
theorem W1_v1 : W1 (F := Ideal) m ρ c (Proc.devRef .tc main_v1)
    = fun i => shapeCast S2x65536x128 (m ((c : Thread nD τ).loc main_arg2)) shapeCasts_S16777216_S2x65536x128 i := by
  dsimp only [W1, hostOps0]
  after_results
  rfl

/-- The running sums reach the weight chain as launched. -/
theorem W2_arg1 : W2 (F := Ideal) m ρ c (Proc.devRef .tc main_arg1) = m ((c : Thread nD τ).loc main_arg1) := by
  rw [W2_of_ne m ρ c main_arg1 (by decide)]
  dsimp only [W1, hostOps0]
  after_results

/-- The second region's output array and the total after it. -/
theorem W8_v26 : W8 (F := Ideal) m ρ c (Proc.devRef .tc main_v26) = (dat1 (V7 m ρ) c).arrAt 3 cfg1.N := W8_arr m ρ c 3
theorem W8_v17 : W8 (F := Ideal) m ρ c (Proc.devRef .tc main_v17) = W7 (F := Ideal) m ρ c (Proc.devRef .tc main_v17) :=
  W8_of_ne m ρ c main_v17 (by decide)
/-- The first region's output array. -/
theorem W2_v2 : W2 (F := Ideal) m ρ c (Proc.devRef .tc main_v2) = (dat0 (V1 m ρ) c).arrAt 2 cfg0.N := W2_arr m ρ c 2

end Cert.Ghm.KHost

end
-- ==== Proof.LibSumIdx.lean ====
/-
  A sum over a rank-3 index set is the triple sum over its coordinates, and a sum over a rank-1 index set the sum over
  its coordinate: the index set is the product of the coordinate ranges. Valid in any commutative additive monoid.
-/
import Idealize.ShloMosaic.Lib.ValueIdx

namespace Cert.Lib.SumIdx

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-1 index set is its coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

end Cert.Lib.SumIdx
-- ==== Proof.KWeights.lean ====
/-
  The kernel's weight chain read at an entry: the counts are twice the sum of the first region's output over its
  two halves, and the chain's thirty results are the specification's weights of those counts.
-/
import proofs.«105683_j74105365725384_2_alg».proof.Proof.KHost
import proofs.«105683_j74105365725384_2_alg».proof.Proof.Spec
import proofs.«105683_j74105365725384_2_alg».proof.Proof.LibSumIdx
import Idealize.ShloMosaic.Lib.IdealHost
import Idealize.ShloMosaic.PureOps.Ideal.Laws

noncomputable section

namespace Cert.Ghm.KHost

open Cert.KernelIdeal Cert.KernelIdeal.Gen
open Idealize.ShloMosaic Idealize.ShloMosaic.ValueIdx Cert.Ghm

/-- The indices of a [2,1,30] array that reduce, over its first two axes, to entry k: the two halves' entry k. -/
theorem sum_halves (o : S2x1x30.Idx → EReal) (k : Fin 30) (h : S2x1x30.ReducesTo [0, 1] S30) :
    ∑ x ∈ Finset.univ.filter (fun x : S2x1x30.Idx => h.drop x = ix1 k), o x = ∑ a : Fin 2, o (ix3 a (0 : Fin 1) k) := by
  rw [Finset.sum_filter, Cert.Lib.SumIdx.sum_idx3]
  refine Finset.sum_congr rfl fun a _ => ?_
  rw [Fin.sum_univ_one]
  have hd : ∀ c : Fin 30, h.drop (ix3 a (0 : Fin 1) c) = ix1 c := fun c => by
    funext b; match b with | ⟨0, _⟩ => rfl
  simp only [hd]
  rw [Finset.sum_eq_single k]
  · rw [if_pos rfl]
  · intro c _ hc
    rw [if_neg]
    intro he
    exact hc (congrFun he 0)
  · intro hn; exact absurd (Finset.mem_univ _) hn

/-- The counts at bin k: twice (zero plus) the two halves' entries. -/
theorem cntV_apply (o : FVec Ideal S2x1x30 .f32) (k : Fin 30) :
    cntV o (ix1 k) = c2 * (c0 + ∑ a : Fin 2, o (ix3 a (0 : Fin 1) k)) := by
  show c2 * (Host.reduceAdd (F := Ideal) o (constant (F := Ideal) S_ .f32 0x00000000#32) reducesTo_S2x1x30_S30_d0_1 h_S_ (ix1 k)) = _
  congr 1
  rw [hostReduceAdd_apply]
  unfold Ideal.hostReduceAdd
  congr 1
  exact sum_halves o k _

/-- The total. -/
theorem total_eq (j : S_.Idx) :
    maximumf (constant (F := Ideal) S_ .f32 0x4C000000#32) (constant (F := Ideal) S_ .f32 0x3F800000#32) j = total := rfl

/-- The number of populated bins. -/
theorem nBinsV_eq (cnt : FVec Ideal S30 .f32) (j : S_.Idx) :
    maximumf (Host.reduceAdd (F := Ideal) (uitofp (F := Ideal) .f32 (neV cnt)) (constant (F := Ideal) S_ .f32 0x00000000#32)
        reducesTo_S30_S_d0 h_S_) (constant (F := Ideal) S_ .f32 0x3F800000#32) j = nBins cnt := by
  show max (Host.reduceAdd (F := Ideal) (uitofp (F := Ideal) .f32 (neV cnt)) (constant (F := Ideal) S_ .f32 0x00000000#32)
        reducesTo_S30_S_d0 h_S_ j) c1 = max (c0 + ∑ k : Fin 30, FloatOps.uitofp .f32 (nonempty cnt (ix1 k))) c1
  congr 1
  rw [hostReduceAdd_apply, Ideal.hostReduceAdd_total _ (fun b => b.elim0)]
  congr 1
  exact Cert.Lib.SumIdx.sum_idx1 _

/-- The chain's result at bin i is the specification's weight. -/
theorem wV_apply (cnt acc : FVec Ideal S30 .f32) (i : S30.Idx) : wV cnt acc i = weights cnt acc i := by
  unfold wV weights
  show Ideal.div _ _ = Ideal.div _ _
  congr 1
  exact nBinsV_eq cnt _

end Cert.Ghm.KHost

end
-- ==== Proof.KRegroup.lean ====
/-
  The layout of the 2^24 samples as two halves of 65536 rows of 128 lanes, and a half's rows as eight blocks of 8192:
  entry (a, R, l) of the reshaped array is sample (a·65536 + R)·128 + l, and a sum over all samples is the sum over
  halves, blocks, rows and lanes. A re-indexing only: valid in any commutative additive monoid.
-/
import proofs.«105683_j74105365725384_2_alg».proof.Proof.LibSumBlocks
import Idealize.ShloMosaic.Lib.ValueIdx
import Idealize.ShloMosaic.Lib.Pipeline.Value

namespace Cert.Ghm.Regroup

open Idealize.ShloMosaic Idealize.ShloMosaic.ValueIdx

/-- The sample at half a, row R, lane l. -/
theorem flat_lt {a R l : Nat} (ha : a < 2) (hR : R < 65536) (hl : l < 128) : (a * 65536 + R) * 128 + l < 16777216 := by omega
/-- Row r of block j of a half. -/
theorem row_lt {j r : Nat} (hj : j < 8) (hr : r < 8192) : j * 8192 + r < 65536 := by omega

/-- The sample of a tile position. -/
def flat (a : Fin 2) (R : Fin 65536) (l : Fin 128) : Fin 16777216 :=
  ⟨(a.val * 65536 + R.val) * 128 + l.val, flat_lt a.isLt R.isLt l.isLt⟩
/-- The row of a block position. -/
def row (j : Fin 8) (r : Fin 8192) : Fin 65536 := ⟨j.val * 8192 + r.val, row_lt j.isLt r.isLt⟩

/-- A vector of 2^24 entries reshaped to [2,65536,128], read at (a, R, l). -/
theorem reshape_read {α : Type} (x : (⟨1, ![16777216]⟩ : Shape).Idx → α)
    (h : (⟨1, ![16777216]⟩ : Shape).ShapeCasts ⟨3, ![2, 65536, 128]⟩) (a : Fin 2) (R : Fin 65536) (l : Fin 128) :
    shapeCast (⟨3, ![2, 65536, 128]⟩ : Shape) x h (ix3 a R l) = x (ix1 (flat a R l)) :=
  shapeCast_apply x h (ix3 a R l) (ix1 (flat a R l)) (by
    rw [Shape.rowMajor_val_one, Shape.rowMajor_val_three]; rfl)

/-- A sum over all samples is the sum over halves, blocks, rows and lanes. -/
theorem sum_tiles {M : Type*} [AddCommMonoid M] (f : Fin 16777216 → M) :
    ∑ n, f n = ∑ a : Fin 2, ∑ j : Fin 8, ∑ r : Fin 8192, ∑ l : Fin 128, f (flat a (row j r) l) := by
  rw [LibSumBlocks.sum_fin_blocks 131072 128 rfl f]
  rw [LibSumBlocks.sum_fin_blocks 2 65536 rfl
    (fun P : Fin 131072 => ∑ q : Fin 128, f ⟨P.val * 128 + q.val, LibSumBlocks.mul_add_lt P.isLt q.isLt⟩)]
  refine Finset.sum_congr rfl fun a _ => ?_
  rw [LibSumBlocks.sum_fin_blocks 8 8192 rfl
    (fun R : Fin 65536 => ∑ q : Fin 128, f ⟨(a.val * 65536 + R.val) * 128 + q.val, flat_lt a.isLt R.isLt q.isLt⟩)]
  rfl

end Cert.Ghm.Regroup
-- ==== Proof.KValue.lean ====
/-
  The idealized kernel's result is the loss. The first region leaves, at entry (h, 0, k) of its output, the number of
  samples of half h in bin k; doubled and summed over the halves these are the counts, from which the host's chain
  makes the weights the second region reads; the second region leaves, at entry (h, 0, 0), the weighted cross-entropy
  summed over half h; the host sums the halves and divides by the total. The halves, blocks, rows and lanes tile the
  2^24 samples, so each of these sums is the sum over all samples.
-/
import proofs.«105683_j74105365725384_2_alg».proof.Proof.KHost
import proofs.«105683_j74105365725384_2_alg».proof.Proof.KWeights
import proofs.«105683_j74105365725384_2_alg».proof.Proof.KRegroup
import proofs.«105683_j74105365725384_2_alg».proof.Proof.Spec

set_option maxRecDepth 16384

noncomputable section

namespace Cert.Ghm.KValue

open Cert.KernelIdeal Cert.KernelIdeal.Gen
open Idealize.ShloMosaic Idealize.ShloMosaic.TcCoe Idealize.SL.Sem Idealize.ShloMosaic.ValueIdx
open Cert.Ghm Cert.Ghm.KHost Cert.Ghm.Regroup

variable (m : (ℓ : Loc nD τ sig) → Buf (Elt Ideal) ℓ) (ρ : Dev nD → PrngReg) (c : Dev nD)

/-- The three argument arrays of device c. -/
abbrev X : SN.Idx → Ideal .f32 := m ((c : Thread nD τ).loc main_arg0)
abbrev ACC : SB.Idx → Ideal .f32 := m ((c : Thread nD τ).loc main_arg1)
abbrev TG : SN.Idx → BitVec 32 := m ((c : Thread nD τ).loc main_arg2)

/-- What the first region's output holds, as a statement about any entry contents V. -/
def HistFinal : Prop :=
  ∀ (V : (c : Dev nD) → (b : Ref sig .tc) → Buf (Elt Ideal) ((c : Thread nD τ).loc b)) (c : Dev nD) (h : Fin 2) (k : Fin 30),
    (dat0 (F := Ideal) V c).arrAt 2 cfg0.N (ix3 h (0 : Fin 1) k)
      = ∑ j : Fin 8, ∑ r : Fin 8192, ∑ l : Fin 128,
          ind (BitVec.ofNat 32 k.val) (V c main_v0 (ix3 h (row j r) l)) (V c main_v1 (ix3 h (row j r) l))

/-- What the second region's output holds, likewise. -/
def LossFinal : Prop :=
  ∀ (V : (c : Dev nD) → (b : Ref sig .tc) → Buf (Elt Ideal) ((c : Thread nD τ).loc b)) (c : Dev nD) (h : Fin 2),
    (dat1 (F := Ideal) V c).arrAt 3 cfg1.N (ix3 h (0 : Fin 1) (0 : Fin 1))
      = ∑ j : Fin 8, ∑ r : Fin 8192, ∑ l : Fin 128,
          wAt (fun k => V c main_v25 (ix2 (0 : Fin 1) k)) (bin (V c main_v0 (ix3 h (row j r) l)) (V c main_v1 (ix3 h (row j r) l)))
            * bceSum (V c main_v0 (ix3 h (row j r) l)) (V c main_v1 (ix3 h (row j r) l))

/-! ## The reshaped arguments as both regions find them -/

theorem V1_v0_read (a : Fin 2) (R : Fin 65536) (l : Fin 128) :
    V1 (F := Ideal) m ρ c main_v0 (ix3 a R l) = X m c (ix1 (flat a R l)) := by
  show W1 (F := Ideal) m ρ c (Proc.devRef .tc main_v0) (ix3 a R l) = _
  rw [W1_v0]
  exact reshape_read _ _ a R l
theorem V1_v1_read (a : Fin 2) (R : Fin 65536) (l : Fin 128) :
    V1 (F := Ideal) m ρ c main_v1 (ix3 a R l) = TG m c (ix1 (flat a R l)) := by
  show W1 (F := Ideal) m ρ c (Proc.devRef .tc main_v1) (ix3 a R l) = _
  rw [W1_v1]
  exact reshape_read _ _ a R l
theorem V7_v0_read (a : Fin 2) (R : Fin 65536) (l : Fin 128) :
    V7 (F := Ideal) m ρ c main_v0 (ix3 a R l) = X m c (ix1 (flat a R l)) := by
  show W7 (F := Ideal) m ρ c (Proc.devRef .tc main_v0) (ix3 a R l) = _
  rw [W7_v0, W2_v0, W1_v0]
  exact reshape_read _ _ a R l
theorem V7_v1_read (a : Fin 2) (R : Fin 65536) (l : Fin 128) :
    V7 (F := Ideal) m ρ c main_v1 (ix3 a R l) = TG m c (ix1 (flat a R l)) := by
  show W7 (F := Ideal) m ρ c (Proc.devRef .tc main_v1) (ix3 a R l) = _
  rw [W7_v1, W2_v1, W1_v1]
  exact reshape_read _ _ a R l

/-! ## The counts and the weights -/

/-- Twice the two halves' histograms are the counts. -/
theorem counts_eq (hist : HistFinal) :
    cntV (W2 (F := Ideal) m ρ c (Proc.devRef .tc main_v2)) = counts (X m c) (TG m c) := by
  funext i
  obtain ⟨k, rfl⟩ : ∃ k : Fin 30, i = ix1 k := ⟨i 0, eq_ix1 i⟩
  rw [cntV_apply]
  show c2 * (c0 + _) = c2 * _
  refine congrArg (fun z : EReal => c2 * z) ?_
  rw [show (c0 : EReal) = 0 from Ideal.ofBits_zero_f32, zero_add, sum_tiles]
  refine Finset.sum_congr rfl fun a _ => ?_
  rw [W2_v2, hist (V1 m ρ) c a k]
  refine Finset.sum_congr rfl fun j _ => Finset.sum_congr rfl fun r _ => Finset.sum_congr rfl fun l _ => ?_
  rw [V1_v0_read, V1_v1_read]

/-- The weight table the second region finds is the weights of the counts. -/
theorem weights_read (hist : HistFinal) (k : Fin 30) :
    V7 (F := Ideal) m ρ c main_v25 (ix2 (0 : Fin 1) k) = weights (counts (X m c) (TG m c)) (ACC m c) (ix1 k) := by
  show W7 (F := Ideal) m ρ c (Proc.devRef .tc main_v25) (ix2 (0 : Fin 1) k) = _
  rw [W7_v25]
  show shapeCast S1x30 _ shapeCasts_S30_S1x30 (ix2 (0 : Fin 1) k) = _
  rw [shapeCast_apply _ shapeCasts_S30_S1x30 (ix2 (0 : Fin 1) k) (ix1 k) (by
    rw [Shape.rowMajor_val_one, Shape.rowMajor_val_two]; show k.val = 0 * 30 + k.val; omega)]
  rw [wV_apply, counts_eq m ρ c hist, W2_arg1]

/-! ## The result -/

/-- The result buffer after the run holds the loss of the three arguments. -/
theorem result_eq (hist : HistFinal) (lossk : LossFinal) :
    W9 (F := Ideal) m ρ c (Proc.devRef .tc main_v29) = fun _ => loss (X m c) (ACC m c) (TG m c) := by
  funext j0
  rw [W9_v29]
  show Ideal.div (Host.reduceAdd (F := Ideal) (W8 (F := Ideal) m ρ c (Proc.devRef .tc main_v26))
      (constant (F := Ideal) S_ .f32 0x00000000#32) reducesTo_S2x1x1_S_d0_1_2 h_S_ j0)
      (W8 (F := Ideal) m ρ c (Proc.devRef .tc main_v17) j0) * c1 = _
  unfold loss
  refine congrArg (fun z : EReal => z * c1) ?_
  refine congrArg₂ Ideal.div ?_ ?_
  · rw [hostReduceAdd_apply, Ideal.hostReduceAdd_total _ (fun b => b.elim0)]
    show c0 + _ = c0 + _
    refine congrArg (fun z : EReal => c0 + z) ?_
    refine (Cert.Lib.SumIdx.sum_idx3 (M := EReal) (n0 := 2) (n1 := 1) (n2 := 1)
      (W8 (F := Ideal) m ρ c (Proc.devRef .tc main_v26))).trans ?_
    rw [sum_tiles]
    refine Finset.sum_congr rfl fun a _ => ?_
    rw [Fin.sum_univ_one, Fin.sum_univ_one, W8_v26, lossk (V7 m ρ) c a]
    refine Finset.sum_congr rfl fun j _ => Finset.sum_congr rfl fun r _ => Finset.sum_congr rfl fun l _ => ?_
    rw [V7_v0_read, V7_v1_read,
      show (fun k => V7 (F := Ideal) m ρ c main_v25 (ix2 (0 : Fin 1) k))
        = (fun k => weights (counts (X m c) (TG m c)) (ACC m c) (ix1 k)) from funext fun k => weights_read m ρ c hist k]
  · rw [W8_v17, W7_v17]
    rfl

end Cert.Ghm.KValue

end
-- ==== Proof.LibFiniteInputs.lean ====
/-
  Finiteness of an input array, read back from one conjunct of a precondition of the usual form
  "all(|a| < +inf)".

  Such a conjunct compares, entry by entry, the absolute value of the array with the scalar whose pattern has an
  all-ones exponent field and a zero significand, broadcast to the array's shape, and reduces the comparison by
  conjunction over every axis into a single bit. Over the extended reals that pattern denotes +∞ and the absolute
  value of x is max(x, −x); a reduction by conjunction into a single bit that is one has every element one; and
  max(x, −x) < +∞ rules out x = +∞ and x = −∞, leaving a real number. So if the conjunct's bit is one, every entry of
  the array is (the inclusion of) a real number — which is what a law that needs distributivity or cancellation asks.
  A precondition that joins several such conjuncts by `and` is split with `IntOp.andi_eq_one` first.
-/
import Idealize.ShloMosaic.Lib.ReduceAll
import Idealize.ShloMosaic.Lib.ValueIdx
import Idealize.ShloMosaic.PureOps.Ideal

noncomputable section

namespace Cert.Lib.FiniteInputs

open Idealize.ShloMosaic

/-- The single-precision pattern with an all-ones exponent field, zero significand and clear sign denotes +∞. -/
theorem ofBits_pos_inf : Ideal.ofBits .f32 0x7F800000#32 = (⊤ : EReal) := by
  simp [Ideal.ofBits, Ideal.ieee]

/-- An extended real whose absolute value max(x, −x) is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The rank-zero shape has a single index. -/
instance subsingleton_scalar_idx : Subsingleton (⟨0, ![]⟩ : Shape).Idx := ⟨fun _ _ => funext fun d => d.elim0⟩

/-- One conjunct: if "every entry's absolute value is below the all-ones-exponent pattern", reduced by conjunction
    over all axes into one bit, is one, then every entry of the array is real. -/
theorem real_of_all_lt_inf {s : Shape} {axes : List (Fin s.rank)} (a : FVec Ideal s .f32)
    (bc : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1) (j : (⟨0, ![]⟩ : Shape).Idx)
    (e : Host.reduce IntOp.andi
        (cmpf .olt (Host.absf a)
          (broadcastInDim s ![] bc (constant (F := Ideal) (⟨0, ![]⟩ : Shape) .f32 0x7F800000#32)))
        init hr hu j = 1#1) :
    ∀ i, ∃ r : ℝ, a i = (r : EReal) := by
  intro i
  have hi := Host.reduce_andi_all _ init hr hu j e i
  have hi' : Ideal.cmp .olt (max (a i) (-(a i))) (Ideal.ofBits .f32 0x7F800000#32) = 1#1 := hi
  rw [ofBits_pos_inf] at hi'
  refine real_of_abs_lt_top (a i) ?_
  by_contra hn
  simp [Ideal.cmp, hn] at hi'

end Cert.Lib.FiniteInputs

end
-- ==== Proof.KPre.lean ====
/-
  The precondition gives finiteness: where "every entry of the logits and of the running sums has absolute value below
  +∞" holds, every entry of those two arrays is a real number.
-/
import proofs.«105683_j74105365725384_2_alg».proof.Pre_finite_inputs
import proofs.«105683_j74105365725384_2_alg».proof.Proof.Gen.Pre_finite_inputs
import proofs.«105683_j74105365725384_2_alg».proof.Proof.LibFiniteInputs
import Idealize.ShloMosaic.Lib.Affine

noncomputable section

namespace Cert.Ghm.KPre

open Idealize.ShloMosaic Idealize.ShloMosaic.ValueIdx Cert.Pre_finite_inputs

/-- Both float arguments are real entry by entry when the precondition's bit is one. -/
theorem real_of_pre [hP : Cert.Pre_finite_inputs.Facts] (a0 : FVec Ideal S16777216 .f32) (a1 : FVec Ideal S30 .f32)
    (a2 : IVec S16777216 32) (h : Cert.Pre_finite_inputs.fn (F := Ideal) a0 a1 a2 = fun _ => 1#1) :
    (∀ i, ∃ r : ℝ, a0 i = (r : EReal)) ∧ (∀ i, ∃ r : ℝ, a1 i = (r : EReal)) := by
  have h0 := congrFun h ix0
  dsimp only [Cert.Pre_finite_inputs.fn] at h0
  have h1 := (IntOp.andi_eq_one).mp h0
  exact ⟨Cert.Lib.FiniteInputs.real_of_all_lt_inf a0 _ _ _ _ ix0 h1.1,
    Cert.Lib.FiniteInputs.real_of_all_lt_inf a1 _ _ _ _ ix0 h1.2⟩

end Cert.Ghm.KPre

end
-- ==== Proof.HistRow.lean ====
/-
  The histogram body's arithmetic, named.  From a block of 8192 × 128 logits and labels the body forms the matrix of
  bins (one bin per sample); for each of the thirty bins k it counts the samples of the block whose bin is k (a sum
  over the whole matrix of the 0/1 indicator), lays the thirty counts side by side as a 1 × 30 row, and stores the
  running block plus that row.  Here the row is shown to be the thirty columns `col bins k` joined, whatever the
  float instance; the columns are read as sums in a later module.
-/
import proofs.«105683_j74105365725384_2_alg».proof.Proof.Gen.KernelIdeal.Skeleton

set_option maxRecDepth 16384

noncomputable section

namespace Cert.Ghm.Hist

open Cert.KernelIdeal Cert.KernelIdeal.Gen
open Idealize.ShloMosaic Idealize.SL.Sem

variable {F : FTy → Type} [FloatOps F]

/-- One column of the row: the number of entries of the bin matrix equal to the word `w`, computed as the body does —
    the 0/1 indicator matrix, a leading unit axis, the sum over both matrix axes, the one entry extracted and spread
    over a 1 × 1 matrix. -/
def col (bins : IVec S8192x128 32) (w : BitVec 32) : FVec F S1x1 .f32 :=
  broadcast S1x1 (extractAt ![0, 0, 0]
    (shapeCast S1x1x1
      (multiReduction .add [1, 2] S1
        (shapeCast S1x8192x128 (sitofp .f32 (extui 32 (cmpi .eq bins (broadcast S8192x128 w)) natLt_1_32))
          shapeCasts_S8192x128_S1x8192x128)
        0x00000000#32 reduces_S1x8192x128_S1 (.inl rfl) rfl)
      shapeCasts_S1_S1x1x1) inpos_S1x1x1_p0_0_0)

/-- The row of thirty counts of one block: thirty columns of the same bin matrix (the bins of the block's samples),
    one per bin number, joined side by side. -/
def row (x0 : Vec F S1x8192x128 .f32) (x1 : Vec F S1x8192x128 .i32) : FVec F S1x30 .f32 :=
  k0_pay1 (k0_pay5 x0 x1) (k0_pay6 x0 x1) (k0_pay8 (k0_pay7 x0 x1))
    (k0_pay9 (k0_pay3 x0 x1)) (k0_pay10 (k0_pay3 x0 x1)) (k0_pay11 (k0_pay3 x0 x1)) (k0_pay12 (k0_pay3 x0 x1)) (k0_pay13 (k0_pay3 x0 x1))
    (k0_pay14 (k0_pay3 x0 x1)) (k0_pay15 (k0_pay3 x0 x1)) (k0_pay16 (k0_pay3 x0 x1)) (k0_pay17 (k0_pay3 x0 x1)) (k0_pay18 (k0_pay3 x0 x1))
    (k0_pay20 (k0_pay19 (k0_pay3 x0 x1))) (k0_pay21 (k0_pay3 x0 x1)) (k0_pay22 (k0_pay3 x0 x1)) (k0_pay23 (k0_pay3 x0 x1)) (k0_pay24 (k0_pay3 x0 x1))
    (k0_pay26 (k0_pay25 (k0_pay3 x0 x1))) (k0_pay27 (k0_pay3 x0 x1)) (k0_pay28 (k0_pay3 x0 x1)) (k0_pay29 (k0_pay3 x0 x1)) (k0_pay30 (k0_pay3 x0 x1)) (k0_pay31 (k0_pay3 x0 x1))
    (k0_pay33 (k0_pay32 (k0_pay3 x0 x1))) (k0_pay34 (k0_pay3 x0 x1)) (k0_pay35 (k0_pay3 x0 x1)) (k0_pay36 (k0_pay3 x0 x1)) (k0_pay37 (k0_pay3 x0 x1)) (k0_pay38 (k0_pay3 x0 x1))

/-- What the body's last store writes: the running block plus the row of counts. -/
def body (x0 : Vec F S1x8192x128 .f32) (x1 : Vec F S1x8192x128 .i32) (prev : Vec F S1x1x30 .f32) : Vec F S1x1x30 .f32 :=
  k0_pay2 (row x0 x1) prev

/-- The thirty columns as a function of the bin's number. -/
def cols (bins : IVec S8192x128 32) (k : Fin 30) : FVec F S1x1 .f32 := col bins (BitVec.ofNat 32 k.val)

/-- The list of the thirty columns is the list of `cols` over the thirty bins. -/
theorem cols_list (bins : IVec S8192x128 32) :
    (List.ofFn fun k : Fin 30 => (⟨S1x1, cols (F := F) bins k⟩ : (s : Shape) × (s.Idx → F .f32)))
      = [⟨S1x1, col bins 0#32⟩, ⟨S1x1, col bins 1#32⟩, ⟨S1x1, col bins 2#32⟩, ⟨S1x1, col bins 3#32⟩, ⟨S1x1, col bins 4#32⟩, ⟨S1x1, col bins 5#32⟩, ⟨S1x1, col bins 6#32⟩, ⟨S1x1, col bins 7#32⟩, ⟨S1x1, col bins 8#32⟩, ⟨S1x1, col bins 9#32⟩, ⟨S1x1, col bins 10#32⟩, ⟨S1x1, col bins 11#32⟩, ⟨S1x1, col bins 12#32⟩, ⟨S1x1, col bins 13#32⟩, ⟨S1x1, col bins 14#32⟩, ⟨S1x1, col bins 15#32⟩, ⟨S1x1, col bins 16#32⟩, ⟨S1x1, col bins 17#32⟩, ⟨S1x1, col bins 18#32⟩, ⟨S1x1, col bins 19#32⟩, ⟨S1x1, col bins 20#32⟩, ⟨S1x1, col bins 21#32⟩, ⟨S1x1, col bins 22#32⟩, ⟨S1x1, col bins 23#32⟩, ⟨S1x1, col bins 24#32⟩, ⟨S1x1, col bins 25#32⟩, ⟨S1x1, col bins 26#32⟩, ⟨S1x1, col bins 27#32⟩, ⟨S1x1, col bins 28#32⟩, ⟨S1x1, col bins 29#32⟩] := rfl

/-- The row is the thirty columns joined along the column axis. -/
theorem row_eq (x0 : Vec F S1x8192x128 .f32) (x1 : Vec F S1x8192x128 .i32)
    (h : Shape.Concatenates ((List.ofFn fun k : Fin 30 =>
      (⟨S1x1, cols (F := F) (k0_pay3 x0 x1) k⟩ : (s : Shape) × (s.Idx → F .f32))).map (·.1)) S1x30 (1 : Fin 2)) :
    row x0 x1 = concatenate S1x30 (1 : Fin 2)
      (List.ofFn fun k : Fin 30 => (⟨S1x1, cols (F := F) (k0_pay3 x0 x1) k⟩ : (s : Shape) × (s.Idx → F .f32))) h := by
  have e := cols_list (F := F) (k0_pay3 x0 x1)
  revert h
  rw [e]
  intro h
  rfl

end Cert.Ghm.Hist

end
-- ==== Proof.HistCases.lean ====
/-
  What the histogram body leaves in the output's staging buffer, in each of its two control cases, as values.  At the
  first step of a half (the reset case) the body stores the zero block, reads it back and stores zero block + row; at
  every other step it reads the running block and stores running block + row.  Both are read off the stores the
  generated run found: the last store covers the whole 1 × 1 × 30 block, so the block's contents are that store's
  value, the loads being whole-buffer reads.
-/
import proofs.«105683_j74105365725384_2_alg».proof.Proof.Gen.KernelIdeal.Frame
import proofs.«105683_j74105365725384_2_alg».proof.Proof.HistRow
import Idealize.ShloMosaic.Lib.Pipeline.Value
import Idealize.ShloMosaic.Lib.Tactic

set_option maxRecDepth 16384

noncomputable section

namespace Cert.Ghm.Hist

open Cert.KernelIdeal Cert.KernelIdeal.Gen
open Idealize.ShloMosaic Idealize.ShloMosaic.TcCoe Idealize.SL.Sem Idealize.ShloMosaic.Tactic

variable {F : FTy → Type} [FloatOps F]

/-- The zero offsets of a whole-block access. -/
theorem hz3 : (![0, 0, 0] : Fin 3 → Nat) = fun _ => 0 := funext fun a => by fin_cases a <;> rfl

/-- The zero block the reset stores. -/
abbrev zeroBlock : Vec F S1x1x30 .f32 := k0_pay4

/-- Every step but the first of a half: over the running block `xo` the body leaves `xo` plus the row of counts of the
    input blocks. -/
theorem out_B (c : Dev nD) (i : grid0.Coords) (a2 : Memref sig .tc .vmem S1x8192x128 .f32) (h2 : a2.IsWhole)
    (a3 : Memref sig .tc .vmem S1x8192x128 .i32) (h3 : a3.IsWhole) (a4 : Memref sig .tc .vmem S1x1x30 .f32) (h4 : a4.IsWhole)
    (hc : ¬cond0_0 i) (x0 : Vec F S1x8192x128 .f32) (x1 : Vec F S1x8192x128 .i32) (xo : Vec F S1x1x30 .f32) :
    out0_B_2 c i a2 h2 a3 h3 a4 h4 hc x0 x1 xo = body x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S1x8192x128) hz3,
    View.ld_unit_zero (S := S1x1x30) hz3]
  rfl

/-- The first step of a half: the body leaves the zero block plus the row of counts of the input blocks. -/
theorem out_A (c : Dev nD) (i : grid0.Coords) (a2 : Memref sig .tc .vmem S1x8192x128 .f32) (h2 : a2.IsWhole)
    (a3 : Memref sig .tc .vmem S1x8192x128 .i32) (h3 : a3.IsWhole) (a4 : Memref sig .tc .vmem S1x1x30 .f32) (h4 : a4.IsWhole)
    (hc : cond0_0 i) (x0 : Vec F S1x8192x128 .f32) (x1 : Vec F S1x8192x128 .i32) :
    out0_A_2 c i a2 h2 a3 h3 a4 h4 hc x0 x1 = body x0 x1 zeroBlock := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x30) hz3]
  rw [View.readCov_unit_zero (S := S1x1x30) _ hz3]
  simp only [View.readAt_eq_ld, h2.read_unread, h3.read_unread, View.ld_unit_zero (S := S1x8192x128) hz3,
    View.ld_unit_zero (S := S1x1x30) hz3]
  rfl

end Cert.Ghm.Hist

end
-- ==== Proof.LibTotalSum.lean ====
/-
  A float sum over BOTH axes of an a × b matrix, spelled the way a kernel spells `jnp.sum` of a matrix: the matrix
  is given a leading unit axis, reduced with `add` over its last two axes into a vector of one entry, that vector is
  recast to [1,1,1] and its one entry extracted.  Over the extended reals the extracted scalar is the double sum
  `∑ r, ∑ l, v (r, l)` of the matrix's entries.  Also: a sum over a rank-3 index set is the triple sum over its
  coordinates.
-/
import Idealize.ShloMosaic.PureOps.Ideal.Laws
import Idealize.ShloMosaic.Lib.ValueIdx
import Idealize.ShloMosaic.Lib.ValueLayout

noncomputable section

namespace Cert.Lib.TotalSum

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum of all entries of an a × b matrix, as a kernel computes it: add a leading unit axis, reduce over the last
    two axes into one entry, recast, extract.  It is the double sum of the entries. -/
theorem total_apply {a b : Nat} (v : FVec Ideal ⟨2, ![a, b]⟩ .f32)
    (hc : (⟨2, ![a, b]⟩ : Shape).ShapeCasts ⟨3, ![1, a, b]⟩)
    (hr : (⟨3, ![1, a, b]⟩ : Shape).Reduces [1, 2] ⟨1, ![1]⟩)
    (hφ : FKind.Formats .f32) (hacc : (0x00000000#32 : BitVec 32) = FKind.add.neutral .f32 hφ)
    (hc' : (⟨1, ![1]⟩ : Shape).ShapeCasts ⟨3, ![1, 1, 1]⟩)
    (hp : ∀ d, (![0, 0, 0] : Fin 3 → Nat) d < (⟨3, ![1, 1, 1]⟩ : Shape).size d) :
    extractAt ![0, 0, 0]
        (shapeCast ⟨3, ![1, 1, 1]⟩
          (multiReduction .add [1, 2] ⟨1, ![1]⟩ (shapeCast ⟨3, ![1, a, b]⟩ v hc) 0x00000000#32 hr hφ hacc) hc') hp
      = ∑ r : Fin a, ∑ l : Fin b, v (ix2 r l) := by
  unfold extractAt
  refine (shapeCast_apply _ hc' _ (ix1 (0 : Fin 1)) ?_).trans ?_
  · rw [Shape.rowMajor_val_one, Shape.rowMajor_val_three]
    rfl
  · refine (Ideal.multiReduction_add_total _ _ hr (fun d => by match d with | ⟨0, _⟩ => rfl) hφ hacc _).trans ?_
    rw [sum_idx3, Fin.sum_univ_one]
    exact Finset.sum_congr rfl fun r _ => Finset.sum_congr rfl fun l _ => shapeCast_ab_1ab_apply v hc 0 r l

end Cert.Lib.TotalSum

end
-- ==== Proof.LibColumns.lean ====
/-
  N single-column matrices with the same number of rows laid side by side, read at an entry: entry (p, k) of the
  n × N result is entry (p, 0) of column k.  Also a column sliced out of a matrix: entry (p, 0) of the slice at
  column offset j is entry (p, j) of the matrix.
-/
import Idealize.ShloMosaic.Lib.ValueIdx
import Idealize.ShloMosaic.Lib.Pipeline.Value

noncomputable section

namespace Cert.Lib.Columns

open Idealize.ShloMosaic Idealize.ShloMosaic.ValueIdx

variable {α : Type}

/-- Joining N columns of height n along the column axis: position (p, k) holds column k's entry in row p. -/
theorem join_cols {n N : Nat} (cols : Fin N → ((⟨2, ![n, 1]⟩ : Shape).Idx → α))
    (h : Shape.Concatenates ((List.ofFn fun k : Fin N =>
      (⟨⟨2, ![n, 1]⟩, cols k⟩ : (s : Shape) × (s.Idx → α))).map (·.1)) ⟨2, ![n, N]⟩ (1 : Fin 2))
    (p : Fin n) (k : Fin N) :
    concatenate (⟨2, ![n, N]⟩ : Shape) (1 : Fin 2)
        (List.ofFn fun k : Fin N => (⟨⟨2, ![n, 1]⟩, cols k⟩ : (s : Shape) × (s.Idx → α))) h (ix2 p k)
      = cols k (ix2 p 0) :=
  concatenate_ofFn_apply (t := ⟨2, ![n, N]⟩) (s₁ := ⟨2, ![n, 1]⟩) (1 : Fin 2) cols h rfl 1 rfl (ix2 p k) k
    (by show k.val / 1 = k.val; omega) (ix2 p 0) (by show 0 = k.val % 1; omega)
    (fun b hb => by
      match b with
      | ⟨0, _⟩ => rfl
      | ⟨1, _⟩ => exact absurd rfl hb)

/-- Slicing the single column at offset j out of an n × c matrix: row p of the slice is entry (p, j). -/
theorem slice_col {n c : Nat} (x : (⟨2, ![n, c]⟩ : Shape).Idx → α) (j : Fin c)
    (h : (⟨2, ![n, c]⟩ : Shape).Slices ![0, j.val] ⟨2, ![n, 1]⟩) (p : Fin n) :
    extractStridedSlice (⟨2, ![n, 1]⟩ : Shape) ![0, j.val] x h (ix2 p 0) = x (ix2 p j) :=
  extractStridedSlice_apply ![0, j.val] x h (ix2 p 0) (ix2 p j) (fun a => by
    match a with
    | ⟨0, _⟩ => show p.val = 0 + p.val; omega
    | ⟨1, _⟩ => show j.val = j.val + 0; omega)

end Cert.Lib.Columns

end
-- ==== Proof.HistValue.lean ====
/-
  The histogram body's stored value at an entry, over the extended reals.  Entry (0, 0, k) of what the body stores is
  the running block's entry plus the number of samples of the block whose bin is k:
      prev (0,0,k) + ∑ r, ∑ l, ind k (x (0,r,l)) (b (0,r,l)).
  Column k of the row is the sum over the whole bin matrix of the 0/1 indicator of "bin = k" (a float sum over both
  axes into one entry is the double sum of the entries); the bin matrix at (r, l) is the bin of the sample at (0, r, l);
  thirty 1 × 1 columns joined along the column axis are read at (0, k) as column k at (0, 0).
-/
import proofs.«105683_j74105365725384_2_alg».proof.Proof.HistRow
import proofs.«105683_j74105365725384_2_alg».proof.Proof.Spec
import proofs.«105683_j74105365725384_2_alg».proof.Proof.LibTotalSum
import proofs.«105683_j74105365725384_2_alg».proof.Proof.LibColumns
import Idealize.ShloMosaic.Lib.ValueLayout

set_option maxRecDepth 16384

noncomputable section

namespace Cert.Ghm.Hist

open Cert.KernelIdeal Cert.KernelIdeal.Gen
open Idealize.ShloMosaic Idealize.SL.Sem Idealize.ShloMosaic.ValueIdx

/-- The bin matrix at (r, l) is the bin of the sample at (0, r, l) of the block. -/
theorem bins_apply (x0 : Vec Ideal S1x8192x128 .f32) (x1 : Vec Ideal S1x8192x128 .i32) (r : Fin 8192) (l : Fin 128) :
    k0_pay3 (F := Ideal) x0 x1 (ix2 r l) = Cert.Ghm.bin (x0 (ix3 0 r l)) (x1 (ix3 0 r l)) := by
  have e0 := shapeCast_1ab_ab_apply x0 shapeCasts_S1x8192x128_S8192x128 r l
  have e1 := shapeCast_1ab_ab_apply x1 shapeCasts_S1x8192x128_S8192x128 r l
  show Cert.Ghm.bin (shapeCast S8192x128 x0 shapeCasts_S1x8192x128_S8192x128 (ix2 r l))
      (shapeCast S8192x128 x1 shapeCasts_S1x8192x128_S8192x128 (ix2 r l)) = _
  rw [e0, e1]

/-- A column's one entry is the number of entries of the bin matrix equal to the word: the double sum of the
    indicator. -/
theorem col_apply (bins : IVec S8192x128 32) (w : BitVec 32) :
    col (F := Ideal) bins w (ix2 0 0)
      = ∑ r : Fin 8192, ∑ l : Fin 128,
          FloatOps.sitofp (F := Ideal) .f32 (BitVec.setWidth 32 (IntOp.cmpi .eq (bins (ix2 r l)) w)) := by
  unfold col
  rw [broadcast_apply]
  refine (Cert.Lib.TotalSum.total_apply (a := 8192) (b := 128)
    (sitofp .f32 (extui 32 (cmpi .eq bins (broadcast S8192x128 w)) natLt_1_32))
    shapeCasts_S8192x128_S1x8192x128 reduces_S1x8192x128_S1 (.inl rfl) rfl shapeCasts_S1_S1x1x1
    inpos_S1x1x1_p0_0_0).trans ?_
  exact Finset.sum_congr rfl fun r _ => Finset.sum_congr rfl fun l _ => rfl

/-- The thirty 1 × 1 columns fit side by side into a 1 × 30 row. -/
theorem cols_concat {F : FTy → Type} [FloatOps F] (bins : IVec S8192x128 32) :
    Shape.Concatenates ((List.ofFn fun k : Fin 30 =>
      (⟨S1x1, cols (F := F) bins k⟩ : (s : Shape) × (s.Idx → F .f32))).map (·.1)) S1x30 (1 : Fin 2) := by
  rw [cols_list]
  exact concatenates_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x30_d1

/-- Entry (0, k) of the row is the number of samples of the block whose bin is k. -/
theorem row_apply (x0 : Vec Ideal S1x8192x128 .f32) (x1 : Vec Ideal S1x8192x128 .i32) (k : Fin 30) :
    row (F := Ideal) x0 x1 (ix2 0 k)
      = ∑ r : Fin 8192, ∑ l : Fin 128, Cert.Ghm.ind (BitVec.ofNat 32 k.val) (x0 (ix3 0 r l)) (x1 (ix3 0 r l)) := by
  rw [row_eq x0 x1 (cols_concat _)]
  refine (Cert.Lib.Columns.join_cols (cols (F := Ideal) (k0_pay3 x0 x1)) (cols_concat _) 0 k).trans ?_
  refine (col_apply _ _).trans ?_
  refine Finset.sum_congr rfl fun r _ => Finset.sum_congr rfl fun l _ => ?_
  rw [bins_apply]
  rfl

/-- Entry (0, 0, k) of what the body stores: the running block's entry plus the count of bin k in the block. -/
theorem body_apply (x0 : Vec Ideal S1x8192x128 .f32) (x1 : Vec Ideal S1x8192x128 .i32) (prev : Vec Ideal S1x1x30 .f32)
    (k : Fin 30) :
    body (F := Ideal) x0 x1 prev (ix3 0 0 k)
      = prev (ix3 0 0 k)
        + ∑ r : Fin 8192, ∑ l : Fin 128, Cert.Ghm.ind (BitVec.ofNat 32 k.val) (x0 (ix3 0 r l)) (x1 (ix3 0 r l)) := by
  unfold body k0_pay2
  refine (shapeCast_ab_1ab_apply _ shapeCasts_S1x30_S1x1x30 0 0 k).trans ?_
  show shapeCast S1x30 prev shapeCasts_S1x1x30_S1x30 (ix2 0 k) + row (F := Ideal) x0 x1 (ix2 0 k) = _
  rw [shapeCast_1ab_ab_apply prev shapeCasts_S1x1x30_S1x30 0 k, row_apply]

/-- What the body stores, at every entry: the running block's entry plus the row's entry there (the row recast to
    the block's shape). -/
theorem body_eq (x0 : Vec Ideal S1x8192x128 .f32) (x1 : Vec Ideal S1x8192x128 .i32) (prev : Vec Ideal S1x1x30 .f32) :
    body (F := Ideal) x0 x1 prev
      = fun i => prev i + shapeCast S1x1x30 (row (F := Ideal) x0 x1) shapeCasts_S1x30_S1x1x30 i := by
  funext i
  have e := congrFun (shapeCast_shapeCast prev shapeCasts_S1x1x30_S1x30 shapeCasts_S1x30_S1x1x30) i
  unfold body k0_pay2
  show shapeCast S1x1x30 (shapeCast S1x30 prev shapeCasts_S1x1x30_S1x30) shapeCasts_S1x30_S1x1x30 i
      + shapeCast S1x1x30 (row (F := Ideal) x0 x1) shapeCasts_S1x30_S1x1x30 i = _
  rw [e]

/-- The row recast to the block's shape, at (0, 0, k): the number of samples of the block whose bin is k. -/
theorem rowBlock_apply (x0 : Vec Ideal S1x8192x128 .f32) (x1 : Vec Ideal S1x8192x128 .i32) (k : Fin 30) :
    shapeCast S1x1x30 (row (F := Ideal) x0 x1) shapeCasts_S1x30_S1x1x30 (ix3 0 0 k)
      = ∑ r : Fin 8192, ∑ l : Fin 128, Cert.Ghm.ind (BitVec.ofNat 32 k.val) (x0 (ix3 0 r l)) (x1 (ix3 0 r l)) :=
  (shapeCast_ab_1ab_apply _ shapeCasts_S1x30_S1x1x30 0 0 k).trans (row_apply x0 x1 k)

/-- The zero block is zero at every entry. -/
theorem zero_apply (k : Fin 30) : (k0_pay4 (F := Ideal)) (ix3 0 0 k) = 0 := by
  unfold k0_pay4
  refine (shapeCast_ab_1ab_apply _ shapeCasts_S1x30_S1x1x30 0 0 k).trans ?_
  rw [broadcast_apply]
  exact Ideal.ofBits_zero_f32

end Cert.Ghm.Hist

end
-- ==== Proof.HistInv.lean ====
/-
  The histogram output's staging buffer across the grid, as a running sum.  The grid's sixteen points are two runs of
  eight: at the first point of a run the body leaves zero block + row of the point's input blocks, at each later point
  what the point before left + row of the point's input blocks.  So after point t the buffer holds, entry by entry, the
  zero block plus the sum of the rows of the points of t's run up to t.
-/
import proofs.«105683_j74105365725384_2_alg».proof.Proof.HistCases
import proofs.«105683_j74105365725384_2_alg».proof.Proof.HistValue

set_option maxRecDepth 16384

noncomputable section

namespace Cert.Ghm.Hist

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

/-- What the first point of a run leaves: the zero block plus the row of the point's input blocks. -/
def resetAt (c : Dev nD) (n : ℕ) (h : n < cfg0.N) : Vec Ideal S1x1x30 .f32 :=
  body (F := Ideal) (iblk0 V c 0 ⟨n, h⟩) (iblk0 V c 1 ⟨n, h⟩) zeroBlock

/-- What a later point leaves over what the point before left. -/
def stepAt (c : Dev nD) (n : ℕ) (h : n < cfg0.N) (acc : Vec Ideal S1x1x30 .f32) : Vec Ideal S1x1x30 .f32 :=
  body (F := Ideal) (iblk0 V c 0 ⟨n, h⟩) (iblk0 V c 1 ⟨n, h⟩) acc

/-- The row of point n's input blocks, in the block's shape; zero past the grid. -/
def rowAt (c : Dev nD) (n : ℕ) : S1x1x30.Idx → Ideal .f32 := fun i =>
  if h : n < cfg0.N then
    shapeCast S1x1x30 (row (F := Ideal) (iblk0 V c 0 ⟨n, h⟩) (iblk0 V c 1 ⟨n, h⟩)) shapeCasts_S1x30_S1x1x30 i
  else 0

/-- At a point whose number is a multiple of eight the buffer holds the reset value. -/
theorem outsAt_reset (c : Dev nD) (n : ℕ) (h : n < cfg0.N) (h0 : n % 8 = 0) :
    outsAt0 V c n h = resetAt V c n h :=
  (outsAt0_A V c ⟨n, h⟩ h0).trans
    (out_A (F := Ideal) c (grid0.coords ⟨n, h⟩) (ms0_0 ⟨n, h⟩) (hs0_0 ⟨n, h⟩) (ms0_1 ⟨n, h⟩) (hs0_1 ⟨n, h⟩)
      (ms0_2 ⟨n, h⟩) (hs0_2 ⟨n, h⟩) ((hcond0_0 ⟨n, h⟩).mpr h0) (iblk0 V c 0 ⟨n, h⟩) (iblk0 V c 1 ⟨n, h⟩))

/-- At any other point it holds the step over what the point before left. -/
theorem outsAt_step (c : Dev nD) (n : ℕ) (h : n + 1 < cfg0.N) (h0 : ¬(n + 1) % 8 = 0) :
    outsAt0 V c (n + 1) h = stepAt V c (n + 1) h (outsAt0 V c n (Nat.lt_of_succ_lt h)) :=
  (outsAt0_B V c ⟨n + 1, h⟩ h0).trans
    (out_B (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun hh => h0 ((hcond0_0 ⟨n + 1, h⟩).mp hh))
      (iblk0 V c 0 ⟨n + 1, h⟩) (iblk0 V c 1 ⟨n + 1, h⟩) (outsAt0 V c n (Nat.lt_of_succ_lt h)))

/-- After point t the buffer holds the fold over t's run up to t. -/
theorem outsAt_fold (c : Dev nD) (t : ℕ) (ht : t < cfg0.N) (h' : 8 * (t / 8) + t % 8 < cfg0.N) :
    outsAt0 V c t ht = Pipeline.accAt (resetAt V c) (stepAt V c) (8 * (t / 8)) (t % 8) h' :=
  Pipeline.eq_accAt_of_mod (outsAt0 V c) 8 (resetAt V c) (stepAt V c)
    (fun n h h0 => outsAt_reset V c n h h0) (fun n h h0 => outsAt_step V c n h h0) (by decide) t ht h'

/-- The fold, entry by entry: the zero block's entry plus the sum of the rows' entries over the run up to the point. -/
theorem fold_apply (c : Dev nD) (q j : ℕ) (hj : j ≤ 7) (h : 8 * q + j < cfg0.N) (i : S1x1x30.Idx) :
    Pipeline.accAt (resetAt V c) (stepAt V c) (8 * q) j h i
      = zeroBlock (F := Ideal) i + ∑ s ∈ Finset.range (j + 1), rowAt V c (8 * q + s) i :=
  Pipeline.accAt_add_apply (resetAt V c) (stepAt V c) (zeroBlock (F := Ideal)) (rowAt V c) (8 * q) 7
    (fun hb i => by
      unfold resetAt rowAt
      rw [body_eq, dif_pos hb])
    (fun n hn acc i _ _ => by
      unfold stepAt rowAt
      rw [body_eq, dif_pos hn])
    j hj h i

/-- After the last point of run q (point 8q + 7) the buffer's entry (0, 0, k) is the sum over the run's eight points
    of the number of samples of the point's block whose bin is k. -/
theorem outsAt_last (c : Dev nD) (q : ℕ) (h : 8 * q + 7 < cfg0.N) (k : Fin 30) :
    outsAt0 V c (8 * q + 7) h (ix3 0 0 k) = ∑ s ∈ Finset.range 8, rowAt V c (8 * q + s) (ix3 0 0 k) := by
  have hdiv : (8 * q + 7) / 8 = q := by omega
  have hmod : (8 * q + 7) % 8 = 7 := by omega
  have h' : 8 * ((8 * q + 7) / 8) + (8 * q + 7) % 8 < cfg0.N := by rw [hdiv, hmod]; exact h
  rw [outsAt_fold V c (8 * q + 7) h h']
  have key : ∀ (a b : ℕ) (hab : 8 * a + b < cfg0.N), a = q → b = 7 →
      Pipeline.accAt (resetAt V c) (stepAt V c) (8 * a) b hab (ix3 0 0 k)
        = ∑ s ∈ Finset.range 8, rowAt V c (8 * q + s) (ix3 0 0 k) := by
    intro a b hab ha hb
    subst ha hb
    rw [fold_apply V c a 7 (le_refl 7) hab, show zeroBlock (F := Ideal) (ix3 0 0 k) = 0 from zero_apply k, zero_add]
  exact key _ _ h' hdiv hmod

end Cert.Ghm.Hist

end
-- ==== Proof.HistPts.lean ====
/-
  From the grid's points to the output array of the histogram pass.  The output window's block of half h is the whole
  row (h, 0, ·) of the 2 × 1 × 30 array; it is written back after the last of the half's eight points, holding the
  sum over those points of the per-block counts.  The input windows' block at point t = 8h + j is rows
  j·8192 … j·8192 + 8191 of half h of the 2 × 65536 × 128 arrays (a block's coordinate in the array is block index ×
  block size + the coordinate inside the block).  So after the pass entry (h, 0, k) of the output array is the number
  of samples of half h whose bin is k, summed block by block.
-/
import proofs.«105683_j74105365725384_2_alg».proof.Proof.HistInv
import proofs.«105683_j74105365725384_2_alg».proof.Proof.KRegroup
import Idealize.ShloMosaic.Lib.Pipeline.Value

set_option maxRecDepth 16384

noncomputable section

namespace Cert.Ghm.Hist

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three windows' block indices at point t: half t / 8 on the first axis; the inputs' row block t % 8. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- The logits' block at point t, at (0, r, l): the array at (half, row block · 8192 + r, l). -/
theorem iblk_logits (c : Dev nD) (t : Fin cfg0.N) (a : Fin 2) (j : Fin 8) (ha : t.val / 8 = a.val)
    (hj : t.val % 8 = j.val) (r : Fin 8192) (l : Fin 128) :
    (iblk0 V c 0 t : Vec Ideal S1x8192x128 .f32) (ix3 0 r l) = V c main_v0 (ix3 a (Cert.Ghm.Regroup.row j r) l) := by
  obtain ⟨e0, e1, e2, -⟩ := idx_facts t
  unfold iblk0
  rw [View.read_apply]
  show V c main_v0 (((cfg0.win 0).blk t).view.emb (ix3 0 r l)) = V c main_v0 (ix3 a (Cert.Ghm.Regroup.row j r) l)
  refine congrArg (V c main_v0) ?_
  funext d
  apply Fin.ext
  match d with
  | ⟨0, _⟩ => show win0_0.index t (0 : Fin 3) * 1 + 1 * 0 = a.val; omega
  | ⟨1, _⟩ => show win0_0.index t (1 : Fin 3) * 8192 + 1 * r.val = j.val * 8192 + r.val; rw [e1, hj]; omega
  | ⟨2, _⟩ => show win0_0.index t (2 : Fin 3) * 128 + 1 * l.val = l.val; omega

/-- The labels' block likewise. -/
theorem iblk_labels (c : Dev nD) (t : Fin cfg0.N) (a : Fin 2) (j : Fin 8) (ha : t.val / 8 = a.val)
    (hj : t.val % 8 = j.val) (r : Fin 8192) (l : Fin 128) :
    (iblk0 V c 1 t : Vec Ideal S1x8192x128 .i32) (ix3 0 r l) = V c main_v1 (ix3 a (Cert.Ghm.Regroup.row j r) l) := by
  obtain ⟨-, -, -, e0, e1, e2, -⟩ := idx_facts t
  unfold iblk0
  rw [View.read_apply]
  show V c main_v1 (((cfg0.win 1).blk t).view.emb (ix3 0 r l)) = V c main_v1 (ix3 a (Cert.Ghm.Regroup.row j r) l)
  refine congrArg (V c main_v1) ?_
  funext d
  apply Fin.ext
  match d with
  | ⟨0, _⟩ => show win0_1.index t (0 : Fin 3) * 1 + 1 * 0 = a.val; omega
  | ⟨1, _⟩ => show win0_1.index t (1 : Fin 3) * 8192 + 1 * r.val = j.val * 8192 + r.val; rw [e1, hj]; omega
  | ⟨2, _⟩ => show win0_1.index t (2 : Fin 3) * 128 + 1 * l.val = l.val; omega

/-- The row of point 8a + j at (0, 0, k): the number of samples of row block j of half a whose bin is k. -/
theorem rowAt_apply (c : Dev nD) (a : Fin 2) (j : Fin 8) (k : Fin 30) :
    rowAt V c (8 * a.val + j.val) (ix3 0 0 k)
      = ∑ r : Fin 8192, ∑ l : Fin 128,
          Cert.Ghm.ind (BitVec.ofNat 32 k.val) (V c main_v0 (ix3 a (Cert.Ghm.Regroup.row j r) l))
            (V c main_v1 (ix3 a (Cert.Ghm.Regroup.row j r) l)) := by
  have hN : cfg0.N = 16 := N_0
  have ha := a.isLt
  have hj := j.isLt
  have h : 8 * a.val + j.val < cfg0.N := by rw [hN]; omega
  unfold rowAt
  rw [dif_pos h]
  refine (rowBlock_apply (iblk0 V c 0 ⟨8 * a.val + j.val, h⟩) (iblk0 V c 1 ⟨8 * a.val + j.val, h⟩) k).trans ?_
  refine Finset.sum_congr rfl fun r _ => Finset.sum_congr rfl fun l _ => ?_
  rw [iblk_logits V c ⟨8 * a.val + j.val, h⟩ a j (by show (8 * a.val + j.val) / 8 = a.val; omega)
      (by show (8 * a.val + j.val) % 8 = j.val; omega) r l,
    iblk_labels V c ⟨8 * a.val + j.val, h⟩ a j (by show (8 * a.val + j.val) / 8 = a.val; omega)
      (by show (8 * a.val + j.val) % 8 = j.val; omega) r l]

/-- The sum over the eight points of half a of the rows' entry k. -/
def halfSum (c : Dev nD) (a : ℕ) (k : Fin 30) : Ideal .f32 :=
  ∑ s ∈ Finset.range 8, rowAt V c (8 * a + s) (ix3 0 0 k)

/-- The output array after the pass, as one function of its index. -/
def G (c : Dev nD) : S2x1x30.Idx → Ideal .f32 := fun i => halfSum V c (i 0).val ⟨(i 2).val, (i 2).isLt⟩

/-- The staging buffer after a point does not depend on how the point's number is written. -/
theorem outsAt_congr (c : Dev nD) {n n' : ℕ} (e : n = n') (h : n < cfg0.N) (h' : n' < cfg0.N) :
    outsAt0 V c n h = outsAt0 V c n' h' := by
  subst e; rfl

/-- What the last point of a half writes back is the half's block of `G`. -/
theorem flushed_eq (c : Dev nD) (t : Fin cfg0.N) (hf : (cfg0.win 2).flush t = true) :
    (dat0 V c).flushed 2 t = ((cfg0.win 2).blk t).view.read (Elt Ideal) (G V c) := by
  have h7 : t.val % 8 = 7 := (flush0_2 t).mp hf
  obtain ⟨-, -, -, -, -, -, e0, e1, e2⟩ := idx_facts t
  show (cfg0.win 2).cut (grid0.coords t) ((dat0 V c).after 2 t) = _
  rw [after0_2]
  have key : ∀ y : S1x1x30.Idx,
      outsAt0 V c t.val t.isLt y = G V c (((cfg0.win 2).blk t).view.emb y) := by
    intro y
    have y0 : (y 0).val < 1 := (y 0).isLt
    have y1 : (y 1).val < 1 := (y 1).isLt
    obtain ⟨k, rfl⟩ : ∃ k : Fin 30, y = ix3 0 0 k :=
      ⟨y 2, funext fun d => by
        match d with
        | ⟨0, _⟩ => exact Fin.ext (by show (y 0).val = 0; omega)
        | ⟨1, _⟩ => exact Fin.ext (by show (y 1).val = 0; omega)
        | ⟨2, _⟩ => rfl⟩
    have ht : t.val = 8 * (t.val / 8) + 7 := by omega
    have hlt : 8 * (t.val / 8) + 7 < cfg0.N := ht ▸ t.isLt
    rw [outsAt_congr V c ht t.isLt hlt, outsAt_last V c (t.val / 8) hlt k]
    show halfSum V c (t.val / 8) k
      = halfSum V c ((((cfg0.win 2).blk t).view.emb (ix3 0 0 k)) 0).val
          ⟨((((cfg0.win 2).blk t).view.emb (ix3 0 0 k)) 2).val, _⟩
    have E0 : ((((cfg0.win 2).blk t).view.emb (ix3 0 0 k)) 0).val = t.val / 8 := by
      show win0_2.index t (0 : Fin 3) * 1 + 1 * 0 = t.val / 8; omega
    have E2 : ((((cfg0.win 2).blk t).view.emb (ix3 0 0 k)) 2).val = k.val := by
      show win0_2.index t (2 : Fin 3) * 30 + 1 * k.val = k.val; omega
    exact (congrArg₂ (halfSum V c) E0 (Fin.ext E2)).symm
  funext y
  exact key y

/-- An index of the output array is in point t's block iff each coordinate is in the block's range on its axis. -/
theorem mem_blk (t : Fin cfg0.N) (i : S2x1x30.Idx) :
    i ∈ ((cfg0.win 2).blk t).view.set ↔ ∀ a : Fin 3, win0_2.index t a * S1x1x30.size a ≤ (i a).val
      ∧ (i a).val < win0_2.index t a * S1x1x30.size a + S1x1x30.size a := by
  show i ∈ ((View.whole main_v2).slice (win0_2.rect t)).set ↔ _
  rw [View.set_slice_whole, Rect.mem_set_unit]
  exact Iff.rfl

/-- Every index of the output array is in the block the last point of its half writes back. -/
theorem cover (i : S2x1x30.Idx) :
    ∃ t : Fin cfg0.N, (cfg0.win 2).flush t = true ∧ i ∈ ((cfg0.win 2).blk t).view.set := by
  have hN : cfg0.N = 16 := N_0
  have i0 : (i 0).val < 2 := (i 0).isLt
  have i1 : (i 1).val < 1 := (i 1).isLt
  have i2 : (i 2).val < 30 := (i 2).isLt
  have hlt : 8 * (i 0).val + 7 < cfg0.N := by rw [hN]; omega
  refine ⟨⟨8 * (i 0).val + 7, hlt⟩, (flush0_2 _).mpr (by show (8 * (i 0).val + 7) % 8 = 7; omega), ?_⟩
  obtain ⟨-, -, -, -, -, -, e0, e1, e2⟩ := idx_facts ⟨8 * (i 0).val + 7, hlt⟩
  have e0' : win0_2.index ⟨8 * (i 0).val + 7, hlt⟩ (0 : Fin 3) = (i 0).val := by
    rw [e0]; show (8 * (i 0).val + 7) / 8 = (i 0).val; omega
  rw [mem_blk]
  intro a
  match a with
  | ⟨0, _⟩ =>
    show win0_2.index ⟨8 * (i 0).val + 7, hlt⟩ (0 : Fin 3) * 1 ≤ (i 0).val
      ∧ (i 0).val < win0_2.index ⟨8 * (i 0).val + 7, hlt⟩ (0 : Fin 3) * 1 + 1
    omega
  | ⟨1, _⟩ =>
    show win0_2.index ⟨8 * (i 0).val + 7, hlt⟩ (1 : Fin 3) * 1 ≤ (i 1).val
      ∧ (i 1).val < win0_2.index ⟨8 * (i 0).val + 7, hlt⟩ (1 : Fin 3) * 1 + 1
    omega
  | ⟨2, _⟩ =>
    show win0_2.index ⟨8 * (i 0).val + 7, hlt⟩ (2 : Fin 3) * 30 ≤ (i 2).val
      ∧ (i 2).val < win0_2.index ⟨8 * (i 0).val + 7, hlt⟩ (2 : Fin 3) * 30 + 30
    omega

/-- THE OUTPUT ARRAY OF THE HISTOGRAM PASS: entry (h, 0, k) is the number of samples of half h whose bin is k, summed
    over the half's eight row blocks. -/
theorem final (c : Dev nD) (h : Fin 2) (k : Fin 30) :
    (dat0 (F := Ideal) V c).arrAt 2 cfg0.N (ix3 h (0 : Fin 1) k)
      = ∑ j : Fin 8, ∑ r : Fin 8192, ∑ l : Fin 128,
          Cert.Ghm.ind (BitVec.ofNat 32 k.val) (V c main_v0 (ix3 h (Cert.Ghm.Regroup.row j r) l))
            (V c main_v1 (ix3 h (Cert.Ghm.Regroup.row j r) l)) := by
  have e := (dat0 V c).arrAt_eq_of_cover 2 (G V c) (fun t hf => flushed_eq V c t hf) (cover)
  refine (congrFun e (ix3 h (0 : Fin 1) k)).trans ?_
  show halfSum V c h.val k = _
  unfold halfSum
  rw [Finset.sum_range]
  exact Finset.sum_congr rfl fun j _ => rowAt_apply V c h j k

end Cert.Ghm.Hist

end
-- ==== Proof.LosskBodyDef.lean ====
/-
  The value the weighted-loss body stores, as one function of what it loads.

  From a block of logits, the block of labels, the weight table and the running sum found in the output
  block, the body's last store writes the running sum plus the block's weighted cross-entropy sum.
  This is that value spelt with the printed program's own pieces, at any float instance; LosskBody
  reads it at the ideal instance and LosskPieces identifies it with what a run of the body leaves.
-/
import proofs.«105683_j74105365725384_2_alg».proof.Proof.Gen.KernelIdeal.Skeleton

noncomputable section

namespace Cert.Ghm.Lossk

open Idealize.ShloMosaic
open Cert.KernelIdeal Cert.KernelIdeal.Gen

variable {F : FTy → Type} [FloatOps F]

/-- The block's weighted sum, spread over a [1, 1] vector. -/
def blockSum (x0 : Vec F S1x8192x128 .f32) (x1 : Vec F S1x8192x128 .i32) (w : Vec F S1x30 .f32) : FVec F S1x1 .f32 :=
  k1_pay20 (k1_pay5 x0 x1)
    (k1_pay13 (k1_pay3 x1) (k1_pay4 x0) (k1_pay6 x0 x1) (k1_pay8 x0) (k1_pay10 x0) (k1_pay11 x0) (k1_pay12 x0))
    (k1_pay14 w)
    (k1_pay19 (k1_pay5 x0 x1) (k1_pay14 w) (k1_pay16 (k1_pay5 x0 x1) (k1_pay14 w) (k1_pay15 (k1_pay5 x0 x1) w))
      (k1_pay17 (k1_pay5 x0 x1)) (k1_pay18 (k1_pay14 w)))
    23#32

/-- What the body's last store writes when the output block held `prev`. -/
def bodyVal (x0 : Vec F S1x8192x128 .f32) (x1 : Vec F S1x8192x128 .i32) (w : Vec F S1x30 .f32) (prev : Vec F S1x1x1 .f32) :
    Vec F S1x1x1 .f32 :=
  k1_pay2 (blockSum x0 x1 w) prev

end Cert.Ghm.Lossk

end
-- ==== Proof.LosskPieces.lean ====
/-
  What one run of the weighted-loss body leaves in the output block.

  The body's run was found in two cases.  At the first step of a half (case A) it stores the zero block,
  reads it back and stores zero plus the block's weighted sum; at every other step (case B) it reads the
  running sum the step before left and stores that plus the block's weighted sum.  In both the last
  store covers the whole [1, 1, 1] block, so the block ends at that store's value: `bodyVal` of the
  loaded blocks, over the zero block in case A and over the running sum in case B.
-/
import proofs.«105683_j74105365725384_2_alg».proof.Proof.Gen.KernelIdeal.Frame
import proofs.«105683_j74105365725384_2_alg».proof.Proof.LosskBodyDef
import Idealize.ShloMosaic.Lib.Pipeline.Value
import Idealize.ShloMosaic.Lib.Tactic

set_option maxRecDepth 16384

noncomputable section

namespace Cert.Ghm.Lossk

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Case B: the running sum plus the block's weighted sum. -/
theorem out_B (c : Dev nD) (i : grid1.Coords) (a2 : Memref sig .tc .vmem S1x8192x128 .f32) (h2 : a2.IsWhole)
    (a3 : Memref sig .tc .vmem S1x8192x128 .i32) (h3 : a3.IsWhole) (a4 : Memref sig .tc .vmem S1x30 .f32) (h4 : a4.IsWhole)
    (a5 : Memref sig .tc .vmem S1x1x1 .f32) (h5 : a5.IsWhole) (hc : ¬cond1_0 i)
    (x0 : Vec F S1x8192x128 .f32) (x1 : Vec F S1x8192x128 .i32) (x2 : Vec F S1x30 .f32) (xo : Vec F S1x1x1 .f32) :
    out1_B_3 c i a2 h2 a3 h3 a4 h4 a5 h5 hc x0 x1 x2 xo = bodyVal x0 x1 x2 xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz3]
  simp only [View.readAt_eq_ld, h2.read_unread, h3.read_unread, h4.read_unread, h5.read_unread,
    View.ld_unit_zero (S := S1x8192x128) hz3, View.ld_unit_zero (S := S1x30) hz2, View.ld_unit_zero (S := S1x1x1) hz3]
  rfl

/-- Case A: zero plus the block's weighted sum. -/
theorem out_A (c : Dev nD) (i : grid1.Coords) (a2 : Memref sig .tc .vmem S1x8192x128 .f32) (h2 : a2.IsWhole)
    (a3 : Memref sig .tc .vmem S1x8192x128 .i32) (h3 : a3.IsWhole) (a4 : Memref sig .tc .vmem S1x30 .f32) (h4 : a4.IsWhole)
    (a5 : Memref sig .tc .vmem S1x1x1 .f32) (h5 : a5.IsWhole) (hc : cond1_0 i)
    (x0 : Vec F S1x8192x128 .f32) (x1 : Vec F S1x8192x128 .i32) (x2 : Vec F S1x30 .f32) :
    out1_A_3 c i a2 h2 a3 h3 a4 h4 a5 h5 hc x0 x1 x2 = bodyVal x0 x1 x2 k1_pay1 := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S1x8192x128) hz3, View.ld_unit_zero (S := S1x30) hz2]
  rfl

end Cert.Ghm.Lossk

end
-- ==== Proof.LosskSample.lean ====
/-
  The per-sample terms of the weighted-loss pass, read at one sample.

  The body works on a block of 8192 × 128 samples at once; every operation on it is the scalar
  operation at each sample.  At the sample in row r, lane l of the block, with logit x and label b,
  the body's bin word is `bin x b` and its cross-entropy sum is `bceSum x b`: the block's leading
  unit axis is dropped by a shape cast (entry (r, l) of the cast is entry (0, r, l) of the block),
  and the rest is the definitions, operation for operation.
-/
import proofs.«105683_j74105365725384_2_alg».proof.Proof.Gen.KernelIdeal.Skeleton
import proofs.«105683_j74105365725384_2_alg».proof.Proof.Spec
import Idealize.ShloMosaic.Lib.ValueLayout

set_option maxRecDepth 16384

noncomputable section

namespace Cert.Ghm.Lossk

open Idealize.ShloMosaic Idealize.ShloMosaic.ValueIdx
open Cert.KernelIdeal Cert.KernelIdeal.Gen

/-- The bin word of the sample at (r, l). -/
theorem bin_at (x0 : Vec Ideal S1x8192x128 .f32) (x1 : Vec Ideal S1x8192x128 .i32) (r : Fin 8192) (l : Fin 128) :
    k1_pay5 (F := Ideal) x0 x1 (ix2 r l) = bin (x0 (ix3 (0 : Fin 1) r l)) (x1 (ix3 (0 : Fin 1) r l)) := by
  have e0 : shapeCast S8192x128 x0 shapeCasts_S1x8192x128_S8192x128 (ix2 r l) = x0 (ix3 (0 : Fin 1) r l) :=
    shapeCast_1ab_ab_apply x0 _ r l
  have e1 : shapeCast S8192x128 x1 shapeCasts_S1x8192x128_S8192x128 (ix2 r l) = x1 (ix3 (0 : Fin 1) r l) :=
    shapeCast_1ab_ab_apply x1 _ r l
  show bin (shapeCast S8192x128 x0 shapeCasts_S1x8192x128_S8192x128 (ix2 r l))
      (shapeCast S8192x128 x1 shapeCasts_S1x8192x128_S8192x128 (ix2 r l)) = _
  rw [e0, e1]

/-- The cross-entropy sum of the sample at (r, l). -/
theorem bceSum_at (x0 : Vec Ideal S1x8192x128 .f32) (x1 : Vec Ideal S1x8192x128 .i32) (r : Fin 8192) (l : Fin 128) :
    k1_pay13 (F := Ideal) (k1_pay3 x1) (k1_pay4 x0) (k1_pay6 x0 x1) (k1_pay8 x0) (k1_pay10 x0) (k1_pay11 x0) (k1_pay12 x0) (ix2 r l)
      = bceSum (x0 (ix3 (0 : Fin 1) r l)) (x1 (ix3 (0 : Fin 1) r l)) := by
  have e0 : shapeCast S8192x128 x0 shapeCasts_S1x8192x128_S8192x128 (ix2 r l) = x0 (ix3 (0 : Fin 1) r l) :=
    shapeCast_1ab_ab_apply x0 _ r l
  have e1 : shapeCast S8192x128 x1 shapeCasts_S1x8192x128_S8192x128 (ix2 r l) = x1 (ix3 (0 : Fin 1) r l) :=
    shapeCast_1ab_ab_apply x1 _ r l
  show bceSum (shapeCast S8192x128 x0 shapeCasts_S1x8192x128_S8192x128 (ix2 r l))
      (shapeCast S8192x128 x1 shapeCasts_S1x8192x128_S8192x128 (ix2 r l)) = _
  rw [e0, e1]

end Cert.Ghm.Lossk

end
-- ==== Proof.LosskChain.lean ====
/-
  A table read through a chain of selects.

  The weighted-loss pass looks a per-bin weight up by thirty compare-and-select steps: starting from
  zero, step k replaces the running value by entry k of the table when the sample's bin word equals k.
  The entries k are distinct, so at most one step fires; a word below thirty picks its own entry, a
  word of thirty or more picks none and the zero survives.  This module states that over an abstract
  table, with the chain cut into consecutive runs (the runs compose).
-/
import proofs.«105683_j74105365725384_2_alg».proof.Proof.Spec

noncomputable section

namespace Cert.Ghm.Lossk

open Idealize.ShloMosaic

/-- The chain of n selects over the entries lo, lo+1, …, lo+n-1 of a table, the last the outermost:
    `if b = lo+n-1 then tab (lo+n-1) else … if b = lo then tab lo else init`. -/
def selChain {α : Type} (tab : Nat → α) (b : BitVec 32) (init : α) (lo : Nat) : Nat → α
  | 0 => init
  | n + 1 => Scalar.select (IntOp.cmpi .eq b (BitVec.ofNat 32 (lo + n))) (tab (lo + n)) (selChain tab b init lo n)

/-- A run of n steps followed by a run of m steps from where the first ended is one run of n + m. -/
theorem selChain_append {α : Type} (tab : Nat → α) (b : BitVec 32) (init : α) (lo n : Nat) :
    ∀ m : Nat, selChain tab b (selChain tab b init lo n) (lo + n) m = selChain tab b init lo (n + m)
  | 0 => rfl
  | m + 1 => by
    show Scalar.select (IntOp.cmpi .eq b (BitVec.ofNat 32 (lo + n + m))) (tab (lo + n + m))
        (selChain tab b (selChain tab b init lo n) (lo + n) m)
      = Scalar.select (IntOp.cmpi .eq b (BitVec.ofNat 32 (lo + (n + m)))) (tab (lo + (n + m)))
        (selChain tab b init lo (n + m))
    rw [selChain_append tab b init lo n m, Nat.add_assoc]

/-- The table read at a word when the word is below n, else zero: what the first n steps leave. -/
def upTo (tab : Nat → Ideal .f32) (b : BitVec 32) (n : Nat) : Ideal .f32 :=
  if b.toNat < n then tab b.toNat else c0

/-- One step: the word equals k exactly when its value is k. -/
theorem select_step (tab : Nat → Ideal .f32) (b : BitVec 32) (k : Nat) (hk : k < 2 ^ 32) :
    Scalar.select (IntOp.cmpi .eq b (BitVec.ofNat 32 k)) (tab k) (upTo tab b k) = upTo tab b (k + 1) := by
  unfold Scalar.select IntOp.cmpi upTo
  by_cases h : b = BitVec.ofNat 32 k
  · subst h
    have hv : (BitVec.ofNat 32 k).toNat = k := by rw [BitVec.toNat_ofNat]; exact Nat.mod_eq_of_lt hk
    simp [hv]
  · have hne : b.toNat ≠ k := fun e => h (BitVec.eq_of_toNat_eq (by
      rw [BitVec.toNat_ofNat, Nat.mod_eq_of_lt hk]; exact e))
    have hb : (b == BitVec.ofNat 32 k) = false := by simpa using h
    have hlt : (b.toNat < k + 1) ↔ (b.toNat < k) := by omega
    simp [hb, hlt]

/-- The first n steps from zero leave the table read at the word if it is below n, else zero. -/
theorem selChain_eq_upTo (tab : Nat → Ideal .f32) (b : BitVec 32) :
    ∀ n : Nat, n ≤ 2 ^ 32 → selChain tab b c0 0 n = upTo tab b n
  | 0, _ => by unfold upTo; simp [selChain]
  | n + 1, hn => by
    show Scalar.select (IntOp.cmpi .eq b (BitVec.ofNat 32 (0 + n))) (tab (0 + n)) (selChain tab b c0 0 n) = _
    rw [selChain_eq_upTo tab b n (by omega), Nat.zero_add]
    exact select_step tab b n (by omega)

/-- All thirty steps: the table of thirty read at the word (`wAt`). -/
theorem selChain_thirty (w : Fin 30 → Ideal .f32) (tab : Nat → Ideal .f32)
    (htab : ∀ k : Fin 30, tab k.val = w k) (b : BitVec 32) :
    selChain tab b c0 0 30 = wAt w b := by
  rw [selChain_eq_upTo tab b 30 (by decide)]
  unfold upTo wAt
  by_cases h : b.toNat < 30
  · rw [if_pos h, dif_pos h]; exact htab ⟨b.toNat, h⟩
  · rw [if_neg h, dif_neg h]

end Cert.Ghm.Lossk

end
-- ==== Proof.LosskWeight.lean ====
/-
  The weight of a sample, as the body builds it.

  The body holds the weight table as a vector of thirty and builds each sample's weight by thirty
  compare-and-select steps on the sample's bin word, each reading one entry of the table (a slice of
  length one at offset k, then its only element).  The printed program cuts that chain into four
  pieces; each piece, read at one sample, is a run of the abstract chain of LosskChain over the same
  table, so the four compose to the whole chain, which is the table read at the bin word.
-/
import proofs.«105683_j74105365725384_2_alg».proof.Proof.Gen.KernelIdeal.Skeleton
import proofs.«105683_j74105365725384_2_alg».proof.Proof.Spec
import proofs.«105683_j74105365725384_2_alg».proof.Proof.LosskChain
import Idealize.ShloMosaic.Lib.ValueLayout

set_option maxRecDepth 16384

noncomputable section

namespace Cert.Ghm.Lossk

open Idealize.ShloMosaic Idealize.ShloMosaic.ValueIdx
open Cert.KernelIdeal Cert.KernelIdeal.Gen

/-- A slice of length one at an offset below thirty lies inside a vector of thirty. -/
theorem slices_lt (k : Nat) (h : k < 30) : S30.Slices ![k] S1 :=
  ⟨rfl, fun a => match a with | ⟨0, _⟩ => (by show k + 1 ≤ 30; omega)⟩

/-- Entry k of a vector of thirty, spelt as the body reads it: the only element of the slice of
    length one at offset k (zero past the end, where no step of the chain looks). -/
def tabN (v55 : FVec Ideal S30 .f32) (k : Nat) : Ideal .f32 :=
  if h : k < 30 then extractAt ![0] (extractStridedSlice S1 ![k] v55 (slices_lt k h)) inpos_S1_p0 else c0

/-- That element is the vector's entry k. -/
theorem tabN_eq (v55 : FVec Ideal S30 .f32) (k : Fin 30) : tabN v55 k.val = v55 (ix1 k) := by
  unfold tabN
  rw [dif_pos k.isLt]
  unfold extractAt extractStridedSlice
  congr 1
  funext a
  match a with
  | ⟨0, _⟩ => exact Fin.ext (Nat.add_zero _)

/-- The table as the body loads it, a [1, 30] block with its unit axis dropped: entry k is the
    block's entry (0, k). -/
theorem tabN_block (w : Vec Ideal S1x30 .f32) (k : Fin 30) :
    tabN (k1_pay14 (F := Ideal) w) k.val = w (ix2 (0 : Fin 1) k) := by
  rw [tabN_eq]
  exact shapeCast_1a_a_apply w _ k

/-- Steps 0–5, from zero. -/
theorem chain_0_6 (v14 : IVec S8192x128 32) (w : Vec Ideal S1x30 .f32) (p : S8192x128.Idx) :
    k1_pay15 (F := Ideal) v14 w p = selChain (tabN (k1_pay14 (F := Ideal) w)) (v14 p) c0 0 6 := rfl

/-- Steps 6–13, from what steps 0–5 left. -/
theorem chain_6_14 (v14 : IVec S8192x128 32) (v55 : FVec Ideal S30 .f32) (v92 : FVec Ideal S8192x128 .f32) (p : S8192x128.Idx) :
    k1_pay16 (F := Ideal) v14 v55 v92 p = selChain (tabN v55) (v14 p) (v92 p) 6 8 := rfl

/-- Steps 14–22 (step 14's comparison and slice are computed beforehand). -/
theorem chain_14_23 (v14 : IVec S8192x128 32) (v55 : FVec Ideal S30 .f32) (v140 : FVec Ideal S8192x128 .f32) (p : S8192x128.Idx) :
    k1_pay19 (F := Ideal) v14 v55 v140 (k1_pay17 v14) (k1_pay18 v55) p = selChain (tabN v55) (v14 p) (v140 p) 14 9 := rfl

/-- Steps 23–29, as a vector over the block. -/
def lastSteps (v14 : IVec S8192x128 32) (v55 : FVec Ideal S30 .f32) (v194 : FVec Ideal S8192x128 .f32) : FVec Ideal S8192x128 .f32 :=
  fun p => selChain (tabN v55) (v14 p) (v194 p) 23 7

/-- The last piece: steps 23–29, the product with the cross-entropy sums, and the sum over the block,
    spread over a [1, 1] vector. -/
theorem last_piece (v14 : IVec S8192x128 32) (v53 : FVec Ideal S8192x128 .f32) (v55 : FVec Ideal S30 .f32) (v194 : FVec Ideal S8192x128 .f32) :
    k1_pay20 (F := Ideal) v14 v53 v55 v194 23#32
      = broadcast S1x1 (extractAt ![0, 0, 0] (shapeCast S1x1x1
          (multiReduction (F := Ideal) .add [1, 2] S1 (shapeCast S1x8192x128 (mulf (lastSteps v14 v55 v194) v53) shapeCasts_S8192x128_S1x8192x128)
            0x00000000#32 reduces_S1x8192x128_S1 (.inl rfl) rfl) shapeCasts_S1_S1x1x1) inpos_S1x1x1_p0_0_0) := rfl

/-- The four pieces composed: the whole chain at a sample is the table read at the sample's bin word. -/
theorem weight_at (v14 : IVec S8192x128 32) (w : Vec Ideal S1x30 .f32) (p : S8192x128.Idx) :
    lastSteps v14 (k1_pay14 (F := Ideal) w)
        (k1_pay19 (F := Ideal) v14 (k1_pay14 w) (k1_pay16 v14 (k1_pay14 w) (k1_pay15 v14 w)) (k1_pay17 v14) (k1_pay18 (k1_pay14 w))) p
      = wAt (fun k => w (ix2 (0 : Fin 1) k)) (v14 p) := by
  unfold lastSteps
  rw [chain_14_23, chain_6_14, chain_0_6]
  rw [selChain_append _ _ _ 0 6 8, selChain_append _ _ _ 0 14 9, selChain_append _ _ _ 0 23 7]
  exact selChain_thirty _ _ (tabN_block w) _

end Cert.Ghm.Lossk

end
-- ==== Proof.LosskBody.lean ====
/-
  The body's stored value at the ideal instance: the running sum plus the block's weighted sum.

  The sum over the whole [1, 8192, 128] block is a reduction into a shape of unit axes, so it is the
  total over the block's indices, which are (0, r, l) for r < 8192, l < 128; at each the summand is the
  weight — the table read at the sample's bin word — times the sample's cross-entropy sum.
-/
import proofs.«105683_j74105365725384_2_alg».proof.Proof.LosskBodyDef
import proofs.«105683_j74105365725384_2_alg».proof.Proof.LosskSample
import proofs.«105683_j74105365725384_2_alg».proof.Proof.LosskWeight
import Idealize.ShloMosaic.PureOps.Ideal.Laws

set_option maxRecDepth 16384

noncomputable section

open scoped BigOperators

namespace Cert.Ghm.Lossk

open Idealize.ShloMosaic Idealize.ShloMosaic.ValueIdx
open Cert.KernelIdeal Cert.KernelIdeal.Gen

/-- The indices of a [1, 8192, 128] block are the pairs (r, l). -/
def blockIdxEquiv : S1x8192x128.Idx ≃ Fin 8192 × Fin 128 where
  toFun i := (i 1, i 2)
  invFun p := ix3 (0 : Fin 1) p.1 p.2
  left_inv i := by
    funext a
    match a with
    | ⟨0, _⟩ => exact Subsingleton.elim (α := Fin 1) _ _
    | ⟨1, _⟩ => rfl
    | ⟨2, _⟩ => rfl
  right_inv _ := rfl

/-- A sum over the block is the double sum over rows and lanes. -/
theorem sum_block (f : S1x8192x128.Idx → EReal) :
    ∑ i, f i = ∑ r : Fin 8192, ∑ l : Fin 128, f (ix3 (0 : Fin 1) r l) := by
  rw [← Equiv.sum_comp blockIdxEquiv.symm f, Fintype.sum_prod_type]
  rfl

/-- A vector of one entry that holds the same value at every index, recast to [1, 1, 1], read at its
    entry and spread over a [1, 1] vector, holds that value. -/
theorem spread_const {α : Type} (R : S1.Idx → α) (v : α) (hR : ∀ j, R j = v) (q : S1x1.Idx) :
    broadcast S1x1 (extractAt ![0, 0, 0] (shapeCast S1x1x1 R shapeCasts_S1_S1x1x1) inpos_S1x1x1_p0_0_0) q = v :=
  hR _

/-- One sample's contribution. -/
def term (w : Vec Ideal S1x30 .f32) (x : Ideal .f32) (b : BitVec 32) : Ideal .f32 :=
  wAt (fun k => w (ix2 (0 : Fin 1) k)) (bin x b) * bceSum x b

/-- The block's weighted sum, at the one entry of the [1, 1] vector. -/
theorem blockSum_at (x0 : Vec Ideal S1x8192x128 .f32) (x1 : Vec Ideal S1x8192x128 .i32) (w : Vec Ideal S1x30 .f32)
    (q : S1x1.Idx) :
    blockSum (F := Ideal) x0 x1 w q
      = ∑ r : Fin 8192, ∑ l : Fin 128, term w (x0 (ix3 (0 : Fin 1) r l)) (x1 (ix3 (0 : Fin 1) r l)) := by
  unfold blockSum
  rw [last_piece]
  refine (spread_const _ _ (fun j => Ideal.multiReduction_add_total _ _ reduces_S1x8192x128_S1 (fun b => by
      match b with | ⟨0, _⟩ => rfl) _ _ j) q).trans ?_
  rw [sum_block]
  refine Finset.sum_congr rfl fun r _ => Finset.sum_congr rfl fun l _ => ?_
  refine (shapeCast_ab_1ab_apply _ shapeCasts_S8192x128_S1x8192x128 (0 : Fin 1) r l).trans ?_
  show lastSteps _ _ _ (ix2 r l) * k1_pay13 _ _ _ _ _ _ _ (ix2 r l) = _
  rw [weight_at, bin_at, bceSum_at]
  rfl

/-- The stored value at the output block's one entry. -/
theorem bodyVal_at (x0 : Vec Ideal S1x8192x128 .f32) (x1 : Vec Ideal S1x8192x128 .i32) (w : Vec Ideal S1x30 .f32)
    (prev : Vec Ideal S1x1x1 .f32) :
    bodyVal (F := Ideal) x0 x1 w prev (ix3 (0 : Fin 1) (0 : Fin 1) (0 : Fin 1))
      = prev (ix3 (0 : Fin 1) (0 : Fin 1) (0 : Fin 1))
        + ∑ r : Fin 8192, ∑ l : Fin 128, term w (x0 (ix3 (0 : Fin 1) r l)) (x1 (ix3 (0 : Fin 1) r l)) := by
  unfold bodyVal k1_pay2
  refine (shapeCast_ab_1ab_apply _ shapeCasts_S1x1_S1x1x1 (0 : Fin 1) (0 : Fin 1) (0 : Fin 1)).trans ?_
  show shapeCast S1x1 prev shapeCasts_S1x1x1_S1x1 (ix2 (0 : Fin 1) (0 : Fin 1)) + blockSum x0 x1 w (ix2 (0 : Fin 1) (0 : Fin 1)) = _
  rw [blockSum_at]
  exact congrArg (· + _) (shapeCast_1ab_ab_apply prev shapeCasts_S1x1x1_S1x1 (0 : Fin 1) (0 : Fin 1))

/-- The zero block the first step of a half starts from is zero at its entry. -/
theorem zero_at : k1_pay1 (F := Ideal) (ix3 (0 : Fin 1) (0 : Fin 1) (0 : Fin 1)) = 0 := by
  unfold k1_pay1
  refine (shapeCast_ab_1ab_apply _ shapeCasts_S1x1_S1x1x1 (0 : Fin 1) (0 : Fin 1) (0 : Fin 1)).trans ?_
  exact Ideal.ofBits_zero_f32

end Cert.Ghm.Lossk

end
-- ==== Proof.LosskInv.lean ====
/-
  The output block of the weighted-loss pass after each grid point.

  The sixteen points are two halves of eight steps.  The output block of a half is zeroed at the half's
  first step and every step adds the weighted sum of the block of samples it reads.  So after point n
  the block's one entry is the sum, over the steps of n's half up to n, of the weighted sums of the
  blocks those steps read: zero plus the first, by the first step's run; the step before plus one more
  at every other step.  The ordered sum is a finite sum in the extended reals, whatever the summands.
-/
import proofs.«105683_j74105365725384_2_alg».proof.Proof.Gen.KernelIdeal.Frame
import proofs.«105683_j74105365725384_2_alg».proof.Proof.LosskPieces
import proofs.«105683_j74105365725384_2_alg».proof.Proof.LosskBody

set_option maxRecDepth 16384

noncomputable section

open scoped BigOperators

namespace Cert.Ghm.Lossk

open Idealize.ShloMosaic Idealize.ShloMosaic.TcCoe Idealize.ShloMosaic.ValueIdx Idealize.SL.Sem
open Cert.KernelIdeal Cert.KernelIdeal.Gen

/-- A run of the body at a first step, read at the block's entry: the weighted sum of the loaded block
    (over loaded blocks of any contents). -/
theorem runA_entry (c : Dev nD) (i : grid1.Coords) (a2 : Memref sig .tc .vmem S1x8192x128 .f32) (h2 : a2.IsWhole)
    (a3 : Memref sig .tc .vmem S1x8192x128 .i32) (h3 : a3.IsWhole) (a4 : Memref sig .tc .vmem S1x30 .f32) (h4 : a4.IsWhole)
    (a5 : Memref sig .tc .vmem S1x1x1 .f32) (h5 : a5.IsWhole) (hc : cond1_0 i)
    (x0 : Vec Ideal S1x8192x128 .f32) (x1 : Vec Ideal S1x8192x128 .i32) (x2 : Vec Ideal S1x30 .f32) :
    out1_A_3 (F := Ideal) c i a2 h2 a3 h3 a4 h4 a5 h5 hc x0 x1 x2 (ix3 (0 : Fin 1) (0 : Fin 1) (0 : Fin 1))
      = ∑ r : Fin 8192, ∑ l : Fin 128, term x2 (x0 (ix3 (0 : Fin 1) r l)) (x1 (ix3 (0 : Fin 1) r l)) := by
  rw [out_A, bodyVal_at, zero_at, zero_add]

/-- A run of the body at any other step, over the running sum `xo`: that plus the weighted sum. -/
theorem runB_entry (c : Dev nD) (i : grid1.Coords) (a2 : Memref sig .tc .vmem S1x8192x128 .f32) (h2 : a2.IsWhole)
    (a3 : Memref sig .tc .vmem S1x8192x128 .i32) (h3 : a3.IsWhole) (a4 : Memref sig .tc .vmem S1x30 .f32) (h4 : a4.IsWhole)
    (a5 : Memref sig .tc .vmem S1x1x1 .f32) (h5 : a5.IsWhole) (hc : ¬cond1_0 i)
    (x0 : Vec Ideal S1x8192x128 .f32) (x1 : Vec Ideal S1x8192x128 .i32) (x2 : Vec Ideal S1x30 .f32) (xo : Vec Ideal S1x1x1 .f32) :
    out1_B_3 (F := Ideal) c i a2 h2 a3 h3 a4 h4 a5 h5 hc x0 x1 x2 xo (ix3 (0 : Fin 1) (0 : Fin 1) (0 : Fin 1))
      = xo (ix3 (0 : Fin 1) (0 : Fin 1) (0 : Fin 1))
        + ∑ r : Fin 8192, ∑ l : Fin 128, term x2 (x0 (ix3 (0 : Fin 1) r l)) (x1 (ix3 (0 : Fin 1) r l)) := by
  rw [out_B, bodyVal_at]

variable (V : (c : Dev nD) → (b : Ref sig .tc) → Buf (Elt Ideal) ((c : Thread nD τ).loc b))

/-- The weighted sum of the block of samples point t reads, with the weight table it reads. -/
def pointSum (c : Dev nD) (t : Fin cfg1.N) : EReal :=
  ∑ r : Fin 8192, ∑ l : Fin 128,
    term (iblk1 V c 2 t) ((iblk1 V c 0 t : Vec Ideal S1x8192x128 .f32) (ix3 (0 : Fin 1) r l))
      ((iblk1 V c 1 t : Vec Ideal S1x8192x128 .i32) (ix3 (0 : Fin 1) r l))

/-- The same by the point's number (zero past the grid, where nothing is summed). -/
def pointSumN (c : Dev nD) (k : Nat) : EReal := if h : k < cfg1.N then pointSum V c ⟨k, h⟩ else 0

theorem pointSumN_of_lt (c : Dev nD) (k : Nat) (h : k < cfg1.N) : pointSumN V c k = pointSum V c ⟨k, h⟩ := dif_pos h

/-- A first step of a half leaves the weighted sum of its block. -/
theorem entry_A (c : Dev nD) (t : Fin cfg1.N) (h0 : t.val % 8 = 0) :
    outsAt1 V c t.val t.isLt (ix3 (0 : Fin 1) (0 : Fin 1) (0 : Fin 1)) = pointSum V c t := by
  rw [outsAt1_A V c t h0]
  exact runA_entry c (grid1.coords t) (ms1_0 t) (hs1_0 t) (ms1_1 t) (hs1_1 t) (ms1_2 t) (hs1_2 t)
    (ms1_3 t) (hs1_3 t) ((hcond1_0 t).mpr h0) (iblk1 V c 0 t) (iblk1 V c 1 t) (iblk1 V c 2 t)

/-- Every other step adds the weighted sum of its block to what the step before left. -/
theorem entry_B (c : Dev nD) (t : Fin cfg1.N) (h0 : ¬t.val % 8 = 0) :
    outsAt1 V c t.val t.isLt (ix3 (0 : Fin 1) (0 : Fin 1) (0 : Fin 1))
      = outsAt1 V c (t.val - 1) (Nat.lt_of_le_of_lt (Nat.sub_le _ _) t.isLt) (ix3 (0 : Fin 1) (0 : Fin 1) (0 : Fin 1))
        + pointSum V c t := by
  rw [outsAt1_B V c t h0]
  exact runB_entry c (grid1.coords t) (ms1_0 t) (hs1_0 t) (ms1_1 t) (hs1_1 t) (ms1_2 t) (hs1_2 t)
    (ms1_3 t) (hs1_3 t) (fun h => h0 ((hcond1_0 t).mp h)) (iblk1 V c 0 t) (iblk1 V c 1 t) (iblk1 V c 2 t)
    (outsAt1 V c (t.val - 1) (Nat.lt_of_le_of_lt (Nat.sub_le _ _) t.isLt))

/-- After point n the entry is the sum over the steps of n's half up to n. -/
theorem outsAt_entry (c : Dev nD) : ∀ (n : Nat) (h : n < cfg1.N),
    outsAt1 V c n h (ix3 (0 : Fin 1) (0 : Fin 1) (0 : Fin 1))
      = ∑ s ∈ Finset.range (n % 8 + 1), pointSumN V c (8 * (n / 8) + s)
  | 0, h => by
    refine (entry_A V c ⟨0, h⟩ rfl).trans ?_
    simp only [Nat.zero_mod, Nat.zero_div, Nat.mul_zero, Nat.zero_add, Finset.sum_range_one]
    exact (pointSumN_of_lt V c 0 h).symm
  | n + 1, h => by
    by_cases h0 : (n + 1) % 8 = 0
    · refine (entry_A V c ⟨n + 1, h⟩ h0).trans ?_
      have e : 8 * ((n + 1) / 8) + 0 = n + 1 := by omega
      rw [h0, Nat.zero_add, Finset.sum_range_one, e]
      exact (pointSumN_of_lt V c (n + 1) h).symm
    · refine (entry_B V c ⟨n + 1, h⟩ h0).trans ?_
      have e1 : (n + 1) % 8 = n % 8 + 1 := by omega
      have e2 : (n + 1) / 8 = n / 8 := by omega
      have e3 : 8 * (n / 8) + (n % 8 + 1) = n + 1 := by omega
      rw [e1, e2, Finset.sum_range_succ, ← outsAt_entry c n (Nat.lt_of_succ_lt h), e3, pointSumN_of_lt V c (n + 1) h]
      rfl

end Cert.Ghm.Lossk

end
-- ==== Proof.LosskFinal.lean ====
/-
  The output array of the weighted-loss pass after the region.

  The output is a [2, 1, 1] array, one entry per half.  The block of half h is written back once, after
  the half's last step (point 8h + 7), when it holds the sum over the half's eight steps of the weighted
  sums of the blocks they read; the two write-backs cover the array.  Step j of half h reads rows
  8192·j … 8192·j + 8191 of half h of the logits and labels (a block's element sits at block index ×
  block size + its coordinate inside) and the whole weight table, so the entry of half h is the sum over
  the half's samples of weight(bin) · (cross-entropy sum).
-/
import proofs.«105683_j74105365725384_2_alg».proof.Proof.Gen.KernelIdeal.Frame
import proofs.«105683_j74105365725384_2_alg».proof.Proof.LosskInv
import proofs.«105683_j74105365725384_2_alg».proof.Proof.KRegroup
import Idealize.ShloMosaic.Lib.Pipeline.Value

set_option maxRecDepth 16384

noncomputable section

open scoped BigOperators

namespace Cert.Ghm.Lossk

open Idealize.ShloMosaic Idealize.ShloMosaic.TcCoe Idealize.ShloMosaic.ValueIdx Idealize.SL.Sem
open Idealize.ShloMosaic.Pipeline (Dat)
open Cert.KernelIdeal Cert.KernelIdeal.Gen
open Cert.Ghm.Regroup (row)

variable (V : (c : Dev nD) → (b : Ref sig .tc) → Buf (Elt Ideal) ((c : Thread nD τ).loc b))

/-- The block indices of the four windows at point t, decided over the sixteen points: logits and
    labels at (half, step, 0), the weight table at (0, 0), the output at (half, 0, 0). -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = t.val % 8 ∧ win1_1.index t (2 : Fin 3) = 0
    ∧ win1_2.index t (0 : Fin 2) = 0 ∧ win1_2.index t (1 : Fin 2) = 0
    ∧ win1_3.index t (0 : Fin 3) = t.val / 8 ∧ win1_3.index t (1 : Fin 3) = 0 ∧ win1_3.index t (2 : Fin 3) = 0 :=
  (by decide +kernel : ∀ t : Fin grid1.N, _)

/-- Step j of half h, as a grid point. -/
def pt (h : Fin 2) (j : Fin 8) : Fin cfg1.N :=
  ⟨8 * h.val + j.val, by have := h.isLt; have := j.isLt; show _ < grid1.N; rw [N_1]; omega⟩

theorem pt_val (h : Fin 2) (j : Fin 8) : (pt h j).val = 8 * h.val + j.val := rfl

/-- The logits block of step j of half h, at (r, l). -/
theorem read_logits (c : Dev nD) (h : Fin 2) (j : Fin 8) (r : Fin 8192) (l : Fin 128) :
    (iblk1 V c 0 (pt h j) : Vec Ideal S1x8192x128 .f32) (ix3 (0 : Fin 1) r l) = V c main_v0 (ix3 h (row j r) l) := by
  obtain ⟨e0, e1, e2, -⟩ := idx_facts (pt h j)
  have hh := h.isLt; have hj := j.isLt
  unfold iblk1
  rw [View.read_apply]
  show V c main_v0 _ = V c main_v0 _
  congr 1
  funext a
  apply Fin.ext
  match a with
  | ⟨0, _⟩ => show win1_0.index (pt h j) (0 : Fin 3) * 1 + 1 * (0 : Fin 1).val = h.val; rw [e0, pt_val]; simp only [Fin.val_zero]; omega
  | ⟨1, _⟩ => show win1_0.index (pt h j) (1 : Fin 3) * 8192 + 1 * r.val = j.val * 8192 + r.val; rw [e1, pt_val]; omega
  | ⟨2, _⟩ => show win1_0.index (pt h j) (2 : Fin 3) * 128 + 1 * l.val = l.val; rw [e2]; omega

/-- The labels block of step j of half h, at (r, l). -/
theorem read_labels (c : Dev nD) (h : Fin 2) (j : Fin 8) (r : Fin 8192) (l : Fin 128) :
    (iblk1 V c 1 (pt h j) : Vec Ideal S1x8192x128 .i32) (ix3 (0 : Fin 1) r l) = V c main_v1 (ix3 h (row j r) l) := by
  obtain ⟨-, -, -, e0, e1, e2, -⟩ := idx_facts (pt h j)
  have hh := h.isLt; have hj := j.isLt
  unfold iblk1
  rw [View.read_apply]
  show V c main_v1 _ = V c main_v1 _
  congr 1
  funext a
  apply Fin.ext
  match a with
  | ⟨0, _⟩ => show win1_1.index (pt h j) (0 : Fin 3) * 1 + 1 * (0 : Fin 1).val = h.val; rw [e0, pt_val]; simp only [Fin.val_zero]; omega
  | ⟨1, _⟩ => show win1_1.index (pt h j) (1 : Fin 3) * 8192 + 1 * r.val = j.val * 8192 + r.val; rw [e1, pt_val]; omega
  | ⟨2, _⟩ => show win1_1.index (pt h j) (2 : Fin 3) * 128 + 1 * l.val = l.val; rw [e2]; omega

/-- The weight table's block at any point is the whole table. -/
theorem read_table (c : Dev nD) (t : Fin cfg1.N) (k : Fin 30) :
    (iblk1 V c 2 t : Vec Ideal S1x30 .f32) (ix2 (0 : Fin 1) k) = V c main_v25 (ix2 (0 : Fin 1) k) := by
  obtain ⟨-, -, -, -, -, -, e0, e1, -⟩ := idx_facts t
  unfold iblk1
  rw [View.read_apply]
  show V c main_v25 _ = V c main_v25 _
  congr 1
  funext a
  apply Fin.ext
  match a with
  | ⟨0, _⟩ => show win1_2.index t (0 : Fin 2) * 1 + 1 * (0 : Fin 1).val = (0 : Fin 1).val; rw [e0]; omega
  | ⟨1, _⟩ => show win1_2.index t (1 : Fin 2) * 30 + 1 * k.val = k.val; rw [e1]; omega

/-- The weighted sum of step j of half h, over the arrays the region found. -/
theorem pointSum_eq (c : Dev nD) (h : Fin 2) (j : Fin 8) :
    pointSum V c (pt h j) = ∑ r : Fin 8192, ∑ l : Fin 128,
      wAt (fun k => V c main_v25 (ix2 (0 : Fin 1) k)) (bin (V c main_v0 (ix3 h (row j r) l)) (V c main_v1 (ix3 h (row j r) l)))
        * bceSum (V c main_v0 (ix3 h (row j r) l)) (V c main_v1 (ix3 h (row j r) l)) := by
  unfold pointSum
  refine Finset.sum_congr rfl fun r _ => Finset.sum_congr rfl fun l _ => ?_
  rw [read_logits V c h j r l, read_labels V c h j r l]
  unfold term
  rw [show (fun k : Fin 30 => (iblk1 V c 2 (pt h j) : Vec Ideal S1x30 .f32) (ix2 (0 : Fin 1) k))
      = fun k : Fin 30 => V c main_v25 (ix2 (0 : Fin 1) k) from funext fun k => read_table V c (pt h j) k]

/-- The sum over the eight steps of half k. -/
def halfSumN (c : Dev nD) (k : Nat) : EReal := ∑ s ∈ Finset.range 8, pointSumN V c (8 * k + s)

/-- The array the region leaves: at half h, that half's sum. -/
def arr (c : Dev nD) : Buf (Elt Ideal) ((c : Thread nD τ).loc main_v26) :=
  fun (i : S2x1x1.Idx) => halfSumN V c (i 0).val

/-- What the write-back after a half's last step writes is that half's block of `arr`. -/
theorem flushed_eq (c : Dev nD) (t : Fin cfg1.N) (hf : (cfg1.win 3).flush t = true) :
    (dat1 V c).flushed 3 t = ((cfg1.win 3).blk t).view.read (Elt Ideal) (arr V c) := by
  have h7 : t.val % 8 = 7 := (flush1_3 t).mp hf
  obtain ⟨-, -, -, -, -, -, -, -, e0, -⟩ := idx_facts t
  have hy : ∀ z : S1x1x1.Idx, z = ix3 (0 : Fin 1) (0 : Fin 1) (0 : Fin 1) := fun z => funext fun a => Fin.ext (by
    match a with
    | ⟨0, _⟩ => show (z 0).val = 0; have : (z 0).val < 1 := (z 0).isLt; omega
    | ⟨1, _⟩ => show (z 1).val = 0; have : (z 1).val < 1 := (z 1).isLt; omega
    | ⟨2, _⟩ => show (z 2).val = 0; have : (z 2).val < 1 := (z 2).isLt; omega)
  funext y
  show (cfg1.win 3).cut (grid1.coords t) ((dat1 V c).after 3 t) y = _
  rw [after1_3, View.read_apply]
  refine (congrArg (outsAt1 V c t.val t.isLt) (hy _)).trans ?_
  rw [outsAt_entry V c t.val t.isLt, h7]
  have hk : ((((cfg1.win 3).blk t).view.emb y) (0 : Fin 3)).val = t.val / 8 := by
    show win1_3.index t (0 : Fin 3) * 1 + 1 * (y 0).val = t.val / 8
    have : (y 0).val < 1 := (y 0).isLt
    rw [e0]; omega
  show halfSumN V c (t.val / 8) = halfSumN V c ((((cfg1.win 3).blk t).view.emb y) (0 : Fin 3)).val
  rw [hk]

/-- Every entry of the array is in the block some write-back writes. -/
theorem covered (c : Dev nD) (i : S2x1x1.Idx) :
    ∃ t : Fin cfg1.N, (cfg1.win 3).flush t = true ∧ i ∈ ((cfg1.win 3).blk t).view.set := by
  have hi0 : (i 0).val < 2 := (i 0).isLt
  have hi1 : (i 1).val < 1 := (i 1).isLt
  have hi2 : (i 2).val < 1 := (i 2).isLt
  obtain ⟨t, ht⟩ : ∃ t : Fin cfg1.N, t.val = 8 * (i 0).val + 7 :=
    ⟨⟨8 * (i 0).val + 7, by show _ < grid1.N; rw [N_1]; omega⟩, rfl⟩
  obtain ⟨-, -, -, -, -, -, -, -, e0, e1, e2⟩ := idx_facts t
  refine ⟨t, (flush1_3 t).mpr (by omega), ?_⟩
  show i ∈ ((View.whole main_v26).slice (win1_3.rect t)).set
  rw [View.set_slice_whole, Rect.mem_set_unit]
  intro a
  match a with
  | ⟨0, _⟩ => show win1_3.index t (0 : Fin 3) * 1 ≤ (i 0).val ∧ (i 0).val < win1_3.index t (0 : Fin 3) * 1 + 1; rw [e0]; omega
  | ⟨1, _⟩ => show win1_3.index t (1 : Fin 3) * 1 ≤ (i 1).val ∧ (i 1).val < win1_3.index t (1 : Fin 3) * 1 + 1; rw [e1]; omega
  | ⟨2, _⟩ => show win1_3.index t (2 : Fin 3) * 1 ≤ (i 2).val ∧ (i 2).val < win1_3.index t (2 : Fin 3) * 1 + 1; rw [e2]; omega

/-- The output array after the region. -/
theorem arr_eq (c : Dev nD) : (dat1 V c).arrAt 3 cfg1.N = arr V c :=
  (dat1 V c).arrAt_eq_of_cover 3 (arr V c) (flushed_eq V c) (covered c)

/-- THE OUTPUT OF THE WEIGHTED-LOSS PASS: the entry of half h is the sum over the half's eight steps, the
    8192 rows of a step's block and the 128 lanes of weight(bin) · (cross-entropy sum) of the sample, the
    weight read from the table the region found. -/
theorem final (c : Dev nD) (h : Fin 2) :
    (dat1 V c).arrAt 3 cfg1.N (ix3 h (0 : Fin 1) (0 : Fin 1))
      = ∑ j : Fin 8, ∑ r : Fin 8192, ∑ l : Fin 128,
          wAt (fun k => V c main_v25 (ix2 (0 : Fin 1) k))
              (bin (V c main_v0 (ix3 h (row j r) l)) (V c main_v1 (ix3 h (row j r) l)))
            * bceSum (V c main_v0 (ix3 h (row j r) l)) (V c main_v1 (ix3 h (row j r) l)) := by
  rw [arr_eq]
  show halfSumN V c h.val = _
  unfold halfSumN
  rw [Finset.sum_range]
  refine Finset.sum_congr rfl fun j _ => ?_
  exact (pointSumN_of_lt V c _ (pt h j).isLt).trans (pointSum_eq V c h j)

end Cert.Ghm.Lossk

end
-- ==== Proof.lean ====
/-
  The certificate of a histogram-weighted binary cross-entropy: a kernel in two passes over 2^24 samples against a
  jnp reference.

  The loss. Per sample: p = 1/(1+e^{-x}), t the integer label as a real, g = |p - t|, bin = clamp(trunc(30 g), 0, 29).
  A bin's count is the number of channel entries in it, the two channels (p, 1-p) against (t, 1-t) having the same gap,
  so it is twice the number of samples in the bin. From the thirty counts and the running sums a short pointwise chain
  gives thirty weights; the loss is the sum over samples of weight(bin) · (bce₀ + bce₁) over 2N.

  The kernel counts the bins in a first pass (two halves of eight blocks of 8192 × 128 samples, each half's thirty
  counters accumulated over its eight blocks), makes the weights on the host, and in a second pass accumulates the
  weighted cross-entropy per half the same way; the host adds the halves and divides. The reference stacks the two
  channels, scatters a one per channel entry into the counts, gathers the weights per channel entry and sums everything.
  On the extended reals the two are the same function of finite inputs: the tiles partition the samples (sums only
  regroup), the channels' gaps agree because p and t are real, and a real weight distributes over the two real
  cross-entropy terms.

  Frames: the kernel's two are the generated frame certificates; the reference's is its run with the result dropped.
  The idealization rewrote nothing, so what it preserves is trivial.
-/
import proofs.«105683_j74105365725384_2_alg».proof.Defs
import proofs.«105683_j74105365725384_2_alg».proof.Proof.Gen.Kernel
import proofs.«105683_j74105365725384_2_alg».proof.Proof.Gen.Kernel.Skeleton
import proofs.«105683_j74105365725384_2_alg».proof.Proof.Gen.Kernel.Launch
import proofs.«105683_j74105365725384_2_alg».proof.Proof.Gen.Kernel.Points
import proofs.«105683_j74105365725384_2_alg».proof.Proof.Gen.Kernel.Frame
import proofs.«105683_j74105365725384_2_alg».proof.Proof.Gen.KernelIdeal
import proofs.«105683_j74105365725384_2_alg».proof.Proof.Gen.KernelIdeal.Skeleton
import proofs.«105683_j74105365725384_2_alg».proof.Proof.Gen.KernelIdeal.Launch
import proofs.«105683_j74105365725384_2_alg».proof.Proof.Gen.KernelIdeal.Points
import proofs.«105683_j74105365725384_2_alg».proof.Proof.Gen.KernelIdeal.Frame
import proofs.«105683_j74105365725384_2_alg».proof.Proof.Gen.ReferenceIdeal
import proofs.«105683_j74105365725384_2_alg».proof.Proof.Gen.Pre_finite_inputs
import proofs.«105683_j74105365725384_2_alg».proof.Proof.RefRun
import proofs.«105683_j74105365725384_2_alg».proof.Proof.RefRead
import proofs.«105683_j74105365725384_2_alg».proof.Proof.RefV
import proofs.«105683_j74105365725384_2_alg».proof.Proof.AlgLoss
import proofs.«105683_j74105365725384_2_alg».proof.Proof.KRun
import proofs.«105683_j74105365725384_2_alg».proof.Proof.KValue
import proofs.«105683_j74105365725384_2_alg».proof.Proof.KPre
import proofs.«105683_j74105365725384_2_alg».proof.Proof.HistPts
import proofs.«105683_j74105365725384_2_alg».proof.Proof.LosskFinal
import Idealize.ShloMosaic.Adequacy
import Idealize.ShloMosaic.Init

noncomputable section

namespace Cert.Proof

open Idealize.ShloMosaic Idealize.ShloMosaic.TcCoe Idealize.SL.Sem

/-- The word-level kernel runs and leaves its arguments. -/
theorem frame_k : Cert.frame_Kernel := fun m ρ _ => Cert.Kernel.Gen.frame m ρ
/-- The idealized kernel runs and leaves its arguments. -/
theorem frame_ki : Cert.frame_KernelIdeal := fun m ρ _ => Cert.KernelIdeal.Gen.frame m ρ
/-- The idealized reference runs and leaves its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- What the two regions leave, from their accumulations over the grid. -/
theorem hist_final : Cert.Ghm.KValue.HistFinal := fun V c h k => Cert.Ghm.Hist.final V c h k
theorem loss_final : Cert.Ghm.KValue.LossFinal := fun V c h => Cert.Ghm.Lossk.final V c h

/-- On finite inputs both idealized programs end with the loss of the arguments in their result. -/
theorem algebraic : Cert.algebraic_KernelIdeal_ReferenceIdeal := by
  intro m ρ m' ρ' hpre hagree
  refine ⟨fun c => fun _ => Cert.Ghm.loss (Cert.Ghm.KValue.X m c) (Cert.Ghm.KValue.ACC m c) (Cert.Ghm.KValue.TG m c), ?_, ?_⟩
  · exact (θ_run Cert.KernelIdeal.defs _ _).mono
      (fun r h c => ⟨(h c).1.trans (Cert.Ghm.KValue.result_eq m ρ c hist_final loss_final), (h c).2⟩)
      (Cert.Ghm.KRun.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨hx, hacc⟩ := Cert.Ghm.KPre.real_of_pre _ _ _ (hpre c)
    rw [Cert.ReferenceIdeal.ReadP.val_main_v77_eq, (hagree c).1, (hagree c).2.1, (hagree c).2.2, Cert.Ghm.RefV.ref_read]
    funext _
    exact Cert.Ghm.lossR_eq_loss _ _ _ hx hacc

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
